-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S16x2048x2048 : Shape := ⟨3, ![16, 2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  main_v58

def fn_part2 {F : FTy → Type} [FloatOps F] (main_arg7 : FVec F S2048 .f32) (main_arg8 : FVec F S2048x2048 .f32) (main_arg9 : FVec F S2048 .f32) (main_arg10 : FVec F S2048x2048 .f32) (main_arg11 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_v48 main_v49 main_v50

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x2048 .f32) (main_arg1 : FVec F S2048x2048 .f32) (main_arg2 : FVec F S2048x2048 .f32) (main_arg3 : FVec F S16x2048x2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_arg4 main_arg5 main_arg6 main_arg7 main_arg8 main_arg9 main_arg10 main_arg11 main_v13 main_v16
-- ==== Kernel.lean ====
abbrev S2048x2048 : Shape := ⟨2, ![2048, 2048]⟩
abbrev S16x2048x2048 : Shape := ⟨3, ![16, 2048, 2048]⟩
abbrev S2048 : Shape := ⟨1, ![2048]⟩
abbrev S1x2048 : Shape := ⟨2, ![1, 2048]⟩
abbrev S1024x2048 : Shape := ⟨2, ![1024, 2048]⟩
abbrev S512x2048 : Shape := ⟨2, ![512, 2048]⟩
abbrev S1x512 : Shape := ⟨2, ![1, 512]⟩
abbrev S1024x512 : Shape := ⟨2, ![1024, 512]⟩
abbrev S1024x128 : Shape := ⟨2, ![1024, 128]⟩
abbrev S1x1024x1024 : Shape := ⟨3, ![1, 1024, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 21
  | .vmem => 45
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S16x2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S1x2048, .f32⟩
  | .hbm, ⟨13, _⟩ => ⟨S2048x2048, .f32⟩
  | .hbm, ⟨14, _⟩ => ⟨S1x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x2048, .f32⟩
  | .local _ .vmem, ⟨9, _⟩ => ⟨S1024x2048, .f32⟩
  | .local _ .vmem, ⟨10, _⟩ => ⟨S512x2048, .f32⟩
  | .local _ .vmem, ⟨11, _⟩ => ⟨S512x2048, .f32⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | .local _ .vmem, ⟨16, _⟩ => ⟨S1024x2048, .f32⟩
  | .local _ .vmem, ⟨17, _⟩ => ⟨S1024x2048, .f32⟩
  | .local _ .vmem, ⟨18, _⟩ => ⟨S512x2048, .f32⟩
  | .local _ .vmem, ⟨19, _⟩ => ⟨S512x2048, .f32⟩
  | .local _ .vmem, ⟨20, _⟩ => ⟨S1x512, .f32⟩
  | .local _ .vmem, ⟨21, _⟩ => ⟨S1x512, .f32⟩
  | .local _ .vmem, ⟨22, _⟩ => ⟨S1024x512, .f32⟩
  | .local _ .vmem, ⟨23, _⟩ => ⟨S1024x512, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1x1024x1024, .f32⟩
  | .local _ .vmem, ⟨31, _⟩ => ⟨S1x1024x1024, .f32⟩
  | .local _ .vmem, ⟨32, _⟩ => ⟨S1024x128, .f32⟩
  | .local _ .vmem, ⟨33, _⟩ => ⟨S1024x128, .f32⟩
  | .local _ .vmem, ⟨34, _⟩ => ⟨S1024x1, .f32⟩
  | .local _ .vmem, ⟨35, _⟩ => ⟨S1024x1, .f32⟩
  | .local _ .vmem, ⟨36, _⟩ => ⟨S1024x128, .f32⟩
  | .local _ .vmem, ⟨37, _⟩ => ⟨S1024x2048, .f32⟩
  | .local _ .vmem, ⟨38, _⟩ => ⟨S1024x2048, .f32⟩
  | .local _ .vmem, ⟨39, _⟩ => ⟨S512x2048, .f32⟩
  | .local _ .vmem, ⟨40, _⟩ => ⟨S512x2048, .f32⟩
  | .local _ .vmem, ⟨41, _⟩ => ⟨S1x512, .f32⟩
  | .local _ .vmem, ⟨42, _⟩ => ⟨S1x512, .f32⟩
  | .local _ .vmem, ⟨43, _⟩ => ⟨S1024x512, .f32⟩
  | .local _ .vmem, ⟨44, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_scratch0 : Ref sig .tc := ⟨.vmem, 34, rfl⟩
abbrev cc3_scratch1 : Ref sig .tc := ⟨.vmem, 35, rfl⟩
abbrev cc3_scratch2 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![16, 2, 2], ![false, false, false]⟩

def k3_cond2 (i : grid3.Coords) : BitVec 1 :=
  let arg2 : BitVec 32 := BitVec.ofNat 32 (i 2).val
  let c1_i32 : BitVec 32 := 1#32
  let v48 : BitVec 1 := Scalar.cmpi .eq arg2 c1_i32
  let v49 : BitVec 32 := Scalar.extui v48
  let c0_i32_27 : BitVec 32 := 0#32
  let v50 : BitVec 1 := Scalar.cmpi .ne v49 c0_i32_27
  v50

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

class Facts₀ : Prop where
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  shapeCasts_S1024x2048_S1024x2048 : S1024x2048.ShapeCasts S1024x2048
  dot_S1024x2048_S512x2048_S1024x512_1_1_0_0_n_n_wf : DotDims.WF S1024x2048 S512x2048 S1024x512 [1] [1] [0] [0] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .f32 = 32 ∨ (Rect.block (s := S2048x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S2048x2048.size a
  hwx0_3 : ∀ i : grid0.Coords, EltTy.bits .f32 = 32 ∨ (Rect.block (s := S2048x2048) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x2048.size a
  hwx1_0 : ∀ i : grid1.Coords, EltTy.bits .f32 = 32 ∨ (Rect.block (s := S2048x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .f32 = 32 ∨ (Rect.block (s := S2048x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S2048x2048.size a
  hwx1_3 : ∀ i : grid1.Coords, EltTy.bits .f32 = 32 ∨ (Rect.block (s := S2048x2048) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S2048x2048.size a
  hwx2_0 : ∀ i : grid2.Coords, EltTy.bits .f32 = 32 ∨ (Rect.block (s := S2048x2048) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S2048x2048.size a
  hwx2_1 : ∀ i : grid2.Coords, EltTy.bits .f32 = 32 ∨ (Rect.block (s := S2048x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x2048.size a
  hwx2_2 : ∀ i : grid2.Coords, EltTy.bits .f32 = 32 ∨ (Rect.block (s := S1x2048) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S2048x2048.size a
  hwx2_3 : ∀ i : grid2.Coords, EltTy.bits .f32 = 32 ∨ (Rect.block (s := S2048x2048) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S2048x2048.size a
  hwx3_0 : ∀ i : grid3.Coords, EltTy.bits .f32 = 32 ∨ (Rect.block (s := S2048x2048) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S2048x2048.size a
  hwx3_1 : ∀ i : grid3.Coords, EltTy.bits .f32 = 32 ∨ (Rect.block (s := S2048x2048) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S2048x2048.size a
  hwx3_2 : ∀ i : grid3.Coords, EltTy.bits .f32 = 32 ∨ (Rect.block (s := S2048x2048) S1024x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x1024.size a ≤ S16x2048x2048.size a
  hwx3_3 : ∀ i : grid3.Coords, EltTy.bits .f32 = 32 ∨ (Rect.block (s := S16x2048x2048) S1x1024x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S2048x2048.size a
  hwx3_4 : ∀ i : grid3.Coords, EltTy.bits .f32 = 32 ∨ (Rect.block (s := S2048x2048) S1024x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S2048x2048.size a
  hwx4_0 : ∀ i : grid4.Coords, EltTy.bits .f32 = 32 ∨ (Rect.block (s := S2048x2048) S1024x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x2048.size a ≤ S2048x2048.size a
  hwx4_1 : ∀ i : grid4.Coords, EltTy.bits .f32 = 32 ∨ (Rect.block (s := S2048x2048) S512x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x2048.size a
  hwx4_2 : ∀ i : grid4.Coords, EltTy.bits .f32 = 32 ∨ (Rect.block (s := S1x2048) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S2048x2048.size a
  hwx4_3 : ∀ i : grid4.Coords, EltTy.bits .f32 = 32 ∨ (Rect.block (s := S2048x2048) S1024x512.size (cc4_transform_3 i) (hinb4_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x1024x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v6) S1024x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v6) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S512x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v8) S1024x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2048x2048 : Shape := ⟨2, ![2048, 2048]⟩
abbrev S16x2048x2048 : Shape := ⟨3, ![16, 2048, 2048]⟩
abbrev S2048 : Shape := ⟨1, ![2048]⟩
abbrev S1x2048 : Shape := ⟨2, ![1, 2048]⟩
abbrev S2048x16x128 : Shape := ⟨3, ![2048, 16, 128]⟩
abbrev S16x2048x128 : Shape := ⟨3, ![16, 2048, 128]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 60
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S16x2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x16x128, .f32⟩
  | .hbm, ⟨18, _⟩ => ⟨S16x2048x128, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x16x128, .f32⟩
  | .hbm, ⟨25, _⟩ => ⟨S16x2048x128, .f32⟩
  | .hbm, ⟨26, _⟩ => ⟨S2048x2048, .f32⟩
  | .hbm, ⟨27, _⟩ => ⟨S2048x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x16x128, .f32⟩
  | .hbm, ⟨32, _⟩ => ⟨S16x2048x128, .f32⟩
  | .hbm, ⟨33, _⟩ => ⟨S16x2048x2048, .f32⟩
  | .hbm, ⟨34, _⟩ => ⟨S_, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S_, .f32⟩
  | .hbm, ⟨39, _⟩ => ⟨S16x2048, .f32⟩
  | .hbm, ⟨40, _⟩ => ⟨S_, .f32⟩
  | .hbm, ⟨41, _⟩ => ⟨S16x2048, .f32⟩
  | .hbm, ⟨42, _⟩ => ⟨S16x2048, .f32⟩
  | .hbm, ⟨43, _⟩ => ⟨S16x2048x1, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S_, .f32⟩
  | .hbm, ⟨48, _⟩ => ⟨S16x2048, .f32⟩
  | .hbm, ⟨49, _⟩ => ⟨S16x2048x1, .f32⟩
  | .hbm, ⟨50, _⟩ => ⟨S16x2048x2048, .f32⟩
  | .hbm, ⟨51, _⟩ => ⟨S16x2048x2048, .f32⟩
  | .hbm, ⟨52, _⟩ => ⟨S16x2048x128, .f32⟩
  | .hbm, ⟨53, _⟩ => ⟨S2048x16x128, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S1x2048, .f32⟩
  | .hbm, ⟨58, _⟩ => ⟨S2048x2048, .f32⟩
  | .hbm, ⟨59, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  shapeCasts_S2048x2048_S2048x16x128 : S2048x2048.ShapeCasts S2048x16x128
  transposes_S2048x16x128_S16x2048x128_1_0_2 : S2048x16x128.Transposes [1, 0, 2] S16x2048x128
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x128_S2048x16x128_1_0_2 : S16x2048x128.Transposes [1, 0, 2] S2048x16x128
  shapeCasts_S2048x16x128_S2048x2048 : S2048x16x128.ShapeCasts S2048x2048
  dot_S2048x2048_S2048x2048_S2048x2048_1_0_0_1_n_n_wf : DotDims.WF S2048x2048 S2048x2048 S2048x2048 [1] [0] [0] [1] [] []
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.KLin0.lean ====
/- The per-point half of the frame argument for the linear layer of region 0 (out = X · Wᵀ + b on a 2 × 4 grid).

   A BLOCK of a window at a grid point is the sub-rectangle of the window's array that the point's
   index map selects, read off the array as it stands when the region is entered (the parameter `V`):
   a 1024 × 2048 band of X, a 512 × 2048 band of W, a 1 × 512 piece of b, and the 1024 × 512 tile
   of the result. Nothing in the region writes an input array, so an input's staging buffer holds
   that block at every point, whether the point fetched it or an earlier point did.

   The body reads the three input buffers whole, reads the output buffer (the value is not used),
   and overwrites the WHOLE output buffer with one store: the bf16 product of the X band with the
   transposed W band, accumulated in f32 from zero, plus the b piece broadcast along the rows. So
   after the body the output buffer is a function of the three input blocks alone (`out0_3`),
   whatever it held before. The proof data records exactly this per point; the obligation says the
   body, run on the staging buffers at their blocks, leaves them so. Everything is stated for an
   arbitrary float model `F`. -/
import proofs.«172455_j34531537060006_2_alg».proof.Proof.Gen.Kernel.Launch
import proofs.«172455_j34531537060006_2_alg».proof.Proof.Gen.Kernel.Skeleton
import proofs.«172455_j34531537060006_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes in the thousands: the structural recursion is one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array that the point selects, read off the
    array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The X window's staging buffer holds its block at every point, fetched there or not (when it is not
    fetched the index map has not moved), for any proof data on the entry arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the W window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the b window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x2048 := Rect.unit (s := S1024x2048) ![0, 0] S1024x2048.size inb_S1024x2048_S1024x2048_0_0
abbrev r0_1 : Rect S512x2048 := Rect.unit (s := S512x2048) ![0, 0] S512x2048.size inb_S512x2048_S512x2048_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-! ## What the body leaves in the output buffer -/

/-- The output buffer after the body, from the three input blocks: its one store, of the whole buffer,
    of the product-plus-bias of the inputs as loaded. -/
def out0_3 (x0 : Vec F S1024x2048 .f32) (x1 : Vec F S512x2048 .f32) (x2 : Vec F S1x512 .f32) : Vec F S1024x512 .f32 :=
  View.canon [⟨r0_3, k0_pay1 (View.ld x0 r0_0) (View.ld x1 r0_1) (View.ld x2 r0_2)⟩]

/-- The one store is of the whole buffer, so it covers every index. -/
theorem cover0_3 (p0 : Vec F S1024x512 .f32) (y : S1024x512.Idx) :
    ∃ pc ∈ ([⟨r0_3, p0⟩] : List (View.Piece (Elt F) S1024x512 .f32)), y ∈ pc.1.set :=
  View.cover_of_tiled [⟨r0_3, p0⟩] S1024x512.size (by rfl) y

/-! ## The body's triple -/

set_option maxHeartbeats 1000000 in
/-- The body on whole staging buffers, the inputs' at contents `x0 x1 x2` and the output's at anything,
    runs to the continuation holding the inputs' as they were and the output's at `out0_3 x0 x1 x2`:
    three loads, a load of the output whose value is dropped, one store. -/
theorem sound_kernel0 (c : Dev nD) (E : Set ℕ) (i : grid0.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole)
    (x0 : Vec F S1024x2048 .f32) (x1 : Vec F S512x2048 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the
    body at point `t` each input's buffer at its block and the output's at `out0_3` of the three
    blocks; the invariant the scoped rest and the generator register, untouched; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KLin1.lean ====
/- The per-point half of the frame argument for the linear layer of region 1 (out = X · Wᵀ + b on a 2 × 4 grid).

   A BLOCK of a window at a grid point is the sub-rectangle of the window's array that the point's
   index map selects, read off the array as it stands when the region is entered (the parameter `V`):
   a 1024 × 2048 band of X, a 512 × 2048 band of W, a 1 × 512 piece of b, and the 1024 × 512 tile
   of the result. Nothing in the region writes an input array, so an input's staging buffer holds
   that block at every point, whether the point fetched it or an earlier point did.

   The body reads the three input buffers whole, reads the output buffer (the value is not used),
   and overwrites the WHOLE output buffer with one store: the bf16 product of the X band with the
   transposed W band, accumulated in f32 from zero, plus the b piece broadcast along the rows. So
   after the body the output buffer is a function of the three input blocks alone (`out1_3`),
   whatever it held before. The proof data records exactly this per point; the obligation says the
   body, run on the staging buffers at their blocks, leaves them so. Everything is stated for an
   arbitrary float model `F`. -/
import proofs.«172455_j34531537060006_2_alg».proof.Proof.Gen.Kernel.Launch
import proofs.«172455_j34531537060006_2_alg».proof.Proof.Gen.Kernel.Skeleton
import proofs.«172455_j34531537060006_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes in the thousands: the structural recursion is one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array that the point selects, read off the
    array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The X window's staging buffer holds its block at every point, fetched there or not (when it is not
    fetched the index map has not moved), for any proof data on the entry arrays whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the W window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the b window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1024x2048 := Rect.unit (s := S1024x2048) ![0, 0] S1024x2048.size inb_S1024x2048_S1024x2048_0_0
abbrev r1_1 : Rect S512x2048 := Rect.unit (s := S512x2048) ![0, 0] S512x2048.size inb_S512x2048_S512x2048_0_0
abbrev r1_2 : Rect S1x512 := Rect.unit (s := S1x512) ![0, 0] S1x512.size inb_S1x512_S1x512_0_0
abbrev r1_3 : Rect S1024x512 := Rect.unit (s := S1024x512) ![0, 0] S1024x512.size inb_S1024x512_S1024x512_0_0

/-! ## What the body leaves in the output buffer -/

/-- The output buffer after the body, from the three input blocks: its one store, of the whole buffer,
    of the product-plus-bias of the inputs as loaded. -/
def out1_3 (x0 : Vec F S1024x2048 .f32) (x1 : Vec F S512x2048 .f32) (x2 : Vec F S1x512 .f32) : Vec F S1024x512 .f32 :=
  View.canon [⟨r1_3, k1_pay1 (View.ld x0 r1_0) (View.ld x1 r1_1) (View.ld x2 r1_2)⟩]

/-- The one store is of the whole buffer, so it covers every index. -/
theorem cover1_3 (p0 : Vec F S1024x512 .f32) (y : S1024x512.Idx) :
    ∃ pc ∈ ([⟨r1_3, p0⟩] : List (View.Piece (Elt F) S1024x512 .f32)), y ∈ pc.1.set :=
  View.cover_of_tiled [⟨r1_3, p0⟩] S1024x512.size (by rfl) y

/-! ## The body's triple -/

set_option maxHeartbeats 1000000 in
/-- The body on whole staging buffers, the inputs' at contents `x0 x1 x2` and the output's at anything,
    runs to the continuation holding the inputs' as they were and the output's at `out1_3 x0 x1 x2`:
    three loads, a load of the output whose value is dropped, one store. -/
theorem sound_kernel1 (c : Dev nD) (E : Set ℕ) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole)
    (x0 : Vec F S1024x2048 .f32) (x1 : Vec F S512x2048 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__linear_kernel i arg2 harg2 arg3 harg3 arg4 harg4 arg5 harg5) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core `c`: the arrays as the region finds them; after the
    body at point `t` each input's buffer at its block and the output's at `out1_3` of the three
    blocks; the invariant the scoped rest and the generator register, untouched; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KLin2.lean ====
/- The per-point half of the frame argument for the linear layer of region 2 (out = X · Wᵀ + b on a 2 × 4 grid).

   A BLOCK of a window at a grid point is the sub-rectangle of the window's array that the point's
   index map selects, read off the array as it stands when the region is entered (the parameter `V`):
   a 1024 × 2048 band of X, a 512 × 2048 band of W, a 1 × 512 piece of b, and the 1024 × 512 tile
   of the result. Nothing in the region writes an input array, so an input's staging buffer holds
   that block at every point, whether the point fetched it or an earlier point did.

   The body reads the three input buffers whole, reads the output buffer (the value is not used),
   and overwrites the WHOLE output buffer with one store: the bf16 product of the X band with the
   transposed W band, accumulated in f32 from zero, plus the b piece broadcast along the rows. So
   after the body the output buffer is a function of the three input blocks alone (`out2_3`),
   whatever it held before. The proof data records exactly this per point; the obligation says the
   body, run on the staging buffers at their blocks, leaves them so. Everything is stated for an
   arbitrary float model `F`. -/
import proofs.«172455_j34531537060006_2_alg».proof.Proof.Gen.Kernel.Launch
import proofs.«172455_j34531537060006_2_alg».proof.Proof.Gen.Kernel.Skeleton
import proofs.«172455_j34531537060006_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes in the thousands: the structural recursion is one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array that the point selects, read off the
    array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The X window's staging buffer holds its block at every point, fetched there or not (when it is not
    fetched the index map has not moved), for any proof data on the entry arrays whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the W window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for the b window. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x2048 := Rect.unit (s := S1024x2048) ![0, 0] S1024x2048.size inb_S1024x2048_S1024x2048_0_0
abbrev r2_1 : Rect S512x2048 := Rect.unit (s := S512x2048) ![0, 0] S512x2048.size inb_S512x2048_S512x2048_0_0
abbrev r2_2 : Rect S1x512 := Rect.unit (s := S1x512) ![0, 0] S1x512.size inb_S1x512_S1x512_0_0
abbrev r2_3 : Rect S1024x512 := Rect.unit (s := S1024x512) ![0, 0] S1024x512.size inb_S1024x512_S1024x512_0_0

/-! ## What the body leaves in the output buffer -/

/-- The output buffer after the body, from the three input blocks: its one store, of the whole buffer,
    of the product-plus-bias of the inputs as loaded. -/
def out2_3 (x0 : Vec F S1024x2048 .f32) (x1 : Vec F S512x2048 .f32) (x2 : Vec F S1x512 .f32) : Vec F S1024x512 .f32 :=
  View.canon [⟨r2_3, k2_pay1 (View.ld x0 r2_0) (View.ld x1 r2_1) (View.ld x2 r2_2)⟩]

/-- The one store is of the whole buffer, so it covers every index. -/
theorem cover2_3 (p0 : Vec F S1024x512 .f32) (y : S1024x512.Idx) :
    ∃ pc ∈ ([⟨r2_3, p0⟩] : List (View.Piece (Elt F) S1024x512 .f32)), y ∈ pc.1.set :=
  View.cover_of_tiled [⟨r2_3, p0⟩] S1024x512.size (by rfl) y

/-! ## The body's triple -/

set_option maxHeartbeats 1000000 in
/-- The body on whole staging buffers, the inputs' at contents `x0 x1 x2` and the output's at anything,
    runs to the continuation holding the inputs' as they were and the output's at `out2_3 x0 x1 x2`:
    three loads, a load of the output whose value is dropped, one store. -/
theorem sound_kernel2 (c : Dev nD) (E : Set ℕ) (i : grid2.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole)
    (x0 : Vec F S1024x2048 .f32) (x1 : Vec F S512x2048 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__linear_kernel i arg2 harg2 arg3 harg3 arg4 harg4 arg5 harg5) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region's pipeline on core `c`: the arrays as the region finds them; after the
    body at point `t` each input's buffer at its block and the output's at `out2_3` of the three
    blocks; the invariant the scoped rest and the generator register, untouched; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KLin4.lean ====
/- The per-point half of the frame argument for the linear layer of region 4 (out = X · Wᵀ + b on a 2 × 4 grid).

   A BLOCK of a window at a grid point is the sub-rectangle of the window's array that the point's
   index map selects, read off the array as it stands when the region is entered (the parameter `V`):
   a 1024 × 2048 band of X, a 512 × 2048 band of W, a 1 × 512 piece of b, and the 1024 × 512 tile
   of the result. Nothing in the region writes an input array, so an input's staging buffer holds
   that block at every point, whether the point fetched it or an earlier point did.

   The body reads the three input buffers whole, reads the output buffer (the value is not used),
   and overwrites the WHOLE output buffer with one store: the bf16 product of the X band with the
   transposed W band, accumulated in f32 from zero, plus the b piece broadcast along the rows. So
   after the body the output buffer is a function of the three input blocks alone (`out4_3`),
   whatever it held before. The proof data records exactly this per point; the obligation says the
   body, run on the staging buffers at their blocks, leaves them so. Everything is stated for an
   arbitrary float model `F`. -/
import proofs.«172455_j34531537060006_2_alg».proof.Proof.Gen.Kernel.Launch
import proofs.«172455_j34531537060006_2_alg».proof.Proof.Gen.Kernel.Skeleton
import proofs.«172455_j34531537060006_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes in the thousands: the structural recursion is one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array that the point selects, read off the
    array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The X window's staging buffer holds its block at every point, fetched there or not (when it is not
    fetched the index map has not moved), for any proof data on the entry arrays whose body leaves the
    block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for the W window. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same for the b window. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S1024x2048 := Rect.unit (s := S1024x2048) ![0, 0] S1024x2048.size inb_S1024x2048_S1024x2048_0_0
abbrev r4_1 : Rect S512x2048 := Rect.unit (s := S512x2048) ![0, 0] S512x2048.size inb_S512x2048_S512x2048_0_0
abbrev r4_2 : Rect S1x512 := Rect.unit (s := S1x512) ![0, 0] S1x512.size inb_S1x512_S1x512_0_0
abbrev r4_3 : Rect S1024x512 := Rect.unit (s := S1024x512) ![0, 0] S1024x512.size inb_S1024x512_S1024x512_0_0

/-! ## What the body leaves in the output buffer -/

/-- The output buffer after the body, from the three input blocks: its one store, of the whole buffer,
    of the product-plus-bias of the inputs as loaded. -/
def out4_3 (x0 : Vec F S1024x2048 .f32) (x1 : Vec F S512x2048 .f32) (x2 : Vec F S1x512 .f32) : Vec F S1024x512 .f32 :=
  View.canon [⟨r4_3, k4_pay1 (View.ld x0 r4_0) (View.ld x1 r4_1) (View.ld x2 r4_2)⟩]

/-- The one store is of the whole buffer, so it covers every index. -/
theorem cover4_3 (p0 : Vec F S1024x512 .f32) (y : S1024x512.Idx) :
    ∃ pc ∈ ([⟨r4_3, p0⟩] : List (View.Piece (Elt F) S1024x512 .f32)), y ∈ pc.1.set :=
  View.cover_of_tiled [⟨r4_3, p0⟩] S1024x512.size (by rfl) y

/-! ## The body's triple -/

set_option maxHeartbeats 1000000 in
/-- The body on whole staging buffers, the inputs' at contents `x0 x1 x2` and the output's at anything,
    runs to the continuation holding the inputs' as they were and the output's at `out4_3 x0 x1 x2`:
    three loads, a load of the output whose value is dropped, one store. -/
theorem sound_kernel4 (c : Dev nD) (E : Set ℕ) (i : grid4.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole)
    (x0 : Vec F S1024x2048 .f32) (x1 : Vec F S512x2048 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out4_3 x0 x1 x2)) -∗ K ⟨⟩))
      ⊢ wp frame (wpE (defs₀ (F := F)) Variants.none c none) E (cc4__linear_kernel i arg2 harg2 arg3 harg3 arg4 harg4 arg5 harg5) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the region's pipeline on core `c`: the arrays as the region finds them; after the
    body at point `t` each input's buffer at its block and the output's at `out4_3` of the three
    blocks; the invariant the scoped rest and the generator register, untouched; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the
    invariant and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KAttnRuns.lean ====
/-
  The attention call's body, region by region of its control: the grid is (head, query block, key block) and the body
  branches on the key block alone — at key block 0 it first resets the three scratch buffers (running maximum, running
  denominator, running numerator), at key block 1 (the last) it divides the numerator by the denominator into the output
  block. Here: the two branch conditions in closed form over the 64 grid points, where the output window is idle, the
  staging and scratch memrefs, and the region invariant with the three scratch buffers named.
-/
import proofs.«172455_j34531537060006_2_alg».proof.Proof.Gen.Kernel.Launch
import proofs.«172455_j34531537060006_2_alg».proof.Proof.Gen.Kernel.Skeleton
import proofs.«172455_j34531537060006_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch: the key-block coordinate is 0. -/
abbrev cond3_0 (i : grid3.Coords) : Prop := (Scalar.cmpi .ne (Scalar.extui (Scalar.cmpi .eq (BitVec.ofNat 32 (i 2).val) 0#32)) 0#32) = 1#1
/-- It holds at the even points. -/
theorem hcond3_0 : ∀ t : Fin cfg3.N, cond3_0 (grid3.coords t) ↔ t.val % 2 = 0 :=
  (by decide +kernel : ∀ t : Fin grid3.N, cond3_0 (grid3.coords t) ↔ t.val % 2 = 0)

/-- The second branch: the key-block coordinate is the last one, 1. -/
abbrev cond3_1 (i : grid3.Coords) : Prop := k3_cond2 i = 1#1
/-- It holds at the odd points. -/
theorem hcond3_1 : ∀ t : Fin cfg3.N, cond3_1 (grid3.coords t) ↔ t.val % 2 = 1 :=
  (by decide +kernel : ∀ t : Fin grid3.N, cond3_1 (grid3.coords t) ↔ t.val % 2 = 1)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- At key block 0 the output window is idle and is not written back. -/
theorem idleAt3_4_A : ∀ t : Fin cfg3.N, cond3_0 (grid3.coords t) → ¬cond3_1 (grid3.coords t) → cfg3.idle 4 (grid3.coords t) = true := by decide +kernel
theorem noFlush3_4_A : ∀ t : Fin cfg3.N, cond3_0 (grid3.coords t) → ¬cond3_1 (grid3.coords t) → (cfg3.win 4).flush t = false := by decide +kernel
/-- At key block 1 the output window is live. -/
theorem liveAt3_4_B : ∀ t : Fin cfg3.N, ¬cond3_0 (grid3.coords t) → cond3_1 (grid3.coords t) → cfg3.idle 4 (grid3.coords t) = false := by decide +kernel

/-- One staging buffer of the output window, through which its contents are stated. -/
abbrev VO3_4 : View sig .tc .vmem S1024x128 .f32 := (Memref.whole cc3_stg4_0 : Memref sig .tc .vmem S1024x128 .f32).view
/-- Each window's current staging memref at a point, and its wholeness. -/
abbrev ms3_0 (t : Fin cfg3.N) : Memref sig .tc .vmem S1024x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x128 .f32 := win3_4.stage (cfg3.slots t 4)
abbrev hs3_4 (t : Fin cfg3.N) : (ms3_4 t).IsWhole := hstage3_4 ((cfg3.slots t 4).cast nbuf3_4)
/-- The three scratch operands: the running maximum, the running denominator, the running numerator. -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x128 .f32 := Memref.whole cc3_scratch2
abbrev VS3_0 : View sig .tc .vmem S1024x1 .f32 := scM3_0.view
abbrev VS3_1 : View sig .tc .vmem S1024x1 .f32 := scM3_1.view
abbrev VS3_2 : View sig .tc .vmem S1024x128 .f32 := scM3_2.view

/-- The region's resting invariant with the three scratch buffers as memrefs owned at some contents, the other scoped
    buffers unopened, and the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ Pipeline.scopedRestBut (Ix := Unit) (Name := ℕ) (U := UR sig nD τ) (Lvl := ℕ) (Val := Elt F) spec3 c [cc3_scratch0, cc3_scratch1, cc3_scratch2]) ∗ (∃ r, prngReg c r)) := by
  unfold Pipeline.ΦA; rw [scopedRest3_split]; simp only [scM3_0, scM3_1, scM3_2, owns_whole]; try rfl

end Cert.Kernel.Hand

end
-- ==== Proof.KAttnRunA.lean ====
/-
  The attention body at key block 0, run whole: it resets the three scratch buffers, reads the query, key, value and
  bias blocks, and leaves in the scratch buffers the block's row maxima (against the reset value), the rows' sums of
  exponentials and the exponentials' product with the value block; the output block is not touched. The pieces each
  scratch buffer ends with are found by running the body.
-/
import proofs.«172455_j34531537060006_2_alg».proof.Proof.KAttnRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at key block 0 on whole memrefs: inputs at their contents, the output block handed back untouched, the
    three scratch buffers at anything on entry and with the found pieces written on exit. -/
noncomputable def kernelRun3_A (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i)
    (x0 : Vec F S1024x128 .f32) (x1 : Vec F S1024x128 .f32) (x2 : Vec F S1024x128 .f32) (x3 : Vec F S1x1024x1024 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9 arg10 harg10) K } := by
  refine ⟨[], ?_, ?_, ?_, fun xi4 E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Hand

end
-- ==== Proof.KAttnRunB.lean ====
/-
  The attention body at key block 1, the last, run whole: it reads the scratch buffers as the previous point left them
  (running maximum, denominator, numerator), folds this key block in — the new maximum, both rescaled by the exponential
  of the old maximum minus the new — and stores the quotient of numerator by denominator into the output block. The
  pieces each buffer ends with are found by running the body.
-/
import proofs.«172455_j34531537060006_2_alg».proof.Proof.KAttnRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at key block 1 on whole memrefs: inputs at their contents, the scratch buffers at the contents the point
    before left, the output block at anything on entry; on exit every one of the four with the found pieces written. -/
noncomputable def kernelRun3_B (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i)
    (x0 : Vec F S1024x128 .f32) (x1 : Vec F S1024x128 .f32) (x2 : Vec F S1024x128 .f32) (x3 : Vec F S1x1024x1024 .f32)
    (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9 arg10 harg10) K } := by
  refine ⟨?_, ?_, ?_, ?_, fun E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Hand

end
-- ==== Proof.KAttn.lean ====
/-
  The attention call as a pipeline with three scratch buffers carried from one grid point to the next. The 64 points
  run (head, query block, key block) with the key block innermost, so the points come in pairs: an even point (key
  block 0) resets the scratch buffers and folds its key block in, the following odd point (key block 1) folds the
  second key block in and writes the quotient into the output block, which only then is written back. What the output
  block and the three scratch buffers hold after each point is stated by recursion on the point; the region invariant
  carries the scratch contents from a point to the next; the body obligation follows from the two whole-body runs.
-/
import proofs.«172455_j34531537060006_2_alg».proof.Proof.KAttnRunB
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- At key block 0 nothing is stored into the output block: a placeholder that nothing consults. -/
def out3_A_4 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) : Vec F S1024x128 .f32 :=
  VO3_4.read (Elt F) (VO3_4.writes (Elt F) VO3_4.junk (kernelRun3_A c i arg3 harg3 arg4 harg4 arg5 harg5 arg6 harg6 arg7 harg7 arg8 harg8 arg9 harg9 arg10 harg10 hc0 hc1 x0 x1 x2 x3).1)

/-- The stores into scratch buffer 0 cover it. -/
theorem scover3_A_0 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) (y : S1024x1.Idx) :
    ∃ pc ∈ (kernelRun3_A c i arg3 harg3 arg4 harg4 arg5 harg5 arg6 harg6 arg7 harg7 arg8 harg8 arg9 harg9 arg10 harg10 hc0 hc1 x0 x1 x2 x3).2.1, y ∈ pc.1.set :=
  View.cover_of_tiledL (kernelRun3_A c i arg3 harg3 arg4 harg4 arg5 harg5 arg6 harg6 arg7 harg7 arg8 harg8 arg9 harg9 arg10 harg10 hc0 hc1 x0 x1 x2 x3).2.1 S1024x1.size (by sl_kernel_rfl) y

/-- What the point leaves in scratch buffer 0: its pieces read back. -/
def sout3_A_0 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) : Vec F S1024x1 .f32 :=
  VS3_0.read (Elt F) (VS3_0.writes (Elt F) VS3_0.junk (kernelRun3_A c i arg3 harg3 arg4 harg4 arg5 harg5 arg6 harg6 arg7 harg7 arg8 harg8 arg9 harg9 arg10 harg10 hc0 hc1 x0 x1 x2 x3).2.1)

/-- The stores into scratch buffer 1 cover it. -/
theorem scover3_A_1 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) (y : S1024x1.Idx) :
    ∃ pc ∈ (kernelRun3_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun3_A c i arg3 harg3 arg4 harg4 arg5 harg5 arg6 harg6 arg7 harg7 arg8 harg8 arg9 harg9 arg10 harg10 hc0 hc1 x0 x1 x2 x3).2.2.1 S1024x1.size (by sl_kernel_rfl) y

/-- What the point leaves in scratch buffer 1: its pieces read back. -/
def sout3_A_1 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) : Vec F S1024x1 .f32 :=
  VS3_1.read (Elt F) (VS3_1.writes (Elt F) VS3_1.junk (kernelRun3_A c i arg3 harg3 arg4 harg4 arg5 harg5 arg6 harg6 arg7 harg7 arg8 harg8 arg9 harg9 arg10 harg10 hc0 hc1 x0 x1 x2 x3).2.2.1)

/-- The stores into scratch buffer 2 cover it. -/
theorem scover3_A_2 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) (y : S1024x128.Idx) :
    ∃ pc ∈ (kernelRun3_A c i arg3 harg3 arg4 harg4 arg5 harg5 arg6 harg6 arg7 harg7 arg8 harg8 arg9 harg9 arg10 harg10 hc0 hc1 x0 x1 x2 x3).2.2.2.1, y ∈ pc.1.set :=
  View.cover_of_tiledL (kernelRun3_A c i arg3 harg3 arg4 harg4 arg5 harg5 arg6 harg6 arg7 harg7 arg8 harg8 arg9 harg9 arg10 harg10 hc0 hc1 x0 x1 x2 x3).2.2.2.1 S1024x128.size (by sl_kernel_rfl) y

/-- What the point leaves in scratch buffer 2: its pieces read back. -/
def sout3_A_2 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) : Vec F S1024x128 .f32 :=
  VS3_2.read (Elt F) (VS3_2.writes (Elt F) VS3_2.junk (kernelRun3_A c i arg3 harg3 arg4 harg4 arg5 harg5 arg6 harg6 arg7 harg7 arg8 harg8 arg9 harg9 arg10 harg10 hc0 hc1 x0 x1 x2 x3).2.2.2.1)

/-- At key block 1 the one store into the output block covers it. -/
theorem cover3_B_4 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) (y : S1024x128.Idx) :
    ∃ pc ∈ (kernelRun3_B c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun3_B c i arg3 harg3 arg4 harg4 arg5 harg5 arg6 harg6 arg7 harg7 arg8 harg8 arg9 harg9 arg10 harg10 hc0 hc1 x0 x1 x2 x3 xs0 xs1 xs2).1 S1024x128.size (by sl_kernel_rfl) y

/-- What key block 1 leaves in the output block: its pieces read back. -/
def out3_B_4 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) : Vec F S1024x128 .f32 :=
  VO3_4.read (Elt F) (VO3_4.writes (Elt F) VO3_4.junk (kernelRun3_B c i arg3 harg3 arg4 harg4 arg5 harg5 arg6 harg6 arg7 harg7 arg8 harg8 arg9 harg9 arg10 harg10 hc0 hc1 x0 x1 x2 x3 xs0 xs1 xs2).1)

/-- The stores into scratch buffer 0 cover it. -/
theorem scover3_B_0 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) (y : S1024x1.Idx) :
    ∃ pc ∈ (kernelRun3_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun3_B c i arg3 harg3 arg4 harg4 arg5 harg5 arg6 harg6 arg7 harg7 arg8 harg8 arg9 harg9 arg10 harg10 hc0 hc1 x0 x1 x2 x3 xs0 xs1 xs2).2.1 S1024x1.size (by sl_kernel_rfl) y

/-- What the point leaves in scratch buffer 0: its pieces read back. -/
def sout3_B_0 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) : Vec F S1024x1 .f32 :=
  VS3_0.read (Elt F) (VS3_0.writes (Elt F) VS3_0.junk (kernelRun3_B c i arg3 harg3 arg4 harg4 arg5 harg5 arg6 harg6 arg7 harg7 arg8 harg8 arg9 harg9 arg10 harg10 hc0 hc1 x0 x1 x2 x3 xs0 xs1 xs2).2.1)

/-- The stores into scratch buffer 1 cover it. -/
theorem scover3_B_1 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) (y : S1024x1.Idx) :
    ∃ pc ∈ (kernelRun3_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun3_B c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y

/-- What the point leaves in scratch buffer 1: its pieces read back. -/
def sout3_B_1 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) : Vec F S1024x1 .f32 :=
  VS3_1.read (Elt F) (VS3_1.writes (Elt F) VS3_1.junk (kernelRun3_B c i arg3 harg3 arg4 harg4 arg5 harg5 arg6 harg6 arg7 harg7 arg8 harg8 arg9 harg9 arg10 harg10 hc0 hc1 x0 x1 x2 x3 xs0 xs1 xs2).2.2.1)

/-- The stores into scratch buffer 2 cover it. -/
theorem scover3_B_2 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) (y : S1024x128.Idx) :
    ∃ pc ∈ (kernelRun3_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun3_B c i arg3 harg3 arg4 harg4 arg5 harg5 arg6 harg6 arg7 harg7 arg8 harg8 arg9 harg9 arg10 harg10 hc0 hc1 x0 x1 x2 x3 xs0 xs1 xs2).2.2.2.1 S1024x128.size (by sl_kernel_rfl) y

/-- What the point leaves in scratch buffer 2: its pieces read back. -/
def sout3_B_2 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) : Vec F S1024x128 .f32 :=
  VS3_2.read (Elt F) (VS3_2.writes (Elt F) VS3_2.junk (kernelRun3_B c i arg3 harg3 arg4 harg4 arg5 harg5 arg6 harg6 arg7 harg7 arg8 harg8 arg9 harg9 arg10 harg10 hc0 hc1 x0 x1 x2 x3 xs0 xs1 xs2).2.2.2.1)

/-- What the output block and the three scratch buffers hold after the body at position `n`: at an even position the
    reset-and-fold case on the point's blocks, at an odd one the fold-and-divide case on the point's blocks and on what
    the position before left in the scratch buffers. -/
def outsAt3 (c : Dev nD) : (n : ℕ) → n < cfg3.N → Vec F S1024x128 .f32 × Vec F S1024x1 .f32 × Vec F S1024x1 .f32 × Vec F S1024x128 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod 2)) (fun h => absurd ((hcond3_1 ⟨0, hn⟩).mp h) (by have := (Nat.zero_mod 2); (try dsimp only at this ⊢); omega)) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod 2)) (fun h => absurd ((hcond3_1 ⟨0, hn⟩).mp h) (by have := (Nat.zero_mod 2); (try dsimp only at this ⊢); omega)) (iblk3 V c 0 ⟨0, hn⟩) (iblk3 V c 1 ⟨0, hn⟩) (iblk3 V c 2 ⟨0, hn⟩) (iblk3 V c 3 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod 2)) (fun h => absurd ((hcond3_1 ⟨0, hn⟩).mp h) (by have := (Nat.zero_mod 2); (try dsimp only at this ⊢); omega)) (iblk3 V c 0 ⟨0, hn⟩) (iblk3 V c 1 ⟨0, hn⟩) (iblk3 V c 2 ⟨0, hn⟩) (iblk3 V c 3 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod 2)) (fun h => absurd ((hcond3_1 ⟨0, hn⟩).mp h) (by have := (Nat.zero_mod 2); (try dsimp only at this ⊢); omega)) (iblk3 V c 0 ⟨0, hn⟩) (iblk3 V c 1 ⟨0, hn⟩) (iblk3 V c 2 ⟨0, hn⟩) (iblk3 V c 3 ⟨0, hn⟩))
  | n + 1, hn =>
    if h0 : (n + 1) % 2 = 0 then
      (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => absurd ((hcond3_1 ⟨n + 1, hn⟩).mp h) (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => absurd ((hcond3_1 ⟨n + 1, hn⟩).mp h) (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => absurd ((hcond3_1 ⟨n + 1, hn⟩).mp h) (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => absurd ((hcond3_1 ⟨n + 1, hn⟩).mp h) (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩))
    else
      (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2)

/-- At an even point: the reset-and-fold case. -/
theorem outsAt3_A (c : Dev nD) (t : Fin cfg3.N) (h0 : t.val % 2 = 0) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t), sout3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t), sout3_A_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t)) := by
  obtain ⟨n, hn⟩ := t
  cases n with
  | zero => exact rfl
  | succ n => exact (dif_pos h0).trans rfl

/-- At an odd point: the fold-and-divide case over what the point before left. -/
theorem outsAt3_B (c : Dev nD) (t : Fin cfg3.N) (h0 : ¬t.val % 2 = 0) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr (by have := h0; (try dsimp only at this ⊢); omega)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr (by have := h0; (try dsimp only at this ⊢); omega)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr (by have := h0; (try dsimp only at this ⊢); omega)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr (by have := h0; (try dsimp only at this ⊢); omega)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n`: before the first point every scratch buffer at anything; afterwards each
    at what the position before left in it; beside them the untouched scoped buffers and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ Pipeline.scopedRestBut (Ix := Unit) (Name := ℕ) (U := UR sig nD τ) (Lvl := ℕ) (Val := Elt F) spec3 c [cc3_scratch0, cc3_scratch1, cc3_scratch2]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ Pipeline.scopedRestBut (Ix := Unit) (Name := ℕ) (U := UR sig nD τ) (Lvl := ℕ) (Val := Elt F) spec3 c [cc3_scratch0, cc3_scratch1, cc3_scratch2]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.1 ∗ owns (c : Thread nD τ) scM3_1 fullShare (outsAt3 V c (n - 1) (by omega)).2.2.1 ∗ owns (c : Thread nD τ) scM3_2 fullShare (outsAt3 V c (n - 1) (by omega)).2.2.2) ∗ Pipeline.scopedRestBut (Ix := Unit) (Name := ℕ) (U := UR sig nD τ) (Lvl := ℕ) (Val := Elt F) spec3 c [cc3_scratch0, cc3_scratch1, cc3_scratch2]) ∗ (∃ r, prngReg c r)) := by
  cases n with
  | zero => exact absurd rfl hz
  | succ n => rfl

/-- The proof data of the attention pipeline on core `c`: the arrays as the region finds them; after the body at a
    point each input's buffer at its block and the output's at `outsAt3`; the invariant `PhiS3`; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the parity of the point says which case it is in; the
    invariant hands the body the scratch buffers at what the point before left (at anything at the very first point) and
    takes them back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
          unfold Dat.leavesExact; rw [liveAt3_0 t], after3_0]
  rw [show (dat3 V c).leavesExact 1 t = owns (c : Thread nD τ) (ms3_1 t) fullShare ((dat3 V c).after 1 t) from by
          unfold Dat.leavesExact; rw [liveAt3_1 t], after3_1]
  rw [show (dat3 V c).leavesExact 2 t = owns (c : Thread nD τ) (ms3_2 t) fullShare ((dat3 V c).after 2 t) from by
          unfold Dat.leavesExact; rw [liveAt3_2 t], after3_2]
  rw [show (dat3 V c).leavesExact 3 t = owns (c : Thread nD τ) (ms3_3 t) fullShare ((dat3 V c).after 3 t) from by
          unfold Dat.leavesExact; rw [liveAt3_3 t], after3_3]
  by_cases h0 : t.val % 2 = 0
  · rw [Dat.leavesExact_idle (dat3 V c) 4 t (idleAt3_4_A t ((hcond3_0 t).mpr h0) (fun h => absurd ((hcond3_1 t).mp h) (by have := h0; (try dsimp only at this ⊢); omega))) (noFlush3_4_A t ((hcond3_0 t).mpr h0) (fun h => absurd ((hcond3_1 t).mp h) (by have := h0; (try dsimp only at this ⊢); omega)))]
    rw [outsAt3_A V c t h0]
    unfold sout3_A_0 sout3_A_1 sout3_A_2; (try dsimp only)
    by_cases hz : t.val = 0
    · rw [PhiS3_castSucc V c t, PhiS3_zero V c _ _ hz, PhiA3_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((kernelRun3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
            isplitl [HS1]
            · unfold owns; iexists _; isplitr
              swap; · iexact HS1
              ipureintro; exact View.read_writes_of_cover _ _ _ _ _ (scover3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
            unfold owns; iexists _; isplitr
            swap; · iexact HS2
            ipureintro; exact View.read_writes_of_cover _ _ _ _ _ (scover3_A_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((kernelRun3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
            isplitl [HS1]
            · unfold owns; iexists _; isplitr
              swap; · iexact HS1
              ipureintro; exact View.read_writes_of_cover _ _ _ _ _ (scover3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
            unfold owns; iexists _; isplitr
            swap; · iexact HS2
            ipureintro; exact View.read_writes_of_cover _ _ _ _ _ (scover3_A_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
          iexact Hrest
        iexact Hg
      isplitl [Ho]; · iexact Ho
      isplitl [H0]; · iexact H0
      isplitl [H1]; · iexact H1
      isplitl [H2]; · iexact H2
      isplitl [H3]; · iexact H3
      iexists _; iexact H4
  · rw [show (dat3 V c).leavesExact 4 t = owns (c : Thread nD τ) (ms3_4 t) fullShare ((dat3 V c).after 4 t) from by
      unfold Dat.leavesExact; rw [liveAt3_4_B t (fun h => h0 ((hcond3_0 t).mp h)) ((hcond3_1 t).mpr (by have := h0; (try dsimp only at this ⊢); omega))], after3_4]
    rw [outsAt3_B V c t h0]
    unfold out3_B_4 sout3_B_0 sout3_B_1 sout3_B_2; (try dsimp only)
    have hz : t.val ≠ 0 := fun h => h0 (by rw [h])
    rw [PhiS3_castSucc V c t, PhiS3_pos V c _ _ hz]
    iintro ⟨⟨⟨⟨HS0, HS1, HS2⟩, Hrest⟩, Hg⟩, Ho, ⟨%d0, H0⟩, ⟨%d1, H1⟩, ⟨%d2, H2⟩, ⟨%d3, H3⟩, ⟨%d4, H4⟩⟩
    iapply ((kernelRun3_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr (by have := h0; (try dsimp only at this ⊢); omega)) (iblk3 V c 0 t) (iblk3 V c 1 t) (iblk3 V c 2 t) (iblk3 V c 3 t) _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scover3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t) _ _ _)
          isplitl [HS1]
          · unfold owns; iexists _; isplitr
            swap; · iexact HS1
            ipureintro; exact View.read_writes_of_cover _ _ _ _ _ (scover3_B_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t) _ _ _)
          unfold owns; iexists _; isplitr
          swap; · iexact HS2
          ipureintro; exact View.read_writes_of_cover _ _ _ _ _ (scover3_B_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t) _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t) _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the resting invariant back: the scratch contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout3 (c : Dev nD) : (dat3 V c).Φ (Fin.last cfg3.N) ⊢ Pipeline.ΦA spec3 c :=
  Phi_out3 V c _ (by rw [Fin.val_last]; have : cfg3.N = 64 := N_3; omega)

end Cert.Kernel.Hand

end
-- ==== Proof.KRun.lean ====
/-
  The whole run of @main: three host reshapes and five pipelined calls in a line. The contents of every unscoped buffer
  at each boundary between two items are a fold from the launch memory: a host stretch applies its operations, a call
  replaces its windows' arrays by what its write-backs leave and keeps every other buffer. Each call is a segment over
  the thread state "every unscoped buffer at the boundary's contents, the generator register at some state, nothing
  owed"; the launch theorem for a line of segments then says that every weakly fair execution terminates with every
  unscoped buffer at the last boundary's contents. No item writes an argument array, so each ends as launched.
-/
import proofs.«172455_j34531537060006_2_alg».proof.Proof.KLin0
import proofs.«172455_j34531537060006_2_alg».proof.Proof.KLin1
import proofs.«172455_j34531537060006_2_alg».proof.Proof.KLin2
import proofs.«172455_j34531537060006_2_alg».proof.Proof.KLin4
import proofs.«172455_j34531537060006_2_alg».proof.Proof.KAttn
import proofs.«172455_j34531537060006_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references: what region 0 is entered from. -/
abbrev V1 : (c : Dev nD) → (b : Ref sig .tc) → Buf (Elt F) ((c : Thread nD τ).loc b) := fun c b => W1 m ρ c b
/-- At region 0's exit: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same read at the TensorCore's references: what region 1 is entered from. -/
abbrev V3 : (c : Dev nD) → (b : Ref sig .tc) → Buf (Elt F) ((c : Thread nD τ).loc b) := fun c b => W3 m ρ c b
/-- At region 1's exit: its arrays at what the pipeline's write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
/-- The same read at the TensorCore's references: what region 2 is entered from. -/
abbrev V5 : (c : Dev nD) → (b : Ref sig .tc) → Buf (Elt F) ((c : Thread nD τ).loc b) := fun c b => W5 m ρ c b
/-- At region 2's exit: its arrays at what the pipeline's write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- At region 3's exit: its arrays at what the pipeline's write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After the host stretch `hostOps4`. -/
abbrev W8 : Dev nD → Valuation τ sig (Elt F) := fun c => StableHlo.after hostOps4 (W7 m ρ c)
/-- The same read at the TensorCore's references: what region 4 is entered from. -/
abbrev V8 : (c : Dev nD) → (b : Ref sig .tc) → Buf (Elt F) ((c : Thread nD τ).loc b) := fun c b => W8 m ρ c b
/-- At region 4's exit: its arrays at what the pipeline's write-backs leave, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-! The arguments end as launched: no host operation and no call writes one. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := StableHlo.after_of_writes_sub hostOps4 _ hostOps4_writes (by decide : main_arg0 ∉ hostOps4_W)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := StableHlo.after_of_writes_sub hostOps4 _ hostOps4_writes (by decide : main_arg1 ∉ hostOps4_W)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := StableHlo.after_of_writes_sub hostOps4 _ hostOps4_writes (by decide : main_arg2 ∉ hostOps4_W)
    _ = W6 m ρ c (Proc.devRef .tc main_arg2) := W7_of_ne m ρ c main_arg2 (by decide)
    _ = W5 m ρ c (Proc.devRef .tc main_arg2) := (W6_arr m ρ c 0).trans (((dat2 (V5 m ρ) c).arrAt_in 0 rfl _).trans (A_eq2 (V5 m ρ) c 0))
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := StableHlo.after_of_writes_sub hostOps4 _ hostOps4_writes (by decide : main_arg3 ∉ hostOps4_W)
    _ = W6 m ρ c (Proc.devRef .tc main_arg3) := (W7_arr m ρ c 3).trans (((dat3 (V6 m ρ) c).arrAt_in 3 rfl _).trans (A_eq3 (V6 m ρ) c 3))
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := StableHlo.after_of_writes_sub hostOps4 _ hostOps4_writes (by decide : main_arg4 ∉ hostOps4_W)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := StableHlo.after_of_writes_sub hostOps0 _ hostOps0_writes (by decide : main_arg4 ∉ hostOps0_W)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_writes_sub hostOps4 _ hostOps4_writes (by decide : main_arg5 ∉ hostOps4_W)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_writes_sub hostOps4 _ hostOps4_writes (by decide : main_arg6 ∉ hostOps4_W)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := (W4_arr m ρ c 1).trans (((dat1 (V3 m ρ) c).arrAt_in 1 rfl _).trans (A_eq1 (V3 m ρ) c 1))
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_writes_sub hostOps4 _ hostOps4_writes (by decide : main_arg7 ∉ hostOps4_W)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_writes_sub hostOps4 _ hostOps4_writes (by decide : main_arg8 ∉ hostOps4_W)
    _ = W6 m ρ c (Proc.devRef .tc main_arg8) := W7_of_ne m ρ c main_arg8 (by decide)
    _ = W5 m ρ c (Proc.devRef .tc main_arg8) := (W6_arr m ρ c 1).trans (((dat2 (V5 m ρ) c).arrAt_in 1 rfl _).trans (A_eq2 (V5 m ρ) c 1))
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := StableHlo.after_of_writes_sub hostOps4 _ hostOps4_writes (by decide : main_arg9 ∉ hostOps4_W)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide : main_arg9 ∉ hostOps2_W)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := (W9_arr m ρ c 1).trans (((dat4 (V8 m ρ) c).arrAt_in 1 rfl _).trans (A_eq4 (V8 m ρ) c 1))
    _ = W7 m ρ c (Proc.devRef .tc main_arg10) := StableHlo.after_of_writes_sub hostOps4 _ hostOps4_writes (by decide : main_arg10 ∉ hostOps4_W)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide : main_arg10 ∉ hostOps2_W)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = W7 m ρ c (Proc.devRef .tc main_arg11) := StableHlo.after_of_writes_sub hostOps4 _ hostOps4_writes (by decide : main_arg11 ∉ hostOps4_W)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide : main_arg11 ∉ hostOps2_W)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

/-- The final result array is what the last call's write-backs leave. -/
theorem W9_main_v8 (c : Dev nD) : W9 m ρ c (Proc.devRef .tc main_v8) = (dat4 (V8 m ρ) c).arrAt 3 cfg4.N :=
  W9_arr m ρ c 3

/-- The prefetched tables' admissible contents: no call has a table. -/
abbrev adm : (p : Fin 5) → (pcfgs (F := F) p).Adm := fun p => (cfgs p).toPCfg_adm
/-- Every call's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m ρ c) ∗ ∃ r, prngReg c r)

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. Its arrays are split
    out of the unscoped buffers and put back at the exit contents; the generator register goes into the invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from hout3 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W8`, left at `W9`. Its arrays are split
    out of the unscoped buffers and put back at the exit contents; the generator register goes into the invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds every unscoped buffer at the last boundary's contents `W9`. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c),
    (h c _ (mem_uc main_arg11 (by decide))).trans (W9_main_arg11 m ρ c)⟩) (run_full m ρ)

end Cert.Kernel.Hand

end
-- ==== Proof.KILin0.lean ====
/- The per-point half of the frame argument for the linear layer of region 0 (out = X · Wᵀ + b on a 2 × 4 grid).

   A BLOCK of a window at a grid point is the sub-rectangle of the window's array that the point's
   index map selects, read off the array as it stands when the region is entered (the parameter `V`):
   a 1024 × 2048 band of X, a 512 × 2048 band of W, a 1 × 512 piece of b, and the 1024 × 512 tile
   of the result. Nothing in the region writes an input array, so an input's staging buffer holds
   that block at every point, whether the point fetched it or an earlier point did.

   The body reads the three input buffers whole, reads the output buffer (the value is not used),
   and overwrites the WHOLE output buffer with one store: the bf16 product of the X band with the
   transposed W band, accumulated in f32 from zero, plus the b piece broadcast along the rows. So
   after the body the output buffer is a function of the three input blocks alone (`out0_3`),
   whatever it held before. The proof data records exactly this per point; the obligation says the
   body, run on the staging buffers at their blocks, leaves them so. Everything is stated for an
   arbitrary float model `F`. -/
import proofs.«172455_j34531537060006_2_alg».proof.Proof.Gen.KernelIdeal.Launch
import proofs.«172455_j34531537060006_2_alg».proof.Proof.Gen.KernelIdeal.Skeleton
import proofs.«172455_j34531537060006_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes in the thousands: the structural recursion is one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array that the point selects, read off the
    array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The X window's staging buffer holds its block at every point, fetched there or not (when it is not
    fetched the index map has not moved), for any proof data on the entry arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the W window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the b window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x2048 := Rect.unit (s := S1024x2048) ![0, 0] S1024x2048.size inb_S1024x2048_S1024x2048_0_0
abbrev r0_1 : Rect S512x2048 := Rect.unit (s := S512x2048) ![0, 0] S512x2048.size inb_S512x2048_S512x2048_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-! ## What the body leaves in the output buffer -/

/-- The output buffer after the body, from the three input blocks: its one store, of the whole buffer,
    of the product-plus-bias of the inputs as loaded. -/
def out0_3 (x0 : Vec F S1024x2048 .f32) (x1 : Vec F S512x2048 .f32) (x2 : Vec F S1x512 .f32) : Vec F S1024x512 .f32 :=
  View.canon [⟨r0_3, k0_pay1 (View.ld x0 r0_0) (View.ld x1 r0_1) (View.ld x2 r0_2)⟩]

/-- The one store is of the whole buffer, so it covers every index. -/
theorem cover0_3 (p0 : Vec F S1024x512 .f32) (y : S1024x512.Idx) :
    ∃ pc ∈ ([⟨r0_3, p0⟩] : List (View.Piece (Elt F) S1024x512 .f32)), y ∈ pc.1.set :=
  View.cover_of_tiled [⟨r0_3, p0⟩] S1024x512.size (by rfl) y

/-! ## The body's triple -/

set_option maxHeartbeats 1000000 in
/-- The body on whole staging buffers, the inputs' at contents `x0 x1 x2` and the output's at anything,
    runs to the continuation holding the inputs' as they were and the output's at `out0_3 x0 x1 x2`:
    three loads, a load of the output whose value is dropped, one store. -/
theorem sound_kernel0 (c : Dev nD) (E : Set ℕ) (i : grid0.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole)
    (x0 : Vec F S1024x2048 .f32) (x1 : Vec F S512x2048 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the
    body at point `t` each input's buffer at its block and the output's at `out0_3` of the three
    blocks; the invariant the scoped rest and the generator register, untouched; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KILin1.lean ====
/- The per-point half of the frame argument for the linear layer of region 1 (out = X · Wᵀ + b on a 2 × 4 grid).

   A BLOCK of a window at a grid point is the sub-rectangle of the window's array that the point's
   index map selects, read off the array as it stands when the region is entered (the parameter `V`):
   a 1024 × 2048 band of X, a 512 × 2048 band of W, a 1 × 512 piece of b, and the 1024 × 512 tile
   of the result. Nothing in the region writes an input array, so an input's staging buffer holds
   that block at every point, whether the point fetched it or an earlier point did.

   The body reads the three input buffers whole, reads the output buffer (the value is not used),
   and overwrites the WHOLE output buffer with one store: the bf16 product of the X band with the
   transposed W band, accumulated in f32 from zero, plus the b piece broadcast along the rows. So
   after the body the output buffer is a function of the three input blocks alone (`out1_3`),
   whatever it held before. The proof data records exactly this per point; the obligation says the
   body, run on the staging buffers at their blocks, leaves them so. Everything is stated for an
   arbitrary float model `F`. -/
import proofs.«172455_j34531537060006_2_alg».proof.Proof.Gen.KernelIdeal.Launch
import proofs.«172455_j34531537060006_2_alg».proof.Proof.Gen.KernelIdeal.Skeleton
import proofs.«172455_j34531537060006_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes in the thousands: the structural recursion is one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array that the point selects, read off the
    array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The X window's staging buffer holds its block at every point, fetched there or not (when it is not
    fetched the index map has not moved), for any proof data on the entry arrays whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the W window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the b window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1024x2048 := Rect.unit (s := S1024x2048) ![0, 0] S1024x2048.size inb_S1024x2048_S1024x2048_0_0
abbrev r1_1 : Rect S512x2048 := Rect.unit (s := S512x2048) ![0, 0] S512x2048.size inb_S512x2048_S512x2048_0_0
abbrev r1_2 : Rect S1x512 := Rect.unit (s := S1x512) ![0, 0] S1x512.size inb_S1x512_S1x512_0_0
abbrev r1_3 : Rect S1024x512 := Rect.unit (s := S1024x512) ![0, 0] S1024x512.size inb_S1024x512_S1024x512_0_0

/-! ## What the body leaves in the output buffer -/

/-- The output buffer after the body, from the three input blocks: its one store, of the whole buffer,
    of the product-plus-bias of the inputs as loaded. -/
def out1_3 (x0 : Vec F S1024x2048 .f32) (x1 : Vec F S512x2048 .f32) (x2 : Vec F S1x512 .f32) : Vec F S1024x512 .f32 :=
  View.canon [⟨r1_3, k1_pay1 (View.ld x0 r1_0) (View.ld x1 r1_1) (View.ld x2 r1_2)⟩]

/-- The one store is of the whole buffer, so it covers every index. -/
theorem cover1_3 (p0 : Vec F S1024x512 .f32) (y : S1024x512.Idx) :
    ∃ pc ∈ ([⟨r1_3, p0⟩] : List (View.Piece (Elt F) S1024x512 .f32)), y ∈ pc.1.set :=
  View.cover_of_tiled [⟨r1_3, p0⟩] S1024x512.size (by rfl) y

/-! ## The body's triple -/

set_option maxHeartbeats 1000000 in
/-- The body on whole staging buffers, the inputs' at contents `x0 x1 x2` and the output's at anything,
    runs to the continuation holding the inputs' as they were and the output's at `out1_3 x0 x1 x2`:
    three loads, a load of the output whose value is dropped, one store. -/
theorem sound_kernel1 (c : Dev nD) (E : Set ℕ) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole)
    (x0 : Vec F S1024x2048 .f32) (x1 : Vec F S512x2048 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__linear_kernel i arg2 harg2 arg3 harg3 arg4 harg4 arg5 harg5) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core `c`: the arrays as the region finds them; after the
    body at point `t` each input's buffer at its block and the output's at `out1_3` of the three
    blocks; the invariant the scoped rest and the generator register, untouched; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KILin2.lean ====
/- The per-point half of the frame argument for the linear layer of region 2 (out = X · Wᵀ + b on a 2 × 4 grid).

   A BLOCK of a window at a grid point is the sub-rectangle of the window's array that the point's
   index map selects, read off the array as it stands when the region is entered (the parameter `V`):
   a 1024 × 2048 band of X, a 512 × 2048 band of W, a 1 × 512 piece of b, and the 1024 × 512 tile
   of the result. Nothing in the region writes an input array, so an input's staging buffer holds
   that block at every point, whether the point fetched it or an earlier point did.

   The body reads the three input buffers whole, reads the output buffer (the value is not used),
   and overwrites the WHOLE output buffer with one store: the bf16 product of the X band with the
   transposed W band, accumulated in f32 from zero, plus the b piece broadcast along the rows. So
   after the body the output buffer is a function of the three input blocks alone (`out2_3`),
   whatever it held before. The proof data records exactly this per point; the obligation says the
   body, run on the staging buffers at their blocks, leaves them so. Everything is stated for an
   arbitrary float model `F`. -/
import proofs.«172455_j34531537060006_2_alg».proof.Proof.Gen.KernelIdeal.Launch
import proofs.«172455_j34531537060006_2_alg».proof.Proof.Gen.KernelIdeal.Skeleton
import proofs.«172455_j34531537060006_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes in the thousands: the structural recursion is one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array that the point selects, read off the
    array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The X window's staging buffer holds its block at every point, fetched there or not (when it is not
    fetched the index map has not moved), for any proof data on the entry arrays whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the W window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for the b window. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x2048 := Rect.unit (s := S1024x2048) ![0, 0] S1024x2048.size inb_S1024x2048_S1024x2048_0_0
abbrev r2_1 : Rect S512x2048 := Rect.unit (s := S512x2048) ![0, 0] S512x2048.size inb_S512x2048_S512x2048_0_0
abbrev r2_2 : Rect S1x512 := Rect.unit (s := S1x512) ![0, 0] S1x512.size inb_S1x512_S1x512_0_0
abbrev r2_3 : Rect S1024x512 := Rect.unit (s := S1024x512) ![0, 0] S1024x512.size inb_S1024x512_S1024x512_0_0

/-! ## What the body leaves in the output buffer -/

/-- The output buffer after the body, from the three input blocks: its one store, of the whole buffer,
    of the product-plus-bias of the inputs as loaded. -/
def out2_3 (x0 : Vec F S1024x2048 .f32) (x1 : Vec F S512x2048 .f32) (x2 : Vec F S1x512 .f32) : Vec F S1024x512 .f32 :=
  View.canon [⟨r2_3, k2_pay1 (View.ld x0 r2_0) (View.ld x1 r2_1) (View.ld x2 r2_2)⟩]

/-- The one store is of the whole buffer, so it covers every index. -/
theorem cover2_3 (p0 : Vec F S1024x512 .f32) (y : S1024x512.Idx) :
    ∃ pc ∈ ([⟨r2_3, p0⟩] : List (View.Piece (Elt F) S1024x512 .f32)), y ∈ pc.1.set :=
  View.cover_of_tiled [⟨r2_3, p0⟩] S1024x512.size (by rfl) y

/-! ## The body's triple -/

set_option maxHeartbeats 1000000 in
/-- The body on whole staging buffers, the inputs' at contents `x0 x1 x2` and the output's at anything,
    runs to the continuation holding the inputs' as they were and the output's at `out2_3 x0 x1 x2`:
    three loads, a load of the output whose value is dropped, one store. -/
theorem sound_kernel2 (c : Dev nD) (E : Set ℕ) (i : grid2.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole)
    (x0 : Vec F S1024x2048 .f32) (x1 : Vec F S512x2048 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__linear_kernel i arg2 harg2 arg3 harg3 arg4 harg4 arg5 harg5) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region's pipeline on core `c`: the arrays as the region finds them; after the
    body at point `t` each input's buffer at its block and the output's at `out2_3` of the three
    blocks; the invariant the scoped rest and the generator register, untouched; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KILin4.lean ====
/- The per-point half of the frame argument for the linear layer of region 4 (out = X · Wᵀ + b on a 2 × 4 grid).

   A BLOCK of a window at a grid point is the sub-rectangle of the window's array that the point's
   index map selects, read off the array as it stands when the region is entered (the parameter `V`):
   a 1024 × 2048 band of X, a 512 × 2048 band of W, a 1 × 512 piece of b, and the 1024 × 512 tile
   of the result. Nothing in the region writes an input array, so an input's staging buffer holds
   that block at every point, whether the point fetched it or an earlier point did.

   The body reads the three input buffers whole, reads the output buffer (the value is not used),
   and overwrites the WHOLE output buffer with one store: the bf16 product of the X band with the
   transposed W band, accumulated in f32 from zero, plus the b piece broadcast along the rows. So
   after the body the output buffer is a function of the three input blocks alone (`out4_3`),
   whatever it held before. The proof data records exactly this per point; the obligation says the
   body, run on the staging buffers at their blocks, leaves them so. Everything is stated for an
   arbitrary float model `F`. -/
import proofs.«172455_j34531537060006_2_alg».proof.Proof.Gen.KernelIdeal.Launch
import proofs.«172455_j34531537060006_2_alg».proof.Proof.Gen.KernelIdeal.Skeleton
import proofs.«172455_j34531537060006_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes in the thousands: the structural recursion is one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array that the point selects, read off the
    array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The X window's staging buffer holds its block at every point, fetched there or not (when it is not
    fetched the index map has not moved), for any proof data on the entry arrays whose body leaves the
    block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for the W window. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same for the b window. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S1024x2048 := Rect.unit (s := S1024x2048) ![0, 0] S1024x2048.size inb_S1024x2048_S1024x2048_0_0
abbrev r4_1 : Rect S512x2048 := Rect.unit (s := S512x2048) ![0, 0] S512x2048.size inb_S512x2048_S512x2048_0_0
abbrev r4_2 : Rect S1x512 := Rect.unit (s := S1x512) ![0, 0] S1x512.size inb_S1x512_S1x512_0_0
abbrev r4_3 : Rect S1024x512 := Rect.unit (s := S1024x512) ![0, 0] S1024x512.size inb_S1024x512_S1024x512_0_0

/-! ## What the body leaves in the output buffer -/

/-- The output buffer after the body, from the three input blocks: its one store, of the whole buffer,
    of the product-plus-bias of the inputs as loaded. -/
def out4_3 (x0 : Vec F S1024x2048 .f32) (x1 : Vec F S512x2048 .f32) (x2 : Vec F S1x512 .f32) : Vec F S1024x512 .f32 :=
  View.canon [⟨r4_3, k4_pay1 (View.ld x0 r4_0) (View.ld x1 r4_1) (View.ld x2 r4_2)⟩]

/-- The one store is of the whole buffer, so it covers every index. -/
theorem cover4_3 (p0 : Vec F S1024x512 .f32) (y : S1024x512.Idx) :
    ∃ pc ∈ ([⟨r4_3, p0⟩] : List (View.Piece (Elt F) S1024x512 .f32)), y ∈ pc.1.set :=
  View.cover_of_tiled [⟨r4_3, p0⟩] S1024x512.size (by rfl) y

/-! ## The body's triple -/

set_option maxHeartbeats 1000000 in
/-- The body on whole staging buffers, the inputs' at contents `x0 x1 x2` and the output's at anything,
    runs to the continuation holding the inputs' as they were and the output's at `out4_3 x0 x1 x2`:
    three loads, a load of the output whose value is dropped, one store. -/
theorem sound_kernel4 (c : Dev nD) (E : Set ℕ) (i : grid4.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole)
    (x0 : Vec F S1024x2048 .f32) (x1 : Vec F S512x2048 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out4_3 x0 x1 x2)) -∗ K ⟨⟩))
      ⊢ wp frame (wpE (defs₀ (F := F)) Variants.none c none) E (cc4__linear_kernel i arg2 harg2 arg3 harg3 arg4 harg4 arg5 harg5) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the region's pipeline on core `c`: the arrays as the region finds them; after the
    body at point `t` each input's buffer at its block and the output's at `out4_3` of the three
    blocks; the invariant the scoped rest and the generator register, untouched; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the
    invariant and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIAttnRuns.lean ====
/-
  The attention call's body, region by region of its control: the grid is (head, query block, key block) and the body
  branches on the key block alone — at key block 0 it first resets the three scratch buffers (running maximum, running
  denominator, running numerator), at key block 1 (the last) it divides the numerator by the denominator into the output
  block. Here: the two branch conditions in closed form over the 64 grid points, where the output window is idle, the
  staging and scratch memrefs, and the region invariant with the three scratch buffers named.
-/
import proofs.«172455_j34531537060006_2_alg».proof.Proof.Gen.KernelIdeal.Launch
import proofs.«172455_j34531537060006_2_alg».proof.Proof.Gen.KernelIdeal.Skeleton
import proofs.«172455_j34531537060006_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch: the key-block coordinate is 0. -/
abbrev cond3_0 (i : grid3.Coords) : Prop := (Scalar.cmpi .ne (Scalar.extui (Scalar.cmpi .eq (BitVec.ofNat 32 (i 2).val) 0#32)) 0#32) = 1#1
/-- It holds at the even points. -/
theorem hcond3_0 : ∀ t : Fin cfg3.N, cond3_0 (grid3.coords t) ↔ t.val % 2 = 0 :=
  (by decide +kernel : ∀ t : Fin grid3.N, cond3_0 (grid3.coords t) ↔ t.val % 2 = 0)

/-- The second branch: the key-block coordinate is the last one, 1. -/
abbrev cond3_1 (i : grid3.Coords) : Prop := k3_cond2 i = 1#1
/-- It holds at the odd points. -/
theorem hcond3_1 : ∀ t : Fin cfg3.N, cond3_1 (grid3.coords t) ↔ t.val % 2 = 1 :=
  (by decide +kernel : ∀ t : Fin grid3.N, cond3_1 (grid3.coords t) ↔ t.val % 2 = 1)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- At key block 0 the output window is idle and is not written back. -/
theorem idleAt3_4_A : ∀ t : Fin cfg3.N, cond3_0 (grid3.coords t) → ¬cond3_1 (grid3.coords t) → cfg3.idle 4 (grid3.coords t) = true := by decide +kernel
theorem noFlush3_4_A : ∀ t : Fin cfg3.N, cond3_0 (grid3.coords t) → ¬cond3_1 (grid3.coords t) → (cfg3.win 4).flush t = false := by decide +kernel
/-- At key block 1 the output window is live. -/
theorem liveAt3_4_B : ∀ t : Fin cfg3.N, ¬cond3_0 (grid3.coords t) → cond3_1 (grid3.coords t) → cfg3.idle 4 (grid3.coords t) = false := by decide +kernel

/-- One staging buffer of the output window, through which its contents are stated. -/
abbrev VO3_4 : View sig .tc .vmem S1024x128 .f32 := (Memref.whole cc3_stg4_0 : Memref sig .tc .vmem S1024x128 .f32).view
/-- Each window's current staging memref at a point, and its wholeness. -/
abbrev ms3_0 (t : Fin cfg3.N) : Memref sig .tc .vmem S1024x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x128 .f32 := win3_4.stage (cfg3.slots t 4)
abbrev hs3_4 (t : Fin cfg3.N) : (ms3_4 t).IsWhole := hstage3_4 ((cfg3.slots t 4).cast nbuf3_4)
/-- The three scratch operands: the running maximum, the running denominator, the running numerator. -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x128 .f32 := Memref.whole cc3_scratch2
abbrev VS3_0 : View sig .tc .vmem S1024x1 .f32 := scM3_0.view
abbrev VS3_1 : View sig .tc .vmem S1024x1 .f32 := scM3_1.view
abbrev VS3_2 : View sig .tc .vmem S1024x128 .f32 := scM3_2.view

/-- The region's resting invariant with the three scratch buffers as memrefs owned at some contents, the other scoped
    buffers unopened, and the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ Pipeline.scopedRestBut (Ix := Unit) (Name := ℕ) (U := UR sig nD τ) (Lvl := ℕ) (Val := Elt F) spec3 c [cc3_scratch0, cc3_scratch1, cc3_scratch2]) ∗ (∃ r, prngReg c r)) := by
  unfold Pipeline.ΦA; rw [scopedRest3_split]; simp only [scM3_0, scM3_1, scM3_2, owns_whole]; try rfl

end Cert.KernelIdeal.Hand

end
-- ==== Proof.KIAttnRunA.lean ====
/-
  The attention body at key block 0, run whole: it resets the three scratch buffers, reads the query, key, value and
  bias blocks, and leaves in the scratch buffers the block's row maxima (against the reset value), the rows' sums of
  exponentials and the exponentials' product with the value block; the output block is not touched. The pieces each
  scratch buffer ends with are found by running the body.
-/
import proofs.«172455_j34531537060006_2_alg».proof.Proof.KIAttnRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at key block 0 on whole memrefs: inputs at their contents, the output block handed back untouched, the
    three scratch buffers at anything on entry and with the found pieces written on exit. -/
noncomputable def kernelRun3_A (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i)
    (x0 : Vec F S1024x128 .f32) (x1 : Vec F S1024x128 .f32) (x2 : Vec F S1024x128 .f32) (x3 : Vec F S1x1024x1024 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9 arg10 harg10) K } := by
  refine ⟨[], ?_, ?_, ?_, fun xi4 E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.KIAttnRunB.lean ====
/-
  The attention body at key block 1, the last, run whole: it reads the scratch buffers as the previous point left them
  (running maximum, denominator, numerator), folds this key block in — the new maximum, both rescaled by the exponential
  of the old maximum minus the new — and stores the quotient of numerator by denominator into the output block. The
  pieces each buffer ends with are found by running the body.
-/
import proofs.«172455_j34531537060006_2_alg».proof.Proof.KIAttnRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at key block 1 on whole memrefs: inputs at their contents, the scratch buffers at the contents the point
    before left, the output block at anything on entry; on exit every one of the four with the found pieces written. -/
noncomputable def kernelRun3_B (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i)
    (x0 : Vec F S1024x128 .f32) (x1 : Vec F S1024x128 .f32) (x2 : Vec F S1024x128 .f32) (x3 : Vec F S1x1024x1024 .f32)
    (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9 arg10 harg10) K } := by
  refine ⟨?_, ?_, ?_, ?_, fun E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KIAttn.lean ====
/-
  The attention call as a pipeline with three scratch buffers carried from one grid point to the next. The 64 points
  run (head, query block, key block) with the key block innermost, so the points come in pairs: an even point (key
  block 0) resets the scratch buffers and folds its key block in, the following odd point (key block 1) folds the
  second key block in and writes the quotient into the output block, which only then is written back. What the output
  block and the three scratch buffers hold after each point is stated by recursion on the point; the region invariant
  carries the scratch contents from a point to the next; the body obligation follows from the two whole-body runs.
-/
import proofs.«172455_j34531537060006_2_alg».proof.Proof.KIAttnRunB
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- At key block 0 nothing is stored into the output block: a placeholder that nothing consults. -/
def out3_A_4 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) : Vec F S1024x128 .f32 :=
  VO3_4.read (Elt F) (VO3_4.writes (Elt F) VO3_4.junk (kernelRun3_A c i arg3 harg3 arg4 harg4 arg5 harg5 arg6 harg6 arg7 harg7 arg8 harg8 arg9 harg9 arg10 harg10 hc0 hc1 x0 x1 x2 x3).1)

/-- The stores into scratch buffer 0 cover it. -/
theorem scover3_A_0 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) (y : S1024x1.Idx) :
    ∃ pc ∈ (kernelRun3_A c i arg3 harg3 arg4 harg4 arg5 harg5 arg6 harg6 arg7 harg7 arg8 harg8 arg9 harg9 arg10 harg10 hc0 hc1 x0 x1 x2 x3).2.1, y ∈ pc.1.set :=
  View.cover_of_tiledL (kernelRun3_A c i arg3 harg3 arg4 harg4 arg5 harg5 arg6 harg6 arg7 harg7 arg8 harg8 arg9 harg9 arg10 harg10 hc0 hc1 x0 x1 x2 x3).2.1 S1024x1.size (by sl_kernel_rfl) y

/-- What the point leaves in scratch buffer 0: its pieces read back. -/
def sout3_A_0 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) : Vec F S1024x1 .f32 :=
  VS3_0.read (Elt F) (VS3_0.writes (Elt F) VS3_0.junk (kernelRun3_A c i arg3 harg3 arg4 harg4 arg5 harg5 arg6 harg6 arg7 harg7 arg8 harg8 arg9 harg9 arg10 harg10 hc0 hc1 x0 x1 x2 x3).2.1)

/-- The stores into scratch buffer 1 cover it. -/
theorem scover3_A_1 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) (y : S1024x1.Idx) :
    ∃ pc ∈ (kernelRun3_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun3_A c i arg3 harg3 arg4 harg4 arg5 harg5 arg6 harg6 arg7 harg7 arg8 harg8 arg9 harg9 arg10 harg10 hc0 hc1 x0 x1 x2 x3).2.2.1 S1024x1.size (by sl_kernel_rfl) y

/-- What the point leaves in scratch buffer 1: its pieces read back. -/
def sout3_A_1 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) : Vec F S1024x1 .f32 :=
  VS3_1.read (Elt F) (VS3_1.writes (Elt F) VS3_1.junk (kernelRun3_A c i arg3 harg3 arg4 harg4 arg5 harg5 arg6 harg6 arg7 harg7 arg8 harg8 arg9 harg9 arg10 harg10 hc0 hc1 x0 x1 x2 x3).2.2.1)

/-- The stores into scratch buffer 2 cover it. -/
theorem scover3_A_2 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) (y : S1024x128.Idx) :
    ∃ pc ∈ (kernelRun3_A c i arg3 harg3 arg4 harg4 arg5 harg5 arg6 harg6 arg7 harg7 arg8 harg8 arg9 harg9 arg10 harg10 hc0 hc1 x0 x1 x2 x3).2.2.2.1, y ∈ pc.1.set :=
  View.cover_of_tiledL (kernelRun3_A c i arg3 harg3 arg4 harg4 arg5 harg5 arg6 harg6 arg7 harg7 arg8 harg8 arg9 harg9 arg10 harg10 hc0 hc1 x0 x1 x2 x3).2.2.2.1 S1024x128.size (by sl_kernel_rfl) y

/-- What the point leaves in scratch buffer 2: its pieces read back. -/
def sout3_A_2 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) : Vec F S1024x128 .f32 :=
  VS3_2.read (Elt F) (VS3_2.writes (Elt F) VS3_2.junk (kernelRun3_A c i arg3 harg3 arg4 harg4 arg5 harg5 arg6 harg6 arg7 harg7 arg8 harg8 arg9 harg9 arg10 harg10 hc0 hc1 x0 x1 x2 x3).2.2.2.1)

/-- At key block 1 the one store into the output block covers it. -/
theorem cover3_B_4 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) (y : S1024x128.Idx) :
    ∃ pc ∈ (kernelRun3_B c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun3_B c i arg3 harg3 arg4 harg4 arg5 harg5 arg6 harg6 arg7 harg7 arg8 harg8 arg9 harg9 arg10 harg10 hc0 hc1 x0 x1 x2 x3 xs0 xs1 xs2).1 S1024x128.size (by sl_kernel_rfl) y

/-- What key block 1 leaves in the output block: its pieces read back. -/
def out3_B_4 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) : Vec F S1024x128 .f32 :=
  VO3_4.read (Elt F) (VO3_4.writes (Elt F) VO3_4.junk (kernelRun3_B c i arg3 harg3 arg4 harg4 arg5 harg5 arg6 harg6 arg7 harg7 arg8 harg8 arg9 harg9 arg10 harg10 hc0 hc1 x0 x1 x2 x3 xs0 xs1 xs2).1)

/-- The stores into scratch buffer 0 cover it. -/
theorem scover3_B_0 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) (y : S1024x1.Idx) :
    ∃ pc ∈ (kernelRun3_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun3_B c i arg3 harg3 arg4 harg4 arg5 harg5 arg6 harg6 arg7 harg7 arg8 harg8 arg9 harg9 arg10 harg10 hc0 hc1 x0 x1 x2 x3 xs0 xs1 xs2).2.1 S1024x1.size (by sl_kernel_rfl) y

/-- What the point leaves in scratch buffer 0: its pieces read back. -/
def sout3_B_0 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) : Vec F S1024x1 .f32 :=
  VS3_0.read (Elt F) (VS3_0.writes (Elt F) VS3_0.junk (kernelRun3_B c i arg3 harg3 arg4 harg4 arg5 harg5 arg6 harg6 arg7 harg7 arg8 harg8 arg9 harg9 arg10 harg10 hc0 hc1 x0 x1 x2 x3 xs0 xs1 xs2).2.1)

/-- The stores into scratch buffer 1 cover it. -/
theorem scover3_B_1 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) (y : S1024x1.Idx) :
    ∃ pc ∈ (kernelRun3_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun3_B c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y

/-- What the point leaves in scratch buffer 1: its pieces read back. -/
def sout3_B_1 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) : Vec F S1024x1 .f32 :=
  VS3_1.read (Elt F) (VS3_1.writes (Elt F) VS3_1.junk (kernelRun3_B c i arg3 harg3 arg4 harg4 arg5 harg5 arg6 harg6 arg7 harg7 arg8 harg8 arg9 harg9 arg10 harg10 hc0 hc1 x0 x1 x2 x3 xs0 xs1 xs2).2.2.1)

/-- The stores into scratch buffer 2 cover it. -/
theorem scover3_B_2 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) (y : S1024x128.Idx) :
    ∃ pc ∈ (kernelRun3_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun3_B c i arg3 harg3 arg4 harg4 arg5 harg5 arg6 harg6 arg7 harg7 arg8 harg8 arg9 harg9 arg10 harg10 hc0 hc1 x0 x1 x2 x3 xs0 xs1 xs2).2.2.2.1 S1024x128.size (by sl_kernel_rfl) y

/-- What the point leaves in scratch buffer 2: its pieces read back. -/
def sout3_B_2 (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) : Vec F S1024x128 .f32 :=
  VS3_2.read (Elt F) (VS3_2.writes (Elt F) VS3_2.junk (kernelRun3_B c i arg3 harg3 arg4 harg4 arg5 harg5 arg6 harg6 arg7 harg7 arg8 harg8 arg9 harg9 arg10 harg10 hc0 hc1 x0 x1 x2 x3 xs0 xs1 xs2).2.2.2.1)

/-- What the output block and the three scratch buffers hold after the body at position `n`: at an even position the
    reset-and-fold case on the point's blocks, at an odd one the fold-and-divide case on the point's blocks and on what
    the position before left in the scratch buffers. -/
def outsAt3 (c : Dev nD) : (n : ℕ) → n < cfg3.N → Vec F S1024x128 .f32 × Vec F S1024x1 .f32 × Vec F S1024x1 .f32 × Vec F S1024x128 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod 2)) (fun h => absurd ((hcond3_1 ⟨0, hn⟩).mp h) (by have := (Nat.zero_mod 2); (try dsimp only at this ⊢); omega)) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod 2)) (fun h => absurd ((hcond3_1 ⟨0, hn⟩).mp h) (by have := (Nat.zero_mod 2); (try dsimp only at this ⊢); omega)) (iblk3 V c 0 ⟨0, hn⟩) (iblk3 V c 1 ⟨0, hn⟩) (iblk3 V c 2 ⟨0, hn⟩) (iblk3 V c 3 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod 2)) (fun h => absurd ((hcond3_1 ⟨0, hn⟩).mp h) (by have := (Nat.zero_mod 2); (try dsimp only at this ⊢); omega)) (iblk3 V c 0 ⟨0, hn⟩) (iblk3 V c 1 ⟨0, hn⟩) (iblk3 V c 2 ⟨0, hn⟩) (iblk3 V c 3 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod 2)) (fun h => absurd ((hcond3_1 ⟨0, hn⟩).mp h) (by have := (Nat.zero_mod 2); (try dsimp only at this ⊢); omega)) (iblk3 V c 0 ⟨0, hn⟩) (iblk3 V c 1 ⟨0, hn⟩) (iblk3 V c 2 ⟨0, hn⟩) (iblk3 V c 3 ⟨0, hn⟩))
  | n + 1, hn =>
    if h0 : (n + 1) % 2 = 0 then
      (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => absurd ((hcond3_1 ⟨n + 1, hn⟩).mp h) (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => absurd ((hcond3_1 ⟨n + 1, hn⟩).mp h) (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => absurd ((hcond3_1 ⟨n + 1, hn⟩).mp h) (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => absurd ((hcond3_1 ⟨n + 1, hn⟩).mp h) (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩))
    else
      (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (by have := h0; (try dsimp only at this ⊢); omega)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2)

/-- At an even point: the reset-and-fold case. -/
theorem outsAt3_A (c : Dev nD) (t : Fin cfg3.N) (h0 : t.val % 2 = 0) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t), sout3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t), sout3_A_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t)) := by
  obtain ⟨n, hn⟩ := t
  cases n with
  | zero => exact rfl
  | succ n => exact (dif_pos h0).trans rfl

/-- At an odd point: the fold-and-divide case over what the point before left. -/
theorem outsAt3_B (c : Dev nD) (t : Fin cfg3.N) (h0 : ¬t.val % 2 = 0) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr (by have := h0; (try dsimp only at this ⊢); omega)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr (by have := h0; (try dsimp only at this ⊢); omega)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr (by have := h0; (try dsimp only at this ⊢); omega)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr (by have := h0; (try dsimp only at this ⊢); omega)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n`: before the first point every scratch buffer at anything; afterwards each
    at what the position before left in it; beside them the untouched scoped buffers and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ Pipeline.scopedRestBut (Ix := Unit) (Name := ℕ) (U := UR sig nD τ) (Lvl := ℕ) (Val := Elt F) spec3 c [cc3_scratch0, cc3_scratch1, cc3_scratch2]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ Pipeline.scopedRestBut (Ix := Unit) (Name := ℕ) (U := UR sig nD τ) (Lvl := ℕ) (Val := Elt F) spec3 c [cc3_scratch0, cc3_scratch1, cc3_scratch2]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.1 ∗ owns (c : Thread nD τ) scM3_1 fullShare (outsAt3 V c (n - 1) (by omega)).2.2.1 ∗ owns (c : Thread nD τ) scM3_2 fullShare (outsAt3 V c (n - 1) (by omega)).2.2.2) ∗ Pipeline.scopedRestBut (Ix := Unit) (Name := ℕ) (U := UR sig nD τ) (Lvl := ℕ) (Val := Elt F) spec3 c [cc3_scratch0, cc3_scratch1, cc3_scratch2]) ∗ (∃ r, prngReg c r)) := by
  cases n with
  | zero => exact absurd rfl hz
  | succ n => rfl

/-- The proof data of the attention pipeline on core `c`: the arrays as the region finds them; after the body at a
    point each input's buffer at its block and the output's at `outsAt3`; the invariant `PhiS3`; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the parity of the point says which case it is in; the
    invariant hands the body the scratch buffers at what the point before left (at anything at the very first point) and
    takes them back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
          unfold Dat.leavesExact; rw [liveAt3_0 t], after3_0]
  rw [show (dat3 V c).leavesExact 1 t = owns (c : Thread nD τ) (ms3_1 t) fullShare ((dat3 V c).after 1 t) from by
          unfold Dat.leavesExact; rw [liveAt3_1 t], after3_1]
  rw [show (dat3 V c).leavesExact 2 t = owns (c : Thread nD τ) (ms3_2 t) fullShare ((dat3 V c).after 2 t) from by
          unfold Dat.leavesExact; rw [liveAt3_2 t], after3_2]
  rw [show (dat3 V c).leavesExact 3 t = owns (c : Thread nD τ) (ms3_3 t) fullShare ((dat3 V c).after 3 t) from by
          unfold Dat.leavesExact; rw [liveAt3_3 t], after3_3]
  by_cases h0 : t.val % 2 = 0
  · rw [Dat.leavesExact_idle (dat3 V c) 4 t (idleAt3_4_A t ((hcond3_0 t).mpr h0) (fun h => absurd ((hcond3_1 t).mp h) (by have := h0; (try dsimp only at this ⊢); omega))) (noFlush3_4_A t ((hcond3_0 t).mpr h0) (fun h => absurd ((hcond3_1 t).mp h) (by have := h0; (try dsimp only at this ⊢); omega)))]
    rw [outsAt3_A V c t h0]
    unfold sout3_A_0 sout3_A_1 sout3_A_2; (try dsimp only)
    by_cases hz : t.val = 0
    · rw [PhiS3_castSucc V c t, PhiS3_zero V c _ _ hz, PhiA3_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((kernelRun3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
            isplitl [HS1]
            · unfold owns; iexists _; isplitr
              swap; · iexact HS1
              ipureintro; exact View.read_writes_of_cover _ _ _ _ _ (scover3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
            unfold owns; iexists _; isplitr
            swap; · iexact HS2
            ipureintro; exact View.read_writes_of_cover _ _ _ _ _ (scover3_A_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((kernelRun3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => absurd ((hcond3_1 t).mp h) (by have := h0; (try dsimp only at this ⊢); omega)) (iblk3 V c 0 t) (iblk3 V c 1 t) (iblk3 V c 2 t) (iblk3 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
            isplitl [HS1]
            · unfold owns; iexists _; isplitr
              swap; · iexact HS1
              ipureintro; exact View.read_writes_of_cover _ _ _ _ _ (scover3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
            unfold owns; iexists _; isplitr
            swap; · iexact HS2
            ipureintro; exact View.read_writes_of_cover _ _ _ _ _ (scover3_A_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t))
          iexact Hrest
        iexact Hg
      isplitl [Ho]; · iexact Ho
      isplitl [H0]; · iexact H0
      isplitl [H1]; · iexact H1
      isplitl [H2]; · iexact H2
      isplitl [H3]; · iexact H3
      iexists _; iexact H4
  · rw [show (dat3 V c).leavesExact 4 t = owns (c : Thread nD τ) (ms3_4 t) fullShare ((dat3 V c).after 4 t) from by
      unfold Dat.leavesExact; rw [liveAt3_4_B t (fun h => h0 ((hcond3_0 t).mp h)) ((hcond3_1 t).mpr (by have := h0; (try dsimp only at this ⊢); omega))], after3_4]
    rw [outsAt3_B V c t h0]
    unfold out3_B_4 sout3_B_0 sout3_B_1 sout3_B_2; (try dsimp only)
    have hz : t.val ≠ 0 := fun h => h0 (by rw [h])
    rw [PhiS3_castSucc V c t, PhiS3_pos V c _ _ hz]
    iintro ⟨⟨⟨⟨HS0, HS1, HS2⟩, Hrest⟩, Hg⟩, Ho, ⟨%d0, H0⟩, ⟨%d1, H1⟩, ⟨%d2, H2⟩, ⟨%d3, H3⟩, ⟨%d4, H4⟩⟩
    iapply ((kernelRun3_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr (by have := h0; (try dsimp only at this ⊢); omega)) (iblk3 V c 0 t) (iblk3 V c 1 t) (iblk3 V c 2 t) (iblk3 V c 3 t) _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scover3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t) _ _ _)
          isplitl [HS1]
          · unfold owns; iexists _; isplitr
            swap; · iexact HS1
            ipureintro; exact View.read_writes_of_cover _ _ _ _ _ (scover3_B_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t) _ _ _)
          unfold owns; iexists _; isplitr
          swap; · iexact HS2
          ipureintro; exact View.read_writes_of_cover _ _ _ _ _ (scover3_B_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t) _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) _ _ (iblk3 V c 0 t) (iblk3 V c 1 t) (iblk3 V c 2 t) (iblk3 V c 3 t) _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the resting invariant back: the scratch contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout3 (c : Dev nD) : (dat3 V c).Φ (Fin.last cfg3.N) ⊢ Pipeline.ΦA spec3 c :=
  Phi_out3 V c _ (by rw [Fin.val_last]; have : cfg3.N = 64 := N_3; omega)

end Cert.KernelIdeal.Hand

end
-- ==== Proof.KIRun.lean ====
/-
  The whole run of @main: three host reshapes and five pipelined calls in a line. The contents of every unscoped buffer
  at each boundary between two items are a fold from the launch memory: a host stretch applies its operations, a call
  replaces its windows' arrays by what its write-backs leave and keeps every other buffer. Each call is a segment over
  the thread state "every unscoped buffer at the boundary's contents, the generator register at some state, nothing
  owed"; the launch theorem for a line of segments then says that every weakly fair execution terminates with every
  unscoped buffer at the last boundary's contents. No item writes an argument array, so each ends as launched.
-/
import proofs.«172455_j34531537060006_2_alg».proof.Proof.KILin0
import proofs.«172455_j34531537060006_2_alg».proof.Proof.KILin1
import proofs.«172455_j34531537060006_2_alg».proof.Proof.KILin2
import proofs.«172455_j34531537060006_2_alg».proof.Proof.KILin4
import proofs.«172455_j34531537060006_2_alg».proof.Proof.KIAttn
import proofs.«172455_j34531537060006_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references: what region 0 is entered from. -/
abbrev V1 : (c : Dev nD) → (b : Ref sig .tc) → Buf (Elt F) ((c : Thread nD τ).loc b) := fun c b => W1 m ρ c b
/-- At region 0's exit: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same read at the TensorCore's references: what region 1 is entered from. -/
abbrev V3 : (c : Dev nD) → (b : Ref sig .tc) → Buf (Elt F) ((c : Thread nD τ).loc b) := fun c b => W3 m ρ c b
/-- At region 1's exit: its arrays at what the pipeline's write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
/-- The same read at the TensorCore's references: what region 2 is entered from. -/
abbrev V5 : (c : Dev nD) → (b : Ref sig .tc) → Buf (Elt F) ((c : Thread nD τ).loc b) := fun c b => W5 m ρ c b
/-- At region 2's exit: its arrays at what the pipeline's write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- At region 3's exit: its arrays at what the pipeline's write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After the host stretch `hostOps4`. -/
abbrev W8 : Dev nD → Valuation τ sig (Elt F) := fun c => StableHlo.after hostOps4 (W7 m ρ c)
/-- The same read at the TensorCore's references: what region 4 is entered from. -/
abbrev V8 : (c : Dev nD) → (b : Ref sig .tc) → Buf (Elt F) ((c : Thread nD τ).loc b) := fun c b => W8 m ρ c b
/-- At region 4's exit: its arrays at what the pipeline's write-backs leave, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-! The arguments end as launched: no host operation and no call writes one. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := StableHlo.after_of_writes_sub hostOps4 _ hostOps4_writes (by decide : main_arg0 ∉ hostOps4_W)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := StableHlo.after_of_writes_sub hostOps4 _ hostOps4_writes (by decide : main_arg1 ∉ hostOps4_W)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := StableHlo.after_of_writes_sub hostOps4 _ hostOps4_writes (by decide : main_arg2 ∉ hostOps4_W)
    _ = W6 m ρ c (Proc.devRef .tc main_arg2) := W7_of_ne m ρ c main_arg2 (by decide)
    _ = W5 m ρ c (Proc.devRef .tc main_arg2) := (W6_arr m ρ c 0).trans (((dat2 (V5 m ρ) c).arrAt_in 0 rfl _).trans (A_eq2 (V5 m ρ) c 0))
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := StableHlo.after_of_writes_sub hostOps4 _ hostOps4_writes (by decide : main_arg3 ∉ hostOps4_W)
    _ = W6 m ρ c (Proc.devRef .tc main_arg3) := (W7_arr m ρ c 3).trans (((dat3 (V6 m ρ) c).arrAt_in 3 rfl _).trans (A_eq3 (V6 m ρ) c 3))
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := StableHlo.after_of_writes_sub hostOps4 _ hostOps4_writes (by decide : main_arg4 ∉ hostOps4_W)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := StableHlo.after_of_writes_sub hostOps0 _ hostOps0_writes (by decide : main_arg4 ∉ hostOps0_W)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_writes_sub hostOps4 _ hostOps4_writes (by decide : main_arg5 ∉ hostOps4_W)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_writes_sub hostOps4 _ hostOps4_writes (by decide : main_arg6 ∉ hostOps4_W)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := (W4_arr m ρ c 1).trans (((dat1 (V3 m ρ) c).arrAt_in 1 rfl _).trans (A_eq1 (V3 m ρ) c 1))
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_writes_sub hostOps4 _ hostOps4_writes (by decide : main_arg7 ∉ hostOps4_W)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_writes_sub hostOps4 _ hostOps4_writes (by decide : main_arg8 ∉ hostOps4_W)
    _ = W6 m ρ c (Proc.devRef .tc main_arg8) := W7_of_ne m ρ c main_arg8 (by decide)
    _ = W5 m ρ c (Proc.devRef .tc main_arg8) := (W6_arr m ρ c 1).trans (((dat2 (V5 m ρ) c).arrAt_in 1 rfl _).trans (A_eq2 (V5 m ρ) c 1))
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := StableHlo.after_of_writes_sub hostOps4 _ hostOps4_writes (by decide : main_arg9 ∉ hostOps4_W)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide : main_arg9 ∉ hostOps2_W)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := (W9_arr m ρ c 1).trans (((dat4 (V8 m ρ) c).arrAt_in 1 rfl _).trans (A_eq4 (V8 m ρ) c 1))
    _ = W7 m ρ c (Proc.devRef .tc main_arg10) := StableHlo.after_of_writes_sub hostOps4 _ hostOps4_writes (by decide : main_arg10 ∉ hostOps4_W)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide : main_arg10 ∉ hostOps2_W)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = W7 m ρ c (Proc.devRef .tc main_arg11) := StableHlo.after_of_writes_sub hostOps4 _ hostOps4_writes (by decide : main_arg11 ∉ hostOps4_W)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide : main_arg11 ∉ hostOps2_W)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

/-- The final result array is what the last call's write-backs leave. -/
theorem W9_main_v8 (c : Dev nD) : W9 m ρ c (Proc.devRef .tc main_v8) = (dat4 (V8 m ρ) c).arrAt 3 cfg4.N :=
  W9_arr m ρ c 3

/-- The prefetched tables' admissible contents: no call has a table. -/
abbrev adm : (p : Fin 5) → (pcfgs (F := F) p).Adm := fun p => (cfgs p).toPCfg_adm
/-- Every call's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m ρ c) ∗ ∃ r, prngReg c r)

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. Its arrays are split
    out of the unscoped buffers and put back at the exit contents; the generator register goes into the invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from hout3 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W8`, left at `W9`. Its arrays are split
    out of the unscoped buffers and put back at the exit contents; the generator register goes into the invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds every unscoped buffer at the last boundary's contents `W9`. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c),
    (h c _ (mem_uc main_arg11 (by decide))).trans (W9_main_arg11 m ρ c)⟩) (run_full m ρ)

end Cert.KernelIdeal.Hand

end
-- ==== Proof.LibOnlineSoftmax.lean ====
/-
  The two-block "online softmax" recurrence agrees with the one-pass softmax.

  A softmax-weighted sum over the disjoint union of two finite blocks can be accumulated block by block: keep a
  running reference point m, a running denominator l = Σ exp(s - m) and a running numerator acc = Σ exp(s - m)·v,
  and when the reference point moves from m_old to m_new rescale both by exp(m_old - m_new).  Over the reals the
  final quotient acc / l does not depend on the reference points at all (they need not be maxima), because
  exp(s - m) = exp(M - m) · exp(s - M): the common factor exp(M - m) cancels between numerator and denominator.
  The law is proved over the reals and then transported to the extended reals, where every quantity involved is a
  coerced real.
-/
import Idealize.ShloMosaic.PureOps.Ideal

noncomputable section

namespace Cert.LibOnlineSoftmax

open Idealize.ShloMosaic

/-! ## Coercion of finite sums and quotients -/

/-- The coercion of the reals into the extended reals commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor nonzero, is the real quotient. -/
theorem div_coe_coe (a b : ℝ) (hb : b ≠ 0) : Ideal.div (a : EReal) (b : EReal) = ((a / b : ℝ) : EReal) := by
  rw [Ideal.div_coe hb, ← EReal.coe_mul, mul_one_div]

/-! ## The law over the reals -/

/-- Moving the reference point of the exponentials of a weighted sum from `m` to `M` pulls out `exp (M - m)`. -/
theorem sum_exp_mul_shift {ι : Type*} [Fintype ι] (s v : ι → ℝ) (m M : ℝ) :
    ∑ k, Real.exp (s k - m) * v k = Real.exp (M - m) * ∑ k, Real.exp (s k - M) * v k := by
  rw [Finset.mul_sum]
  refine Finset.sum_congr rfl fun k _ => ?_
  rw [← mul_assoc, ← Real.exp_add]
  congr 2
  ring

/-- Moving the reference point of a sum of exponentials from `m` to `M` pulls out `exp (M - m)`. -/
theorem sum_exp_shift {ι : Type*} [Fintype ι] (s : ι → ℝ) (m M : ℝ) :
    ∑ k, Real.exp (s k - m) = Real.exp (M - m) * ∑ k, Real.exp (s k - M) := by
  rw [Finset.mul_sum]
  refine Finset.sum_congr rfl fun k _ => ?_
  rw [← Real.exp_add]
  congr 1
  ring

/-- A sum of exponentials over a nonempty finite type is positive. -/
theorem sum_exp_pos {ι : Type*} [Fintype ι] [Nonempty ι] (s : ι → ℝ) (m : ℝ) :
    0 < ∑ k, Real.exp (s k - m) :=
  Finset.sum_pos (fun k _ => Real.exp_pos _) Finset.univ_nonempty

/-- A sum of exponentials is nonnegative. -/
theorem sum_exp_nonneg {ι : Type*} [Fintype ι] (s : ι → ℝ) (m : ℝ) :
    0 ≤ ∑ k, Real.exp (s k - m) :=
  Finset.sum_nonneg fun k _ => (Real.exp_pos _).le

/-- The two-block online softmax equals the one-pass softmax over the union of the blocks, whatever the
    reference points `m₀ m₁ m₂` of the recurrence and `M` of the one-pass formula are. -/
theorem online_softmax_real {ι₀ ι₁ : Type} [Fintype ι₀] [Fintype ι₁]
    (s₀ v₀ : ι₀ → ℝ) (s₁ v₁ : ι₁ → ℝ) (m₀ m₁ m₂ M : ℝ) :
    (Real.exp (m₁ - m₂) * (Real.exp (m₀ - m₁) * 0 + ∑ k, Real.exp (s₀ k - m₁) * v₀ k)
        + ∑ k, Real.exp (s₁ k - m₂) * v₁ k)
      / (Real.exp (m₁ - m₂) * (Real.exp (m₀ - m₁) * 0 + ∑ k, Real.exp (s₀ k - m₁))
        + ∑ k, Real.exp (s₁ k - m₂))
    = (∑ k, Real.exp (s₀ k - M) / ((∑ j, Real.exp (s₀ j - M)) + ∑ j, Real.exp (s₁ j - M)) * v₀ k)
      + ∑ k, Real.exp (s₁ k - M) / ((∑ j, Real.exp (s₀ j - M)) + ∑ j, Real.exp (s₁ j - M)) * v₁ k := by
  have hE : Real.exp (m₁ - m₂) * Real.exp (M - m₁) = Real.exp (M - m₂) := by
    rw [← Real.exp_add]; congr 1; ring
  -- the right side is one quotient
  have hR : ∀ {ι : Type} [Fintype ι] (s v : ι → ℝ) (D : ℝ),
      ∑ k, Real.exp (s k - M) / D * v k = (∑ k, Real.exp (s k - M) * v k) / D := by
    intro ι _ s v D
    rw [Finset.sum_div]
    exact Finset.sum_congr rfl fun k _ => div_mul_eq_mul_div _ _ _
  rw [hR s₀ v₀, hR s₁ v₁, ← add_div]
  -- the left side: pull exp (M - m₂) out of numerator and denominator
  rw [mul_zero, zero_add, zero_add, sum_exp_mul_shift s₀ v₀ m₁ M, sum_exp_mul_shift s₁ v₁ m₂ M,
    sum_exp_shift s₀ m₁ M, sum_exp_shift s₁ m₂ M, ← mul_assoc, ← mul_assoc, hE, ← mul_add, ← mul_add,
    mul_div_mul_left _ _ (Real.exp_ne_zero _)]

/-! ## The law over the extended reals -/

/-- The two-block online softmax on the extended reals, every quantity a coerced real, equals the one-pass
    softmax over the union of the blocks. -/
theorem online_softmax_ereal {ι₀ ι₁ : Type} [Fintype ι₀] [Fintype ι₁] [Nonempty ι₁]
    (s₀ v₀ : ι₀ → ℝ) (s₁ v₁ : ι₁ → ℝ) (m₀ m₁ m₂ M : ℝ) :
    Ideal.div
      (Ideal.exp ((m₁ : EReal) - (m₂ : EReal))
          * (Ideal.exp ((m₀ : EReal) - (m₁ : EReal)) * (0 : EReal)
            + ∑ k, Ideal.exp ((s₀ k : EReal) - (m₁ : EReal)) * (v₀ k : EReal))
        + ∑ k, Ideal.exp ((s₁ k : EReal) - (m₂ : EReal)) * (v₁ k : EReal))
      (Ideal.exp ((m₁ : EReal) - (m₂ : EReal))
          * (Ideal.exp ((m₀ : EReal) - (m₁ : EReal)) * (0 : EReal)
            + ∑ k, Ideal.exp ((s₀ k : EReal) - (m₁ : EReal)))
        + ∑ k, Ideal.exp ((s₁ k : EReal) - (m₂ : EReal)))
    = (∑ k, Ideal.div (Ideal.exp ((s₀ k : EReal) - (M : EReal)))
          ((∑ j, Ideal.exp ((s₀ j : EReal) - (M : EReal))) + ∑ j, Ideal.exp ((s₁ j : EReal) - (M : EReal)))
          * (v₀ k : EReal))
      + ∑ k, Ideal.div (Ideal.exp ((s₁ k : EReal) - (M : EReal)))
          ((∑ j, Ideal.exp ((s₀ j : EReal) - (M : EReal))) + ∑ j, Ideal.exp ((s₁ j : EReal) - (M : EReal)))
          * (v₁ k : EReal) := by
  -- both denominators are positive reals
  have hD : (∑ j, Real.exp (s₀ j - M)) + ∑ j, Real.exp (s₁ j - M) ≠ 0 :=
    ne_of_gt (add_pos_of_nonneg_of_pos (sum_exp_nonneg s₀ M) (sum_exp_pos s₁ M))
  have hL : Real.exp (m₁ - m₂) * (Real.exp (m₀ - m₁) * 0 + ∑ k, Real.exp (s₀ k - m₁))
      + ∑ k, Real.exp (s₁ k - m₂) ≠ 0 := by
    refine ne_of_gt (add_pos_of_nonneg_of_pos (mul_nonneg (Real.exp_pos _).le ?_) (sum_exp_pos s₁ m₂))
    rw [mul_zero, zero_add]
    exact sum_exp_nonneg s₀ m₁
  -- push the coercion outward
  simp only [← EReal.coe_sub, Ideal.exp_coe, ← EReal.coe_zero, ← EReal.coe_mul, ← EReal.coe_add, coe_sum]
  rw [div_coe_coe _ _ hL]
  simp only [div_coe_coe _ _ hD, ← EReal.coe_mul, ← EReal.coe_add, coe_sum]
  exact congrArg _ (online_softmax_real s₀ v₀ s₁ v₁ m₀ m₁ m₂ M)

/-! ## Exponentials and running maxima of reals are reals -/

/-- The exponential of a real is a positive real. -/
theorem exp_real {a : EReal} (ha : ∃ r : ℝ, a = (r : EReal)) :
    ∃ r : ℝ, Ideal.exp a = (r : EReal) ∧ 0 < r := by
  obtain ⟨r, rfl⟩ := ha
  exact ⟨Real.exp r, rfl, Real.exp_pos r⟩

theorem coe_max (r s : ℝ) : max (r : EReal) (s : EReal) = ((max r s : ℝ) : EReal) := by
  rcases le_total r s with h | h
  · rw [max_eq_right h, max_eq_right (EReal.coe_le_coe_iff.2 h)]
  · rw [max_eq_left h, max_eq_left (EReal.coe_le_coe_iff.2 h)]

theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- A left fold of the maximum, started at a real, over real entries is a real. -/
theorem foldl_max_real {α : Type*} (x : α → EReal) (l : List α) (hx : ∀ i ∈ l, ∃ r : ℝ, x i = (r : EReal))
    {a : EReal} (ha : ∃ r : ℝ, a = (r : EReal)) :
    ∃ r : ℝ, l.foldl (fun acc i => max acc (x i)) a = (r : EReal) := by
  induction l generalizing a with
  | nil => exact ha
  | cons b t ih =>
    rw [List.foldl_cons]
    exact ih (fun i hi => hx i (List.mem_cons_of_mem _ hi)) (real_max ha (hx b (List.mem_cons.2 (Or.inl rfl))))

/-- A left fold of the maximum, started at `⊥`, over a nonempty list of real entries is a real. -/
theorem foldl_max_bot_real {α : Type*} (x : α → EReal) (l : List α) (hl : l ≠ [])
    (hx : ∀ i ∈ l, ∃ r : ℝ, x i = (r : EReal)) :
    ∃ r : ℝ, l.foldl (fun acc i => max acc (x i)) ⊥ = (r : EReal) := by
  cases l with
  | nil => exact absurd rfl hl
  | cons b t =>
    rw [List.foldl_cons, max_bot_left]
    exact foldl_max_real x t (fun i hi => hx i (List.mem_cons_of_mem _ hi)) (hx b (List.mem_cons.2 (Or.inl rfl)))

/-- The same for a list of coerced reals. -/
theorem fold_max_real (l : List ℝ) (hl : l ≠ []) :
    ∃ r : ℝ, List.foldl (fun acc x => max acc x) (⊥ : EReal) (l.map (fun r : ℝ => (r : EReal))) = (r : EReal) := by
  rw [List.foldl_map]
  exact foldl_max_bot_real (fun r : ℝ => (r : EReal)) l hl (fun i _ => ⟨i, rfl⟩)

/-- A set fold of (an operation that is) the maximum, started at a real, over real entries is a real. -/
theorem finset_fold_max_real {ι : Type*} (op : EReal → EReal → EReal) [Std.Commutative op] [Std.Associative op]
    (hmax : ∀ a b, op a b = max a b) (x : ι → EReal) (s : Finset ι)
    (hx : ∀ i ∈ s, ∃ r : ℝ, x i = (r : EReal)) {a : EReal} (ha : ∃ r : ℝ, a = (r : EReal)) :
    ∃ r : ℝ, s.fold op a x = (r : EReal) := by
  classical
  induction s using Finset.induction_on with
  | empty => rw [Finset.fold_empty]; exact ha
  | insert i s hi ih =>
    rw [Finset.fold_insert hi, hmax]
    exact real_max (hx i (Finset.mem_insert_self i s)) (ih fun j hj => hx j (Finset.mem_insert_of_mem hj))

/-- A set fold of (an operation that is) the maximum, started at `⊥`, over a nonempty set of real entries is a
    real. -/
theorem finset_fold_max_bot_real {ι : Type*} (op : EReal → EReal → EReal) [Std.Commutative op]
    [Std.Associative op] (hmax : ∀ a b, op a b = max a b) (x : ι → EReal) (s : Finset ι) (hs : s.Nonempty)
    (hx : ∀ i ∈ s, ∃ r : ℝ, x i = (r : EReal)) :
    ∃ r : ℝ, s.fold op ⊥ x = (r : EReal) := by
  classical
  have key : ∀ t : Finset ι, (∀ j ∈ t, ∃ r : ℝ, x j = (r : EReal)) →
      t = ∅ ∨ ∃ r : ℝ, t.fold op ⊥ x = (r : EReal) := by
    intro t
    induction t using Finset.induction_on with
    | empty => intro _; exact Or.inl rfl
    | insert j t hj ih =>
      intro h
      right
      rw [Finset.fold_insert hj, hmax]
      rcases ih (fun k hk => h k (Finset.mem_insert_of_mem hk)) with h0 | h1
      · subst h0
        rw [Finset.fold_empty, max_bot_right]
        exact h j (Finset.mem_insert_self j _)
      · exact real_max (h j (Finset.mem_insert_self j t)) h1
  rcases key s hx with h | h
  · exact absurd h hs.ne_empty
  · exact h

/-- The supremum of a nonempty finite set of real entries is a real (one of them). -/
theorem finset_sup_real {ι : Type*} (x : ι → EReal) (s : Finset ι) (hs : s.Nonempty)
    (hx : ∀ i ∈ s, ∃ r : ℝ, x i = (r : EReal)) : ∃ r : ℝ, s.sup x = (r : EReal) := by
  obtain ⟨i, hi, h⟩ := Finset.exists_mem_eq_sup s hs x
  rw [h]
  exact hx i hi

/-- The supremum over a nonempty finite type of coerced reals is a real. -/
theorem univ_sup_real {ι : Type*} [Fintype ι] [Nonempty ι] (f : ι → ℝ) :
    ∃ r : ℝ, Finset.univ.sup (fun i => (f i : EReal)) = (r : EReal) :=
  finset_sup_real _ Finset.univ Finset.univ_nonempty fun i _ => ⟨f i, rfl⟩

end Cert.LibOnlineSoftmax

end
-- ==== Proof.Spec.lean ====
/-
  The specification: multi-head attention with an additive bias, index by index.

  Three input matrices are projected (X · Wᵀ + b), the 2048 columns of each projection are read as 16 heads of
  128 columns, each head's logits are the scaled inner products of a query row with the key rows plus the bias,
  each logit row is turned into weights by the softmax (shifted by the row's maximum, as the reference computes
  it), the weights combine the value rows, the heads are laid side by side again and projected once more.
  Everything is a function of the argument arrays over literal shapes on the extended reals; no program is
  mentioned here.
-/
import Idealize.ShloMosaic.PureOps.Ideal
import Idealize.ShloMosaic.PureOps.Ideal.Laws
import Idealize.ShloMosaic.Lib.ValueIdx
import proofs.«172455_j34531537060006_2_alg».proof.Proof.LibOnlineSoftmax

noncomputable section

namespace Cert.Spec

open Idealize.ShloMosaic Idealize.ShloMosaic.ValueIdx

/-- A 2048 × 2048 matrix. -/
abbrev Mat := (⟨2, ![2048, 2048]⟩ : Shape).Idx → EReal
/-- A row of 2048 entries. -/
abbrev Row := (⟨1, ![2048]⟩ : Shape).Idx → EReal
/-- The bias: one 2048 × 2048 matrix per head. -/
abbrev Bias := (⟨3, ![16, 2048, 2048]⟩ : Shape).Idx → EReal

/-- Entry (p, q) of X · Wᵀ + b. -/
def linAt (X W : Mat) (b : Row) (p q : Fin 2048) : EReal :=
  (∑ k : Fin 2048, X (ix2 p k) * W (ix2 q k)) + b (ix1 q)

/-- The projection X · Wᵀ + b. -/
def lin (X W : Mat) (b : Row) : Mat := fun j => linAt X W b (j 0) (j 1)

/-- Column d of head h among the 2048 columns. -/
def col (h : Fin 16) (d : Fin 128) : Fin 2048 :=
  ⟨h.val * 128 + d.val, by have := h.isLt; have := d.isLt; omega⟩

/-- The scale 1/√128 as the single-precision word the reference uses. -/
def scale : EReal := Ideal.ofBits .f32 0x3DB504F3#32

/-- The single-precision word of -∞. -/
def negInf : EReal := Ideal.ofBits .f32 0xFF800000#32

/-- Head h's logit of query row q against key row k. -/
def logit (Qp Kp : Mat) (B : Bias) (h : Fin 16) (q k : Fin 2048) : EReal :=
  (∑ d : Fin 128, Qp (ix2 q (col h d)) * Kp (ix2 k (col h d))) * scale + B (ix3 h q k)

/-- The maximum of a logit row: the maximum of -∞ and the maximum over the row started at -∞. -/
def rowMax (Qp Kp : Mat) (B : Bias) (h : Fin 16) (q : Fin 2048) : EReal :=
  max negInf ((Finset.univ : Finset (Fin 2048)).fold max negInf fun k => logit Qp Kp B h q k)

/-- The softmax denominator of a logit row (the sum starts from the zero word). -/
def denom (Qp Kp : Mat) (B : Bias) (h : Fin 16) (q : Fin 2048) : EReal :=
  Ideal.ofBits .f32 0x00000000#32 + ∑ j : Fin 2048, Ideal.exp (logit Qp Kp B h q j - rowMax Qp Kp B h q)

/-- Head h's attention output at query row q, column d of the head. -/
def attnAt (Qp Kp Vp : Mat) (B : Bias) (h : Fin 16) (q : Fin 2048) (d : Fin 128) : EReal :=
  ∑ k : Fin 2048, Ideal.div (Ideal.exp (logit Qp Kp B h q k - rowMax Qp Kp B h q)) (denom Qp Kp B h q)
    * Vp (ix2 k (col h d))

/-- The heads' outputs side by side: column c belongs to head c / 128, at its column c % 128. -/
def attn (Qp Kp Vp : Mat) (B : Bias) : Mat := fun j =>
  attnAt Qp Kp Vp B ⟨(j 1).val / 128, by have := idx2_lt1 j; omega⟩ (j 0)
    ⟨(j 1).val % 128, Nat.mod_lt _ (by norm_num)⟩

/-- The whole computation. -/
def G (Q K V : Mat) (B : Bias) (Wq : Mat) (bq : Row) (Wk : Mat) (bk : Row) (Wv : Mat) (bv : Row) (Wo : Mat)
    (bo : Row) : Mat :=
  lin (attn (lin Q Wq bq) (lin K Wk bk) (lin V Wv bv) B) Wo bo

theorem negInf_eq : negInf = ⊥ := by simp [negInf, Ideal.ofBits, Ideal.ieee]

/-- The denominator without its zero initial value. -/
theorem denom_eq (Qp Kp : Mat) (B : Bias) (h : Fin 16) (q : Fin 2048) :
    denom Qp Kp B h q = ∑ j : Fin 2048, Ideal.exp (logit Qp Kp B h q j - rowMax Qp Kp B h q) := by
  rw [denom, Ideal.ofBits_zero_f32, zero_add]

/-- The row maximum as the plain maximum over the row from ⊥. -/
theorem rowMax_eq (Qp Kp : Mat) (B : Bias) (h : Fin 16) (q : Fin 2048) :
    rowMax Qp Kp B h q = (Finset.univ : Finset (Fin 2048)).fold max ⊥ fun k => logit Qp Kp B h q k := by
  rw [rowMax, negInf_eq, max_bot_left]

/-- A row of real logits has a real maximum. -/
theorem rowMax_real (Qp Kp : Mat) (B : Bias) (h : Fin 16) (q : Fin 2048)
    (hl : ∀ k, ∃ r : ℝ, logit Qp Kp B h q k = (r : EReal)) : ∃ r : ℝ, rowMax Qp Kp B h q = (r : EReal) := by
  rw [rowMax_eq]
  exact Cert.LibOnlineSoftmax.finset_fold_max_bot_real max (fun _ _ => rfl) _ Finset.univ
    ⟨0, Finset.mem_univ _⟩ fun k _ => hl k

end Cert.Spec

end
-- ==== Proof.LibRowsDot.lean ====
/-
  A matrix product whose right operand is contracted on its LAST axis — an [M, K] operand against an [N, K] operand,
  dimension numbers [1], [1], [0], [0], no batch axis — read at one entry of the result. Over the extended reals the
  matrix unit's product into a zero accumulator and the host's `dot_general` are, at row `p` and column `q`, the
  sum over `k : Fin K` of `lhs (p, k) * rhs (q, k)`: row `p` of the left operand against row `q` of the right one.
  The contraction index, a one-coordinate index of the contracted shape, is re-indexed by its coordinate.
  Generic in `M`, `K`, `N`; a printed record with these dimension numbers equals `DotDims.transposedRhs M K N` by `rfl`.
-/
import Idealize.ShloMosaic.PureOps.Ideal.Laws
import Idealize.ShloMosaic.Lib.ValueIdx

noncomputable section

namespace LibRowsDot

open Idealize.ShloMosaic Idealize.ShloMosaic.ValueIdx

variable {M K N : Nat}

/-- The contraction index whose one coordinate is `k`. -/
abbrev kIdx (k : Fin K) : (DotDims.transposedRhs M K N).contr.Idx :=
  (contrEquiv1 (DotDims.transposedRhs M K N) K rfl rfl).symm k

/-- The left operand is read at row `p`, column `k`. -/
theorem lhsIdx_rows (p : Fin M) (q : Fin N) (k : Fin K) :
    (DotDims.transposedRhs M K N).lhsIdx (ix2 p q) (kIdx k) = ix2 p k := by
  funext a
  apply Fin.ext
  match a with
  | ⟨0, _⟩ => rfl
  | ⟨1, _⟩ =>
    exact ((DotDims.transposedRhs M K N).lhsIdx_val_of_single (cl := (1 : Fin 2)) rfl (ix2 p q) (kIdx k)).trans
      (contrEquiv1_symm_val (DotDims.transposedRhs M K N) K rfl rfl k)

/-- The right operand is read at row `q`, column `k`. -/
theorem rhsIdx_rows (p : Fin M) (q : Fin N) (k : Fin K) :
    (DotDims.transposedRhs M K N).rhsIdx (ix2 p q) (kIdx k) = ix2 q k := by
  funext a
  apply Fin.ext
  match a with
  | ⟨0, _⟩ => rfl
  | ⟨1, _⟩ =>
    exact ((DotDims.transposedRhs M K N).rhsIdx_val_of_single (cr := (1 : Fin 2)) rfl (ix2 p q) (kIdx k)).trans
      (contrEquiv1_symm_val (DotDims.transposedRhs M K N) K rfl rfl k)

/-- The sum over the contracted shape is the sum over `k : Fin K` of the two rows' entries multiplied. -/
theorem sum_rows (lhs : (⟨2, ![M, K]⟩ : Shape).Idx → EReal) (rhs : (⟨2, ![N, K]⟩ : Shape).Idx → EReal)
    (p : Fin M) (q : Fin N) :
    (∑ k : (DotDims.transposedRhs M K N).contr.Idx,
        lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_rows p q k, rhsIdx_rows p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) :=
  (Ideal.matmul_constant_zero_apply (DotDims.transposedRhs M K N) prec lhs rhs (ix2 p q)).trans (sum_rows lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) :=
  (Ideal.dotGeneral_apply (DotDims.transposedRhs M K N) prec sched lhs rhs (ix2 p q)).trans (sum_rows lhs rhs p q)

end LibRowsDot

end
-- ==== Proof.KILinVal0.lean ====
/- The value of the linear layer of region 0 over the extended reals: after the pipeline's eight points the output
   array is X · Wᵀ + b of the arrays the region was entered with.

   Three steps. (1) The body's arithmetic at one entry of its 1024 × 512 tile: rounding to bf16 is the identity
   on the extended reals, the product accumulated from zero is the sum over the 2048 contracted columns of
   row p of the X band times row q of the W band, and the broadcast bias is the b piece at q. (2) The bands are
   restrictions of the arrays: at grid point t = 4 i + j the X band is rows 1024 i … of X, the W band rows
   512 j … of W, the b piece columns 512 j … of b, and the tile sits at rows 1024 i …, columns 512 j … of the
   output, so what the point writes back is that tile of X · Wᵀ + b. (3) Row r, column s of the output lies in
   the tile of the point 4 (r / 1024) + s / 512; the eight tiles cover the array, so the array ends as the whole
   of X · Wᵀ + b. -/
import proofs.«172455_j34531537060006_2_alg».proof.Proof.KILin0
import proofs.«172455_j34531537060006_2_alg».proof.Proof.Spec
import proofs.«172455_j34531537060006_2_alg».proof.Proof.LibRowsDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's arithmetic at one entry -/

/-- Entry (p, q) of the tile the body stores: row p of the X band against row q of the W band, plus the b
    piece at q. -/
theorem pay0_apply (x0 : Vec Ideal S1024x2048 .f32) (x1 : Vec Ideal S512x2048 .f32) (x2 : Vec Ideal S1x512 .f32)
    (p : Fin 1024) (q : Fin 512) :
    k0_pay1 x0 x1 x2 (ix2 p q) = (∑ k : Fin 2048, x0 (ix2 p k) * x1 (ix2 q k)) + x2 (ix2 (0 : Fin 1) q) := by
  unfold k0_pay1
  simp only [shapeCast_self]
  rw [addf_apply, broadcastTo_1b_ab_apply,
    show dot_S1024x2048_S512x2048_S1024x512_1_1_0_0_n_n = DotDims.transposedRhs 1024 2048 512 from rfl]
  exact congrArg (· + x2 (ix2 (0 : Fin 1) q))
    (LibRowsDot.matmul_zero_apply none (truncf .bf16 x0 bitsLt_bf16_f32) (truncf .bf16 x1 bitsLt_bf16_f32) p q)

/-- The same entry against X · Wᵀ + b of whole arrays of which the bands are the restrictions at block row
    `bi` of X and block row `bj` of W and of b: the tile's entry y is the arrays' entry z when z is y moved by
    the tile's offset. -/
theorem pay0_lin (x0 : Vec Ideal S1024x2048 .f32) (x1 : Vec Ideal S512x2048 .f32) (x2 : Vec Ideal S1x512 .f32)
    (X W : Spec.Mat) (b : Spec.Row) (bi bj : ℕ)
    (h0 : ∀ (y : S1024x2048.Idx) (z : S2048x2048.Idx), (z 0).val = bi * 1024 + (y 0).val → (z 1).val = (y 1).val → x0 y = X z)
    (h1 : ∀ (y : S512x2048.Idx) (z : S2048x2048.Idx), (z 0).val = bj * 512 + (y 0).val → (z 1).val = (y 1).val → x1 y = W z)
    (h2 : ∀ (y : S1x512.Idx) (z : (⟨1, ![2048]⟩ : Shape).Idx), (z 0).val = bj * 512 + (y 1).val → x2 y = b z)
    (y : S1024x512.Idx) (z : S2048x2048.Idx) (hz0 : (z 0).val = bi * 1024 + (y 0).val) (hz1 : (z 1).val = bj * 512 + (y 1).val) :
    k0_pay1 x0 x1 x2 y = Spec.lin X W b z := by
  obtain ⟨p, q, rfl⟩ : ∃ (p : Fin 1024) (q : Fin 512), y = ix2 p q := ⟨y 0, y 1, eq_ix2 y⟩
  obtain ⟨r, s, rfl⟩ : ∃ (r s : Fin 2048), z = ix2 r s := ⟨z 0, z 1, eq_ix2 z⟩
  show _ = (∑ k : Fin 2048, X (ix2 r k) * W (ix2 s k)) + b (ix1 s)
  rw [pay0_apply]
  refine congrArg₂ (· + ·) (Finset.sum_congr rfl fun k _ => ?_) ?_
  · rw [h0 (ix2 p k) (ix2 r k) hz0 rfl, h1 (ix2 q k) (ix2 s k) hz1 rfl]
  · exact h2 (ix2 (0 : Fin 1) q) (ix1 s) hz1

/-! ## The bands as restrictions of the arrays -/

theorem hz0 : (![0, 0] : Fin 2 → Nat) = fun _ => 0 := funext fun a => by fin_cases a <;> rfl

/-- The index maps at point t = 4 i + j, decided over the eight points: X moves with i, W and b with j, the
    output with both. -/
theorem idx_facts0 : ∀ t : Fin cfg0.N, win0_0.index t (0 : Fin 2) = t.val / 4
    ∧ win0_0.index t (1 : Fin 2) = 0
    ∧ win0_1.index t (0 : Fin 2) = t.val % 4
    ∧ win0_1.index t (1 : Fin 2) = 0
    ∧ win0_2.index t (0 : Fin 2) = 0
    ∧ win0_2.index t (1 : Fin 2) = t.val % 4
    ∧ win0_3.index t (0 : Fin 2) = t.val / 4
    ∧ win0_3.index t (1 : Fin 2) = t.val % 4 :=
  (by decide +kernel : ∀ t : Fin grid0.N, _)

/-- The X band at point t is rows 1024 (t / 4) … of X, all columns. -/
theorem blk0_0_apply (c : Dev nD) (t : Fin cfg0.N) (y : S1024x2048.Idx) (z : S2048x2048.Idx)
    (hz0 : (z 0).val = t.val / 4 * 1024 + (y 0).val) (hz1 : (z 1).val = (y 1).val) :
    (iblk0 V c 0 t : Vec Ideal S1024x2048 .f32) y = (V c (Pipeline.arrRef spec0 0) : S2048x2048.Idx → EReal) z := by
  obtain ⟨e0, e1, -⟩ := idx_facts0 t
  unfold iblk0
  rw [View.read_apply]
  refine congrArg (V c (Pipeline.arrRef spec0 0) : S2048x2048.Idx → EReal) (funext fun a => Fin.ext ?_)
  match a with
  | ⟨0, _⟩ => show win0_0.index t (0 : Fin 2) * 1024 + 1 * (y 0).val = (z 0).val; omega
  | ⟨1, _⟩ => show win0_0.index t (1 : Fin 2) * 2048 + 1 * (y 1).val = (z 1).val; omega

/-- The W band at point t is rows 512 (t % 4) … of W, all columns. -/
theorem blk0_1_apply (c : Dev nD) (t : Fin cfg0.N) (y : S512x2048.Idx) (z : S2048x2048.Idx)
    (hz0 : (z 0).val = t.val % 4 * 512 + (y 0).val) (hz1 : (z 1).val = (y 1).val) :
    (iblk0 V c 1 t : Vec Ideal S512x2048 .f32) y = (V c (Pipeline.arrRef spec0 1) : S2048x2048.Idx → EReal) z := by
  obtain ⟨-, -, e0, e1, -⟩ := idx_facts0 t
  unfold iblk0
  rw [View.read_apply]
  refine congrArg (V c (Pipeline.arrRef spec0 1) : S2048x2048.Idx → EReal) (funext fun a => Fin.ext ?_)
  match a with
  | ⟨0, _⟩ => show win0_1.index t (0 : Fin 2) * 512 + 1 * (y 0).val = (z 0).val; omega
  | ⟨1, _⟩ => show win0_1.index t (1 : Fin 2) * 2048 + 1 * (y 1).val = (z 1).val; omega

/-- The b piece at point t is columns 512 (t % 4) … of the one row of b. -/
theorem blk0_2_apply (c : Dev nD) (t : Fin cfg0.N) (y : S1x512.Idx) (z : S1x2048.Idx)
    (hz1 : (z 1).val = t.val % 4 * 512 + (y 1).val) :
    (iblk0 V c 2 t : Vec Ideal S1x512 .f32) y = (V c (Pipeline.arrRef spec0 2) : S1x2048.Idx → EReal) z := by
  obtain ⟨-, -, -, -, e0, e1, -⟩ := idx_facts0 t
  have hy : (y 0).val < 1 := idx2_lt0 y
  have hz : (z 0).val < 1 := idx2_lt0 z
  unfold iblk0
  rw [View.read_apply]
  refine congrArg (V c (Pipeline.arrRef spec0 2) : S1x2048.Idx → EReal) (funext fun a => Fin.ext ?_)
  match a with
  | ⟨0, _⟩ => show win0_2.index t (0 : Fin 2) * 1 + 1 * (y 0).val = (z 0).val; omega
  | ⟨1, _⟩ => show win0_2.index t (1 : Fin 2) * 512 + 1 * (y 1).val = (z 1).val; omega

/-! ## What a point writes back -/

/-- Point t writes back its tile of X · Wᵀ + b of the entry arrays. -/
theorem flushed0_eq (c : Dev nD) (t : Fin cfg0.N) :
    (dat0 (F := Ideal) V c).flushed 3 t = ((cfg0.win 3).blk t).view.read (Elt Ideal)
      (Spec.lin (V c (Pipeline.arrRef spec0 0)) (V c (Pipeline.arrRef spec0 1)) (fun j => V c (Pipeline.arrRef spec0 2) (ix2 (0 : Fin 1) (j 0)))) := by
  show (cfg0.win 3).cut (grid0.coords t) ((dat0 V c).after 3 t) = _
  rw [after0_3]
  unfold out0_3
  rw [View.canon_unit_zero hz0]
  simp only [View.ld_unit_zero (S := S1024x2048) hz0, View.ld_unit_zero (S := S512x2048) hz0, View.ld_unit_zero (S := S1x512) hz0]
  obtain ⟨-, -, -, -, -, -, e0, e1⟩ := idx_facts0 t
  funext y
  show k0_pay1 (iblk0 V c 0 t) (iblk0 V c 1 t) (iblk0 V c 2 t) y
    = Spec.lin (V c (Pipeline.arrRef spec0 0)) (V c (Pipeline.arrRef spec0 1)) (fun j => V c (Pipeline.arrRef spec0 2) (ix2 (0 : Fin 1) (j 0)))
      (((cfg0.win 3).blk t).view.emb y)
  refine pay0_lin (iblk0 V c 0 t) (iblk0 V c 1 t) (iblk0 V c 2 t) _ _ _ (t.val / 4) (t.val % 4)
    (fun y z h0 h1 => blk0_0_apply V c t y z h0 h1) (fun y z h0 h1 => blk0_1_apply V c t y z h0 h1)
    (fun y z h => blk0_2_apply V c t y (ix2 (0 : Fin 1) (z 0)) h) y _ ?_ ?_
  · show win0_3.index t (0 : Fin 2) * 1024 + 1 * (y 0).val = t.val / 4 * 1024 + (y 0).val; omega
  · show win0_3.index t (1 : Fin 2) * 512 + 1 * (y 1).val = t.val % 4 * 512 + (y 1).val; omega

/-! ## The tiles cover the output -/

/-- An index of the output is in point t's tile iff each coordinate is in the tile's range on its axis. -/
theorem mem_blk0 (t : Fin cfg0.N) (i : S2048x2048.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole (Pipeline.arrRef spec0 3)).slice (win0_3.rect t)).set ↔ _
  rw [View.set_slice_whole, Rect.mem_set_unit]
  exact Iff.rfl

/-- Row r, column s lies in the tile of the point 4 (r / 1024) + s / 512. -/
theorem cover0 (i : S2048x2048.Idx) :
    ∃ t : Fin cfg0.N, (cfg0.win 3).flush t = true ∧ i ∈ ((cfg0.win 3).blk t).view.set := by
  have hi0 : (i 0).val < 2048 := idx2_lt0 i
  have hi1 : (i 1).val < 2048 := idx2_lt1 i
  obtain ⟨t, ht⟩ : ∃ t : Fin cfg0.N, t.val = (i 0).val / 1024 * 4 + (i 1).val / 512 :=
    ⟨⟨(i 0).val / 1024 * 4 + (i 1).val / 512, by rw [show cfg0.N = 8 from N_0]; omega⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-! ## The array after the eight points -/

/-- The output array ends as X · Wᵀ + b of the entry arrays. -/
theorem arrAt_lin0 (c : Dev nD) :
    (Cert.KernelIdeal.Hand.dat0 (F := Ideal) V c).arrAt 3 cfg0.N
      = Cert.Spec.lin (V c (Pipeline.arrRef spec0 0)) (V c (Pipeline.arrRef spec0 1)) (fun j => V c (Pipeline.arrRef spec0 2) (ix2 (0 : Fin 1) (j 0))) :=
  (dat0 (F := Ideal) V c).arrAt_eq_of_cover 3
    (Spec.lin (V c (Pipeline.arrRef spec0 0)) (V c (Pipeline.arrRef spec0 1)) (fun j => V c (Pipeline.arrRef spec0 2) (ix2 (0 : Fin 1) (j 0))))
    (fun t _ => flushed0_eq V c t) (cover0)

end Cert.KernelIdeal.LinVal

end
-- ==== Proof.KILinVal1.lean ====
/- The value of the linear layer of region 1 over the extended reals: after the pipeline's eight points the output
   array is X · Wᵀ + b of the arrays the region was entered with.

   Three steps. (1) The body's arithmetic at one entry of its 1024 × 512 tile: rounding to bf16 is the identity
   on the extended reals, the product accumulated from zero is the sum over the 2048 contracted columns of
   row p of the X band times row q of the W band, and the broadcast bias is the b piece at q. (2) The bands are
   restrictions of the arrays: at grid point t = 4 i + j the X band is rows 1024 i … of X, the W band rows
   512 j … of W, the b piece columns 512 j … of b, and the tile sits at rows 1024 i …, columns 512 j … of the
   output, so what the point writes back is that tile of X · Wᵀ + b. (3) Row r, column s of the output lies in
   the tile of the point 4 (r / 1024) + s / 512; the eight tiles cover the array, so the array ends as the whole
   of X · Wᵀ + b. -/
import proofs.«172455_j34531537060006_2_alg».proof.Proof.KILin1
import proofs.«172455_j34531537060006_2_alg».proof.Proof.Spec
import proofs.«172455_j34531537060006_2_alg».proof.Proof.LibRowsDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's arithmetic at one entry -/

/-- Entry (p, q) of the tile the body stores: row p of the X band against row q of the W band, plus the b
    piece at q. -/
theorem pay1_apply (x0 : Vec Ideal S1024x2048 .f32) (x1 : Vec Ideal S512x2048 .f32) (x2 : Vec Ideal S1x512 .f32)
    (p : Fin 1024) (q : Fin 512) :
    k1_pay1 x0 x1 x2 (ix2 p q) = (∑ k : Fin 2048, x0 (ix2 p k) * x1 (ix2 q k)) + x2 (ix2 (0 : Fin 1) q) := by
  unfold k1_pay1
  simp only [shapeCast_self]
  rw [addf_apply, broadcastTo_1b_ab_apply,
    show dot_S1024x2048_S512x2048_S1024x512_1_1_0_0_n_n = DotDims.transposedRhs 1024 2048 512 from rfl]
  exact congrArg (· + x2 (ix2 (0 : Fin 1) q))
    (LibRowsDot.matmul_zero_apply none (truncf .bf16 x0 bitsLt_bf16_f32) (truncf .bf16 x1 bitsLt_bf16_f32) p q)

/-- The same entry against X · Wᵀ + b of whole arrays of which the bands are the restrictions at block row
    `bi` of X and block row `bj` of W and of b: the tile's entry y is the arrays' entry z when z is y moved by
    the tile's offset. -/
theorem pay1_lin (x0 : Vec Ideal S1024x2048 .f32) (x1 : Vec Ideal S512x2048 .f32) (x2 : Vec Ideal S1x512 .f32)
    (X W : Spec.Mat) (b : Spec.Row) (bi bj : ℕ)
    (h0 : ∀ (y : S1024x2048.Idx) (z : S2048x2048.Idx), (z 0).val = bi * 1024 + (y 0).val → (z 1).val = (y 1).val → x0 y = X z)
    (h1 : ∀ (y : S512x2048.Idx) (z : S2048x2048.Idx), (z 0).val = bj * 512 + (y 0).val → (z 1).val = (y 1).val → x1 y = W z)
    (h2 : ∀ (y : S1x512.Idx) (z : (⟨1, ![2048]⟩ : Shape).Idx), (z 0).val = bj * 512 + (y 1).val → x2 y = b z)
    (y : S1024x512.Idx) (z : S2048x2048.Idx) (hz0 : (z 0).val = bi * 1024 + (y 0).val) (hz1 : (z 1).val = bj * 512 + (y 1).val) :
    k1_pay1 x0 x1 x2 y = Spec.lin X W b z := by
  obtain ⟨p, q, rfl⟩ : ∃ (p : Fin 1024) (q : Fin 512), y = ix2 p q := ⟨y 0, y 1, eq_ix2 y⟩
  obtain ⟨r, s, rfl⟩ : ∃ (r s : Fin 2048), z = ix2 r s := ⟨z 0, z 1, eq_ix2 z⟩
  show _ = (∑ k : Fin 2048, X (ix2 r k) * W (ix2 s k)) + b (ix1 s)
  rw [pay1_apply]
  refine congrArg₂ (· + ·) (Finset.sum_congr rfl fun k _ => ?_) ?_
  · rw [h0 (ix2 p k) (ix2 r k) hz0 rfl, h1 (ix2 q k) (ix2 s k) hz1 rfl]
  · exact h2 (ix2 (0 : Fin 1) q) (ix1 s) hz1

/-! ## The bands as restrictions of the arrays -/

theorem hz1 : (![0, 0] : Fin 2 → Nat) = fun _ => 0 := funext fun a => by fin_cases a <;> rfl

/-- The index maps at point t = 4 i + j, decided over the eight points: X moves with i, W and b with j, the
    output with both. -/
theorem idx_facts1 : ∀ t : Fin cfg1.N, win1_0.index t (0 : Fin 2) = t.val / 4
    ∧ win1_0.index t (1 : Fin 2) = 0
    ∧ win1_1.index t (0 : Fin 2) = t.val % 4
    ∧ win1_1.index t (1 : Fin 2) = 0
    ∧ win1_2.index t (0 : Fin 2) = 0
    ∧ win1_2.index t (1 : Fin 2) = t.val % 4
    ∧ win1_3.index t (0 : Fin 2) = t.val / 4
    ∧ win1_3.index t (1 : Fin 2) = t.val % 4 :=
  (by decide +kernel : ∀ t : Fin grid1.N, _)

/-- The X band at point t is rows 1024 (t / 4) … of X, all columns. -/
theorem blk1_0_apply (c : Dev nD) (t : Fin cfg1.N) (y : S1024x2048.Idx) (z : S2048x2048.Idx)
    (hz0 : (z 0).val = t.val / 4 * 1024 + (y 0).val) (hz1 : (z 1).val = (y 1).val) :
    (iblk1 V c 0 t : Vec Ideal S1024x2048 .f32) y = (V c (Pipeline.arrRef spec1 0) : S2048x2048.Idx → EReal) z := by
  obtain ⟨e0, e1, -⟩ := idx_facts1 t
  unfold iblk1
  rw [View.read_apply]
  refine congrArg (V c (Pipeline.arrRef spec1 0) : S2048x2048.Idx → EReal) (funext fun a => Fin.ext ?_)
  match a with
  | ⟨0, _⟩ => show win1_0.index t (0 : Fin 2) * 1024 + 1 * (y 0).val = (z 0).val; omega
  | ⟨1, _⟩ => show win1_0.index t (1 : Fin 2) * 2048 + 1 * (y 1).val = (z 1).val; omega

/-- The W band at point t is rows 512 (t % 4) … of W, all columns. -/
theorem blk1_1_apply (c : Dev nD) (t : Fin cfg1.N) (y : S512x2048.Idx) (z : S2048x2048.Idx)
    (hz0 : (z 0).val = t.val % 4 * 512 + (y 0).val) (hz1 : (z 1).val = (y 1).val) :
    (iblk1 V c 1 t : Vec Ideal S512x2048 .f32) y = (V c (Pipeline.arrRef spec1 1) : S2048x2048.Idx → EReal) z := by
  obtain ⟨-, -, e0, e1, -⟩ := idx_facts1 t
  unfold iblk1
  rw [View.read_apply]
  refine congrArg (V c (Pipeline.arrRef spec1 1) : S2048x2048.Idx → EReal) (funext fun a => Fin.ext ?_)
  match a with
  | ⟨0, _⟩ => show win1_1.index t (0 : Fin 2) * 512 + 1 * (y 0).val = (z 0).val; omega
  | ⟨1, _⟩ => show win1_1.index t (1 : Fin 2) * 2048 + 1 * (y 1).val = (z 1).val; omega

/-- The b piece at point t is columns 512 (t % 4) … of the one row of b. -/
theorem blk1_2_apply (c : Dev nD) (t : Fin cfg1.N) (y : S1x512.Idx) (z : S1x2048.Idx)
    (hz1 : (z 1).val = t.val % 4 * 512 + (y 1).val) :
    (iblk1 V c 2 t : Vec Ideal S1x512 .f32) y = (V c (Pipeline.arrRef spec1 2) : S1x2048.Idx → EReal) z := by
  obtain ⟨-, -, -, -, e0, e1, -⟩ := idx_facts1 t
  have hy : (y 0).val < 1 := idx2_lt0 y
  have hz : (z 0).val < 1 := idx2_lt0 z
  unfold iblk1
  rw [View.read_apply]
  refine congrArg (V c (Pipeline.arrRef spec1 2) : S1x2048.Idx → EReal) (funext fun a => Fin.ext ?_)
  match a with
  | ⟨0, _⟩ => show win1_2.index t (0 : Fin 2) * 1 + 1 * (y 0).val = (z 0).val; omega
  | ⟨1, _⟩ => show win1_2.index t (1 : Fin 2) * 512 + 1 * (y 1).val = (z 1).val; omega

/-! ## What a point writes back -/

/-- Point t writes back its tile of X · Wᵀ + b of the entry arrays. -/
theorem flushed1_eq (c : Dev nD) (t : Fin cfg1.N) :
    (dat1 (F := Ideal) V c).flushed 3 t = ((cfg1.win 3).blk t).view.read (Elt Ideal)
      (Spec.lin (V c (Pipeline.arrRef spec1 0)) (V c (Pipeline.arrRef spec1 1)) (fun j => V c (Pipeline.arrRef spec1 2) (ix2 (0 : Fin 1) (j 0)))) := by
  show (cfg1.win 3).cut (grid1.coords t) ((dat1 V c).after 3 t) = _
  rw [after1_3]
  unfold out1_3
  rw [View.canon_unit_zero hz1]
  simp only [View.ld_unit_zero (S := S1024x2048) hz1, View.ld_unit_zero (S := S512x2048) hz1, View.ld_unit_zero (S := S1x512) hz1]
  obtain ⟨-, -, -, -, -, -, e0, e1⟩ := idx_facts1 t
  funext y
  show k1_pay1 (iblk1 V c 0 t) (iblk1 V c 1 t) (iblk1 V c 2 t) y
    = Spec.lin (V c (Pipeline.arrRef spec1 0)) (V c (Pipeline.arrRef spec1 1)) (fun j => V c (Pipeline.arrRef spec1 2) (ix2 (0 : Fin 1) (j 0)))
      (((cfg1.win 3).blk t).view.emb y)
  refine pay1_lin (iblk1 V c 0 t) (iblk1 V c 1 t) (iblk1 V c 2 t) _ _ _ (t.val / 4) (t.val % 4)
    (fun y z h0 h1 => blk1_0_apply V c t y z h0 h1) (fun y z h0 h1 => blk1_1_apply V c t y z h0 h1)
    (fun y z h => blk1_2_apply V c t y (ix2 (0 : Fin 1) (z 0)) h) y _ ?_ ?_
  · show win1_3.index t (0 : Fin 2) * 1024 + 1 * (y 0).val = t.val / 4 * 1024 + (y 0).val; omega
  · show win1_3.index t (1 : Fin 2) * 512 + 1 * (y 1).val = t.val % 4 * 512 + (y 1).val; omega

/-! ## The tiles cover the output -/

/-- An index of the output is in point t's tile iff each coordinate is in the tile's range on its axis. -/
theorem mem_blk1 (t : Fin cfg1.N) (i : S2048x2048.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole (Pipeline.arrRef spec1 3)).slice (win1_3.rect t)).set ↔ _
  rw [View.set_slice_whole, Rect.mem_set_unit]
  exact Iff.rfl

/-- Row r, column s lies in the tile of the point 4 (r / 1024) + s / 512. -/
theorem cover1 (i : S2048x2048.Idx) :
    ∃ t : Fin cfg1.N, (cfg1.win 3).flush t = true ∧ i ∈ ((cfg1.win 3).blk t).view.set := by
  have hi0 : (i 0).val < 2048 := idx2_lt0 i
  have hi1 : (i 1).val < 2048 := idx2_lt1 i
  obtain ⟨t, ht⟩ : ∃ t : Fin cfg1.N, t.val = (i 0).val / 1024 * 4 + (i 1).val / 512 :=
    ⟨⟨(i 0).val / 1024 * 4 + (i 1).val / 512, by rw [show cfg1.N = 8 from N_1]; omega⟩, rfl⟩
  obtain ⟨-, -, -, -, -, -, e0, e1⟩ := idx_facts1 t
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-! ## The array after the eight points -/

/-- The output array ends as X · Wᵀ + b of the entry arrays. -/
theorem arrAt_lin1 (c : Dev nD) :
    (Cert.KernelIdeal.Hand.dat1 (F := Ideal) V c).arrAt 3 cfg1.N
      = Cert.Spec.lin (V c (Pipeline.arrRef spec1 0)) (V c (Pipeline.arrRef spec1 1)) (fun j => V c (Pipeline.arrRef spec1 2) (ix2 (0 : Fin 1) (j 0))) :=
  (dat1 (F := Ideal) V c).arrAt_eq_of_cover 3
    (Spec.lin (V c (Pipeline.arrRef spec1 0)) (V c (Pipeline.arrRef spec1 1)) (fun j => V c (Pipeline.arrRef spec1 2) (ix2 (0 : Fin 1) (j 0))))
    (fun t _ => flushed1_eq V c t) (cover1)

end Cert.KernelIdeal.LinVal

end
-- ==== Proof.KILinVal2.lean ====
/- The value of the linear layer of region 2 over the extended reals: after the pipeline's eight points the output
   array is X · Wᵀ + b of the arrays the region was entered with.

   Three steps. (1) The body's arithmetic at one entry of its 1024 × 512 tile: rounding to bf16 is the identity
   on the extended reals, the product accumulated from zero is the sum over the 2048 contracted columns of
   row p of the X band times row q of the W band, and the broadcast bias is the b piece at q. (2) The bands are
   restrictions of the arrays: at grid point t = 4 i + j the X band is rows 1024 i … of X, the W band rows
   512 j … of W, the b piece columns 512 j … of b, and the tile sits at rows 1024 i …, columns 512 j … of the
   output, so what the point writes back is that tile of X · Wᵀ + b. (3) Row r, column s of the output lies in
   the tile of the point 4 (r / 1024) + s / 512; the eight tiles cover the array, so the array ends as the whole
   of X · Wᵀ + b. -/
import proofs.«172455_j34531537060006_2_alg».proof.Proof.KILin2
import proofs.«172455_j34531537060006_2_alg».proof.Proof.Spec
import proofs.«172455_j34531537060006_2_alg».proof.Proof.LibRowsDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's arithmetic at one entry -/

/-- Entry (p, q) of the tile the body stores: row p of the X band against row q of the W band, plus the b
    piece at q. -/
theorem pay2_apply (x0 : Vec Ideal S1024x2048 .f32) (x1 : Vec Ideal S512x2048 .f32) (x2 : Vec Ideal S1x512 .f32)
    (p : Fin 1024) (q : Fin 512) :
    k2_pay1 x0 x1 x2 (ix2 p q) = (∑ k : Fin 2048, x0 (ix2 p k) * x1 (ix2 q k)) + x2 (ix2 (0 : Fin 1) q) := by
  unfold k2_pay1
  simp only [shapeCast_self]
  rw [addf_apply, broadcastTo_1b_ab_apply,
    show dot_S1024x2048_S512x2048_S1024x512_1_1_0_0_n_n = DotDims.transposedRhs 1024 2048 512 from rfl]
  exact congrArg (· + x2 (ix2 (0 : Fin 1) q))
    (LibRowsDot.matmul_zero_apply none (truncf .bf16 x0 bitsLt_bf16_f32) (truncf .bf16 x1 bitsLt_bf16_f32) p q)

/-- The same entry against X · Wᵀ + b of whole arrays of which the bands are the restrictions at block row
    `bi` of X and block row `bj` of W and of b: the tile's entry y is the arrays' entry z when z is y moved by
    the tile's offset. -/
theorem pay2_lin (x0 : Vec Ideal S1024x2048 .f32) (x1 : Vec Ideal S512x2048 .f32) (x2 : Vec Ideal S1x512 .f32)
    (X W : Spec.Mat) (b : Spec.Row) (bi bj : ℕ)
    (h0 : ∀ (y : S1024x2048.Idx) (z : S2048x2048.Idx), (z 0).val = bi * 1024 + (y 0).val → (z 1).val = (y 1).val → x0 y = X z)
    (h1 : ∀ (y : S512x2048.Idx) (z : S2048x2048.Idx), (z 0).val = bj * 512 + (y 0).val → (z 1).val = (y 1).val → x1 y = W z)
    (h2 : ∀ (y : S1x512.Idx) (z : (⟨1, ![2048]⟩ : Shape).Idx), (z 0).val = bj * 512 + (y 1).val → x2 y = b z)
    (y : S1024x512.Idx) (z : S2048x2048.Idx) (hz0 : (z 0).val = bi * 1024 + (y 0).val) (hz1 : (z 1).val = bj * 512 + (y 1).val) :
    k2_pay1 x0 x1 x2 y = Spec.lin X W b z := by
  obtain ⟨p, q, rfl⟩ : ∃ (p : Fin 1024) (q : Fin 512), y = ix2 p q := ⟨y 0, y 1, eq_ix2 y⟩
  obtain ⟨r, s, rfl⟩ : ∃ (r s : Fin 2048), z = ix2 r s := ⟨z 0, z 1, eq_ix2 z⟩
  show _ = (∑ k : Fin 2048, X (ix2 r k) * W (ix2 s k)) + b (ix1 s)
  rw [pay2_apply]
  refine congrArg₂ (· + ·) (Finset.sum_congr rfl fun k _ => ?_) ?_
  · rw [h0 (ix2 p k) (ix2 r k) hz0 rfl, h1 (ix2 q k) (ix2 s k) hz1 rfl]
  · exact h2 (ix2 (0 : Fin 1) q) (ix1 s) hz1

/-! ## The bands as restrictions of the arrays -/

theorem hz2 : (![0, 0] : Fin 2 → Nat) = fun _ => 0 := funext fun a => by fin_cases a <;> rfl

/-- The index maps at point t = 4 i + j, decided over the eight points: X moves with i, W and b with j, the
    output with both. -/
theorem idx_facts2 : ∀ t : Fin cfg2.N, win2_0.index t (0 : Fin 2) = t.val / 4
    ∧ win2_0.index t (1 : Fin 2) = 0
    ∧ win2_1.index t (0 : Fin 2) = t.val % 4
    ∧ win2_1.index t (1 : Fin 2) = 0
    ∧ win2_2.index t (0 : Fin 2) = 0
    ∧ win2_2.index t (1 : Fin 2) = t.val % 4
    ∧ win2_3.index t (0 : Fin 2) = t.val / 4
    ∧ win2_3.index t (1 : Fin 2) = t.val % 4 :=
  (by decide +kernel : ∀ t : Fin grid2.N, _)

/-- The X band at point t is rows 1024 (t / 4) … of X, all columns. -/
theorem blk2_0_apply (c : Dev nD) (t : Fin cfg2.N) (y : S1024x2048.Idx) (z : S2048x2048.Idx)
    (hz0 : (z 0).val = t.val / 4 * 1024 + (y 0).val) (hz1 : (z 1).val = (y 1).val) :
    (iblk2 V c 0 t : Vec Ideal S1024x2048 .f32) y = (V c (Pipeline.arrRef spec2 0) : S2048x2048.Idx → EReal) z := by
  obtain ⟨e0, e1, -⟩ := idx_facts2 t
  unfold iblk2
  rw [View.read_apply]
  refine congrArg (V c (Pipeline.arrRef spec2 0) : S2048x2048.Idx → EReal) (funext fun a => Fin.ext ?_)
  match a with
  | ⟨0, _⟩ => show win2_0.index t (0 : Fin 2) * 1024 + 1 * (y 0).val = (z 0).val; omega
  | ⟨1, _⟩ => show win2_0.index t (1 : Fin 2) * 2048 + 1 * (y 1).val = (z 1).val; omega

/-- The W band at point t is rows 512 (t % 4) … of W, all columns. -/
theorem blk2_1_apply (c : Dev nD) (t : Fin cfg2.N) (y : S512x2048.Idx) (z : S2048x2048.Idx)
    (hz0 : (z 0).val = t.val % 4 * 512 + (y 0).val) (hz1 : (z 1).val = (y 1).val) :
    (iblk2 V c 1 t : Vec Ideal S512x2048 .f32) y = (V c (Pipeline.arrRef spec2 1) : S2048x2048.Idx → EReal) z := by
  obtain ⟨-, -, e0, e1, -⟩ := idx_facts2 t
  unfold iblk2
  rw [View.read_apply]
  refine congrArg (V c (Pipeline.arrRef spec2 1) : S2048x2048.Idx → EReal) (funext fun a => Fin.ext ?_)
  match a with
  | ⟨0, _⟩ => show win2_1.index t (0 : Fin 2) * 512 + 1 * (y 0).val = (z 0).val; omega
  | ⟨1, _⟩ => show win2_1.index t (1 : Fin 2) * 2048 + 1 * (y 1).val = (z 1).val; omega

/-- The b piece at point t is columns 512 (t % 4) … of the one row of b. -/
theorem blk2_2_apply (c : Dev nD) (t : Fin cfg2.N) (y : S1x512.Idx) (z : S1x2048.Idx)
    (hz1 : (z 1).val = t.val % 4 * 512 + (y 1).val) :
    (iblk2 V c 2 t : Vec Ideal S1x512 .f32) y = (V c (Pipeline.arrRef spec2 2) : S1x2048.Idx → EReal) z := by
  obtain ⟨-, -, -, -, e0, e1, -⟩ := idx_facts2 t
  have hy : (y 0).val < 1 := idx2_lt0 y
  have hz : (z 0).val < 1 := idx2_lt0 z
  unfold iblk2
  rw [View.read_apply]
  refine congrArg (V c (Pipeline.arrRef spec2 2) : S1x2048.Idx → EReal) (funext fun a => Fin.ext ?_)
  match a with
  | ⟨0, _⟩ => show win2_2.index t (0 : Fin 2) * 1 + 1 * (y 0).val = (z 0).val; omega
  | ⟨1, _⟩ => show win2_2.index t (1 : Fin 2) * 512 + 1 * (y 1).val = (z 1).val; omega

/-! ## What a point writes back -/

/-- Point t writes back its tile of X · Wᵀ + b of the entry arrays. -/
theorem flushed2_eq (c : Dev nD) (t : Fin cfg2.N) :
    (dat2 (F := Ideal) V c).flushed 3 t = ((cfg2.win 3).blk t).view.read (Elt Ideal)
      (Spec.lin (V c (Pipeline.arrRef spec2 0)) (V c (Pipeline.arrRef spec2 1)) (fun j => V c (Pipeline.arrRef spec2 2) (ix2 (0 : Fin 1) (j 0)))) := by
  show (cfg2.win 3).cut (grid2.coords t) ((dat2 V c).after 3 t) = _
  rw [after2_3]
  unfold out2_3
  rw [View.canon_unit_zero hz2]
  simp only [View.ld_unit_zero (S := S1024x2048) hz2, View.ld_unit_zero (S := S512x2048) hz2, View.ld_unit_zero (S := S1x512) hz2]
  obtain ⟨-, -, -, -, -, -, e0, e1⟩ := idx_facts2 t
  funext y
  show k2_pay1 (iblk2 V c 0 t) (iblk2 V c 1 t) (iblk2 V c 2 t) y
    = Spec.lin (V c (Pipeline.arrRef spec2 0)) (V c (Pipeline.arrRef spec2 1)) (fun j => V c (Pipeline.arrRef spec2 2) (ix2 (0 : Fin 1) (j 0)))
      (((cfg2.win 3).blk t).view.emb y)
  refine pay2_lin (iblk2 V c 0 t) (iblk2 V c 1 t) (iblk2 V c 2 t) _ _ _ (t.val / 4) (t.val % 4)
    (fun y z h0 h1 => blk2_0_apply V c t y z h0 h1) (fun y z h0 h1 => blk2_1_apply V c t y z h0 h1)
    (fun y z h => blk2_2_apply V c t y (ix2 (0 : Fin 1) (z 0)) h) y _ ?_ ?_
  · show win2_3.index t (0 : Fin 2) * 1024 + 1 * (y 0).val = t.val / 4 * 1024 + (y 0).val; omega
  · show win2_3.index t (1 : Fin 2) * 512 + 1 * (y 1).val = t.val % 4 * 512 + (y 1).val; omega

/-! ## The tiles cover the output -/

/-- An index of the output is in point t's tile iff each coordinate is in the tile's range on its axis. -/
theorem mem_blk2 (t : Fin cfg2.N) (i : S2048x2048.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole (Pipeline.arrRef spec2 3)).slice (win2_3.rect t)).set ↔ _
  rw [View.set_slice_whole, Rect.mem_set_unit]
  exact Iff.rfl

/-- Row r, column s lies in the tile of the point 4 (r / 1024) + s / 512. -/
theorem cover2 (i : S2048x2048.Idx) :
    ∃ t : Fin cfg2.N, (cfg2.win 3).flush t = true ∧ i ∈ ((cfg2.win 3).blk t).view.set := by
  have hi0 : (i 0).val < 2048 := idx2_lt0 i
  have hi1 : (i 1).val < 2048 := idx2_lt1 i
  obtain ⟨t, ht⟩ : ∃ t : Fin cfg2.N, t.val = (i 0).val / 1024 * 4 + (i 1).val / 512 :=
    ⟨⟨(i 0).val / 1024 * 4 + (i 1).val / 512, by rw [show cfg2.N = 8 from N_2]; omega⟩, rfl⟩
  obtain ⟨-, -, -, -, -, -, e0, e1⟩ := idx_facts2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-! ## The array after the eight points -/

/-- The output array ends as X · Wᵀ + b of the entry arrays. -/
theorem arrAt_lin2 (c : Dev nD) :
    (Cert.KernelIdeal.Hand.dat2 (F := Ideal) V c).arrAt 3 cfg2.N
      = Cert.Spec.lin (V c (Pipeline.arrRef spec2 0)) (V c (Pipeline.arrRef spec2 1)) (fun j => V c (Pipeline.arrRef spec2 2) (ix2 (0 : Fin 1) (j 0))) :=
  (dat2 (F := Ideal) V c).arrAt_eq_of_cover 3
    (Spec.lin (V c (Pipeline.arrRef spec2 0)) (V c (Pipeline.arrRef spec2 1)) (fun j => V c (Pipeline.arrRef spec2 2) (ix2 (0 : Fin 1) (j 0))))
    (fun t _ => flushed2_eq V c t) (cover2)

end Cert.KernelIdeal.LinVal

end
-- ==== Proof.KILinVal4.lean ====
/- The value of the linear layer of region 4 over the extended reals: after the pipeline's eight points the output
   array is X · Wᵀ + b of the arrays the region was entered with.

   Three steps. (1) The body's arithmetic at one entry of its 1024 × 512 tile: rounding to bf16 is the identity
   on the extended reals, the product accumulated from zero is the sum over the 2048 contracted columns of
   row p of the X band times row q of the W band, and the broadcast bias is the b piece at q. (2) The bands are
   restrictions of the arrays: at grid point t = 4 i + j the X band is rows 1024 i … of X, the W band rows
   512 j … of W, the b piece columns 512 j … of b, and the tile sits at rows 1024 i …, columns 512 j … of the
   output, so what the point writes back is that tile of X · Wᵀ + b. (3) Row r, column s of the output lies in
   the tile of the point 4 (r / 1024) + s / 512; the eight tiles cover the array, so the array ends as the whole
   of X · Wᵀ + b. -/
import proofs.«172455_j34531537060006_2_alg».proof.Proof.KILin4
import proofs.«172455_j34531537060006_2_alg».proof.Proof.Spec
import proofs.«172455_j34531537060006_2_alg».proof.Proof.LibRowsDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's arithmetic at one entry -/

/-- Entry (p, q) of the tile the body stores: row p of the X band against row q of the W band, plus the b
    piece at q. -/
theorem pay4_apply (x0 : Vec Ideal S1024x2048 .f32) (x1 : Vec Ideal S512x2048 .f32) (x2 : Vec Ideal S1x512 .f32)
    (p : Fin 1024) (q : Fin 512) :
    k4_pay1 x0 x1 x2 (ix2 p q) = (∑ k : Fin 2048, x0 (ix2 p k) * x1 (ix2 q k)) + x2 (ix2 (0 : Fin 1) q) := by
  unfold k4_pay1
  simp only [shapeCast_self]
  rw [addf_apply, broadcastTo_1b_ab_apply,
    show dot_S1024x2048_S512x2048_S1024x512_1_1_0_0_n_n = DotDims.transposedRhs 1024 2048 512 from rfl]
  exact congrArg (· + x2 (ix2 (0 : Fin 1) q))
    (LibRowsDot.matmul_zero_apply none (truncf .bf16 x0 bitsLt_bf16_f32) (truncf .bf16 x1 bitsLt_bf16_f32) p q)

/-- The same entry against X · Wᵀ + b of whole arrays of which the bands are the restrictions at block row
    `bi` of X and block row `bj` of W and of b: the tile's entry y is the arrays' entry z when z is y moved by
    the tile's offset. -/
theorem pay4_lin (x0 : Vec Ideal S1024x2048 .f32) (x1 : Vec Ideal S512x2048 .f32) (x2 : Vec Ideal S1x512 .f32)
    (X W : Spec.Mat) (b : Spec.Row) (bi bj : ℕ)
    (h0 : ∀ (y : S1024x2048.Idx) (z : S2048x2048.Idx), (z 0).val = bi * 1024 + (y 0).val → (z 1).val = (y 1).val → x0 y = X z)
    (h1 : ∀ (y : S512x2048.Idx) (z : S2048x2048.Idx), (z 0).val = bj * 512 + (y 0).val → (z 1).val = (y 1).val → x1 y = W z)
    (h2 : ∀ (y : S1x512.Idx) (z : (⟨1, ![2048]⟩ : Shape).Idx), (z 0).val = bj * 512 + (y 1).val → x2 y = b z)
    (y : S1024x512.Idx) (z : S2048x2048.Idx) (hz0 : (z 0).val = bi * 1024 + (y 0).val) (hz1 : (z 1).val = bj * 512 + (y 1).val) :
    k4_pay1 x0 x1 x2 y = Spec.lin X W b z := by
  obtain ⟨p, q, rfl⟩ : ∃ (p : Fin 1024) (q : Fin 512), y = ix2 p q := ⟨y 0, y 1, eq_ix2 y⟩
  obtain ⟨r, s, rfl⟩ : ∃ (r s : Fin 2048), z = ix2 r s := ⟨z 0, z 1, eq_ix2 z⟩
  show _ = (∑ k : Fin 2048, X (ix2 r k) * W (ix2 s k)) + b (ix1 s)
  rw [pay4_apply]
  refine congrArg₂ (· + ·) (Finset.sum_congr rfl fun k _ => ?_) ?_
  · rw [h0 (ix2 p k) (ix2 r k) hz0 rfl, h1 (ix2 q k) (ix2 s k) hz1 rfl]
  · exact h2 (ix2 (0 : Fin 1) q) (ix1 s) hz1

/-! ## The bands as restrictions of the arrays -/

theorem hz4 : (![0, 0] : Fin 2 → Nat) = fun _ => 0 := funext fun a => by fin_cases a <;> rfl

/-- The index maps at point t = 4 i + j, decided over the eight points: X moves with i, W and b with j, the
    output with both. -/
theorem idx_facts4 : ∀ t : Fin cfg4.N, win4_0.index t (0 : Fin 2) = t.val / 4
    ∧ win4_0.index t (1 : Fin 2) = 0
    ∧ win4_1.index t (0 : Fin 2) = t.val % 4
    ∧ win4_1.index t (1 : Fin 2) = 0
    ∧ win4_2.index t (0 : Fin 2) = 0
    ∧ win4_2.index t (1 : Fin 2) = t.val % 4
    ∧ win4_3.index t (0 : Fin 2) = t.val / 4
    ∧ win4_3.index t (1 : Fin 2) = t.val % 4 :=
  (by decide +kernel : ∀ t : Fin grid4.N, _)

/-- The X band at point t is rows 1024 (t / 4) … of X, all columns. -/
theorem blk4_0_apply (c : Dev nD) (t : Fin cfg4.N) (y : S1024x2048.Idx) (z : S2048x2048.Idx)
    (hz0 : (z 0).val = t.val / 4 * 1024 + (y 0).val) (hz1 : (z 1).val = (y 1).val) :
    (iblk4 V c 0 t : Vec Ideal S1024x2048 .f32) y = (V c (Pipeline.arrRef spec4 0) : S2048x2048.Idx → EReal) z := by
  obtain ⟨e0, e1, -⟩ := idx_facts4 t
  unfold iblk4
  rw [View.read_apply]
  refine congrArg (V c (Pipeline.arrRef spec4 0) : S2048x2048.Idx → EReal) (funext fun a => Fin.ext ?_)
  match a with
  | ⟨0, _⟩ => show win4_0.index t (0 : Fin 2) * 1024 + 1 * (y 0).val = (z 0).val; omega
  | ⟨1, _⟩ => show win4_0.index t (1 : Fin 2) * 2048 + 1 * (y 1).val = (z 1).val; omega

/-- The W band at point t is rows 512 (t % 4) … of W, all columns. -/
theorem blk4_1_apply (c : Dev nD) (t : Fin cfg4.N) (y : S512x2048.Idx) (z : S2048x2048.Idx)
    (hz0 : (z 0).val = t.val % 4 * 512 + (y 0).val) (hz1 : (z 1).val = (y 1).val) :
    (iblk4 V c 1 t : Vec Ideal S512x2048 .f32) y = (V c (Pipeline.arrRef spec4 1) : S2048x2048.Idx → EReal) z := by
  obtain ⟨-, -, e0, e1, -⟩ := idx_facts4 t
  unfold iblk4
  rw [View.read_apply]
  refine congrArg (V c (Pipeline.arrRef spec4 1) : S2048x2048.Idx → EReal) (funext fun a => Fin.ext ?_)
  match a with
  | ⟨0, _⟩ => show win4_1.index t (0 : Fin 2) * 512 + 1 * (y 0).val = (z 0).val; omega
  | ⟨1, _⟩ => show win4_1.index t (1 : Fin 2) * 2048 + 1 * (y 1).val = (z 1).val; omega

/-- The b piece at point t is columns 512 (t % 4) … of the one row of b. -/
theorem blk4_2_apply (c : Dev nD) (t : Fin cfg4.N) (y : S1x512.Idx) (z : S1x2048.Idx)
    (hz1 : (z 1).val = t.val % 4 * 512 + (y 1).val) :
    (iblk4 V c 2 t : Vec Ideal S1x512 .f32) y = (V c (Pipeline.arrRef spec4 2) : S1x2048.Idx → EReal) z := by
  obtain ⟨-, -, -, -, e0, e1, -⟩ := idx_facts4 t
  have hy : (y 0).val < 1 := idx2_lt0 y
  have hz : (z 0).val < 1 := idx2_lt0 z
  unfold iblk4
  rw [View.read_apply]
  refine congrArg (V c (Pipeline.arrRef spec4 2) : S1x2048.Idx → EReal) (funext fun a => Fin.ext ?_)
  match a with
  | ⟨0, _⟩ => show win4_2.index t (0 : Fin 2) * 1 + 1 * (y 0).val = (z 0).val; omega
  | ⟨1, _⟩ => show win4_2.index t (1 : Fin 2) * 512 + 1 * (y 1).val = (z 1).val; omega

/-! ## What a point writes back -/

/-- Point t writes back its tile of X · Wᵀ + b of the entry arrays. -/
theorem flushed4_eq (c : Dev nD) (t : Fin cfg4.N) :
    (dat4 (F := Ideal) V c).flushed 3 t = ((cfg4.win 3).blk t).view.read (Elt Ideal)
      (Spec.lin (V c (Pipeline.arrRef spec4 0)) (V c (Pipeline.arrRef spec4 1)) (fun j => V c (Pipeline.arrRef spec4 2) (ix2 (0 : Fin 1) (j 0)))) := by
  show (cfg4.win 3).cut (grid4.coords t) ((dat4 V c).after 3 t) = _
  rw [after4_3]
  unfold out4_3
  rw [View.canon_unit_zero hz4]
  simp only [View.ld_unit_zero (S := S1024x2048) hz4, View.ld_unit_zero (S := S512x2048) hz4, View.ld_unit_zero (S := S1x512) hz4]
  obtain ⟨-, -, -, -, -, -, e0, e1⟩ := idx_facts4 t
  funext y
  show k4_pay1 (iblk4 V c 0 t) (iblk4 V c 1 t) (iblk4 V c 2 t) y
    = Spec.lin (V c (Pipeline.arrRef spec4 0)) (V c (Pipeline.arrRef spec4 1)) (fun j => V c (Pipeline.arrRef spec4 2) (ix2 (0 : Fin 1) (j 0)))
      (((cfg4.win 3).blk t).view.emb y)
  refine pay4_lin (iblk4 V c 0 t) (iblk4 V c 1 t) (iblk4 V c 2 t) _ _ _ (t.val / 4) (t.val % 4)
    (fun y z h0 h1 => blk4_0_apply V c t y z h0 h1) (fun y z h0 h1 => blk4_1_apply V c t y z h0 h1)
    (fun y z h => blk4_2_apply V c t y (ix2 (0 : Fin 1) (z 0)) h) y _ ?_ ?_
  · show win4_3.index t (0 : Fin 2) * 1024 + 1 * (y 0).val = t.val / 4 * 1024 + (y 0).val; omega
  · show win4_3.index t (1 : Fin 2) * 512 + 1 * (y 1).val = t.val % 4 * 512 + (y 1).val; omega

/-! ## The tiles cover the output -/

/-- An index of the output is in point t's tile iff each coordinate is in the tile's range on its axis. -/
theorem mem_blk4 (t : Fin cfg4.N) (i : S2048x2048.Idx) :
    i ∈ ((cfg4.win 3).blk t).view.set ↔ ∀ a : Fin 2, win4_3.index t a * S1024x512.size a ≤ (i a).val ∧ (i a).val < win4_3.index t a * S1024x512.size a + S1024x512.size a := by
  show i ∈ ((View.whole (Pipeline.arrRef spec4 3)).slice (win4_3.rect t)).set ↔ _
  rw [View.set_slice_whole, Rect.mem_set_unit]
  exact Iff.rfl

/-- Row r, column s lies in the tile of the point 4 (r / 1024) + s / 512. -/
theorem cover4 (i : S2048x2048.Idx) :
    ∃ t : Fin cfg4.N, (cfg4.win 3).flush t = true ∧ i ∈ ((cfg4.win 3).blk t).view.set := by
  have hi0 : (i 0).val < 2048 := idx2_lt0 i
  have hi1 : (i 1).val < 2048 := idx2_lt1 i
  obtain ⟨t, ht⟩ : ∃ t : Fin cfg4.N, t.val = (i 0).val / 1024 * 4 + (i 1).val / 512 :=
    ⟨⟨(i 0).val / 1024 * 4 + (i 1).val / 512, by rw [show cfg4.N = 8 from N_4]; omega⟩, rfl⟩
  obtain ⟨-, -, -, -, -, -, e0, e1⟩ := idx_facts4 t
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 512 ≤ (i 1).val ∧ (i 1).val < win4_3.index t (1 : Fin 2) * 512 + 512; omega

/-! ## The array after the eight points -/

/-- The output array ends as X · Wᵀ + b of the entry arrays. -/
theorem arrAt_lin4 (c : Dev nD) :
    (Cert.KernelIdeal.Hand.dat4 (F := Ideal) V c).arrAt 3 cfg4.N
      = Cert.Spec.lin (V c (Pipeline.arrRef spec4 0)) (V c (Pipeline.arrRef spec4 1)) (fun j => V c (Pipeline.arrRef spec4 2) (ix2 (0 : Fin 1) (j 0))) :=
  (dat4 (F := Ideal) V c).arrAt_eq_of_cover 3
    (Spec.lin (V c (Pipeline.arrRef spec4 0)) (V c (Pipeline.arrRef spec4 1)) (fun j => V c (Pipeline.arrRef spec4 2) (ix2 (0 : Fin 1) (j 0))))
    (fun t _ => flushed4_eq V c t) (cover4)

end Cert.KernelIdeal.LinVal

end
-- ==== Proof.KIAttnTerms.lean ====
/-
  The attention body's arithmetic over one pair of key blocks, as pure terms of the blocks it loads. For a query block
  `q`, a key block `k`, a value block `v` and a bias block `b`: the first point of a pair starts from the reset scratch
  (running maximum at the stand-in for minus infinity, denominator and numerator at zero) and leaves `mA`, `lA`, `accA`;
  the second point, from scratch contents `mS`, `lS`, `accS`, stores `outB`, the new numerator over the new denominator.
-/
import proofs.«172455_j34531537060006_2_alg».proof.Proof.Gen.KernelIdeal.Skeleton

noncomputable section

namespace Cert.KernelIdeal.Hand

open Cert.KernelIdeal Cert.KernelIdeal.Gen Idealize.ShloMosaic

variable {F : FTy → Type} [FloatOps F]

/-- The running maximum after the first point of a pair. -/
def mA (q k : Vec F S1024x128 .f32) (b : Vec F S1x1024x1024 .f32) : Vec F S1024x1 .f32 :=
  k3_pay2 (k3_pay8 q k b (k3_pay4 (F := F)))
/-- The running denominator after the first point of a pair. -/
def lA (q k : Vec F S1024x128 .f32) (b : Vec F S1x1024x1024 .f32) : Vec F S1024x1 .f32 :=
  k3_pay11 q k b (k3_pay4 (F := F)) (k3_pay4 (F := F)) (k3_pay5 (F := F))
/-- The running numerator after the first point of a pair. -/
def accA (q k v : Vec F S1024x128 .f32) (b : Vec F S1x1024x1024 .f32) : Vec F S1024x128 .f32 :=
  k3_pay1 (k3_pay9 q k b (k3_pay4 (F := F)) (k3_pay4 (F := F))) (k3_pay10 q k b (k3_pay4 (F := F))) v (k3_pay6 (F := F))
/-- The running maximum after a later point, from the scratch contents it found. -/
def mB (q k : Vec F S1024x128 .f32) (b : Vec F S1x1024x1024 .f32) (mS : Vec F S1024x1 .f32) : Vec F S1024x1 .f32 :=
  k3_pay2 (k3_pay8 q k b mS)
/-- The running denominator after a later point. -/
def lB (q k : Vec F S1024x128 .f32) (b : Vec F S1x1024x1024 .f32) (mS lS : Vec F S1024x1 .f32) : Vec F S1024x1 .f32 :=
  k3_pay11 q k b mS mS lS
/-- The running numerator after a later point. -/
def accB (q k v : Vec F S1024x128 .f32) (b : Vec F S1x1024x1024 .f32) (mS : Vec F S1024x1 .f32) (accS : Vec F S1024x128 .f32) : Vec F S1024x128 .f32 :=
  k3_pay1 (k3_pay9 q k b mS mS) (k3_pay10 q k b mS) v accS
/-- What the last point of a pair stores into the output block: the new numerator over the new denominator. -/
def outB (q k v : Vec F S1024x128 .f32) (b : Vec F S1x1024x1024 .f32) (mS lS : Vec F S1024x1 .f32) (accS : Vec F S1024x128 .f32) : Vec F S1024x128 .f32 :=
  k3_pay3 (accB q k v b mS accS) (lB q k b mS lS)

end Cert.KernelIdeal.Hand

end
-- ==== Proof.KIAttnPieces.lean ====
/-
  What the two whole-body runs of the attention kernel found in each buffer, read back as the body's arithmetic: after
  the first point of a pair the three scratch buffers hold `mA`, `lA`, `accA` of the point's blocks; after the second
  they hold `mB`, `lB`, `accB` and the output block holds `outB`, of the point's blocks and of the scratch contents found.
  Every store is of a whole buffer, so the last store into a buffer is what it holds; a load after such a store reads
  the stored value.
-/
import proofs.«172455_j34531537060006_2_alg».proof.Proof.KIAttn
import proofs.«172455_j34531537060006_2_alg».proof.Proof.KIAttnTerms
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

theorem sout3_A_0_eq (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) :
    sout3_A_0 c i arg3 harg3 arg4 harg4 arg5 harg5 arg6 harg6 arg7 harg7 arg8 harg8 arg9 harg9 arg10 harg10 hc0 hc1 x0 x1 x2 x3 = mA x0 x1 x3 := by
  unfold sout3_A_0
  rw [View.read_writes_eq_canon _ _ _ (scover3_A_0 c i arg3 harg3 arg4 harg4 arg5 harg5 arg6 harg6 arg7 harg7 arg8 harg8 arg9 harg9 arg10 harg10 hc0 hc1 x0 x1 x2 x3)]
  unfold kernelRun3_A
  dsimp only
  sl_unfold_run_names
  rw [View.canon_cons_unit_zero hz2]
  simp only [View.readAt_eq_ld, harg3.read_unread, harg4.read_unread, harg5.read_unread, harg6.read_unread, View.ld_unit_zero (S := S1024x128) hz2, View.ld_unit_zero (S := S1024x1) hz2, View.ld_unit_zero (S := S1x1024x1024) hz3, View.readCov_unit_zero (S := S1024x1) _ hz2, View.readCov_unit_zero (S := S1024x128) _ hz2]
  rfl

theorem sout3_A_1_eq (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) :
    sout3_A_1 c i arg3 harg3 arg4 harg4 arg5 harg5 arg6 harg6 arg7 harg7 arg8 harg8 arg9 harg9 arg10 harg10 hc0 hc1 x0 x1 x2 x3 = lA x0 x1 x3 := by
  unfold sout3_A_1
  rw [View.read_writes_eq_canon _ _ _ (scover3_A_1 c i arg3 harg3 arg4 harg4 arg5 harg5 arg6 harg6 arg7 harg7 arg8 harg8 arg9 harg9 arg10 harg10 hc0 hc1 x0 x1 x2 x3)]
  unfold kernelRun3_A
  dsimp only
  sl_unfold_run_names
  rw [View.canon_cons_unit_zero hz2]
  simp only [View.readAt_eq_ld, harg3.read_unread, harg4.read_unread, harg5.read_unread, harg6.read_unread, View.ld_unit_zero (S := S1024x128) hz2, View.ld_unit_zero (S := S1024x1) hz2, View.ld_unit_zero (S := S1x1024x1024) hz3, View.readCov_unit_zero (S := S1024x1) _ hz2, View.readCov_unit_zero (S := S1024x128) _ hz2]
  rfl

theorem sout3_A_2_eq (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond3_0 i) (hc1 : ¬cond3_1 i) (x0 : Vec F S1024x128 .f32) (x1 : Vec F S1024x128 .f32) (x2 : Vec F S1024x128 .f32) (x3 : Vec F S1x1024x1024 .f32) :
    sout3_A_2 c i arg3 harg3 arg4 harg4 arg5 harg5 arg6 harg6 arg7 harg7 arg8 harg8 arg9 harg9 arg10 harg10 hc0 hc1 x0 x1 x2 x3 = accA x0 x1 x2 x3 := by
  unfold sout3_A_2
  rw [View.read_writes_eq_canon _ _ _ (scover3_A_2 c i arg3 harg3 arg4 harg4 arg5 harg5 arg6 harg6 arg7 harg7 arg8 harg8 arg9 harg9 arg10 harg10 hc0 hc1 x0 x1 x2 x3)]
  unfold kernelRun3_A
  dsimp only
  sl_unfold_run_names
  rw [View.canon_cons_unit_zero hz2]
  simp only [View.readAt_eq_ld, harg3.read_unread, harg4.read_unread, harg5.read_unread, harg6.read_unread, View.ld_unit_zero (S := S1024x128) hz2, View.ld_unit_zero (S := S1024x1) hz2, View.ld_unit_zero (S := S1x1024x1024) hz3, View.readCov_unit_zero (S := S1024x1) _ hz2, View.readCov_unit_zero (S := S1024x128) _ hz2]
  rfl

theorem sout3_B_0_eq (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) :
    sout3_B_0 c i arg3 harg3 arg4 harg4 arg5 harg5 arg6 harg6 arg7 harg7 arg8 harg8 arg9 harg9 arg10 harg10 hc0 hc1 x0 x1 x2 x3 xs0 xs1 xs2 = mB x0 x1 x3 xs0 := by
  unfold sout3_B_0
  rw [View.read_writes_eq_canon _ _ _ (scover3_B_0 c i arg3 harg3 arg4 harg4 arg5 harg5 arg6 harg6 arg7 harg7 arg8 harg8 arg9 harg9 arg10 harg10 hc0 hc1 x0 x1 x2 x3 xs0 xs1 xs2)]
  unfold kernelRun3_B
  dsimp only
  sl_unfold_run_names
  rw [View.canon_cons_unit_zero hz2]
  simp only [View.readAt_eq_ld, harg3.read_unread, harg4.read_unread, harg5.read_unread, harg6.read_unread, harg8.read_unread, harg9.read_unread, harg10.read_unread, View.ld_unit_zero (S := S1024x128) hz2, View.ld_unit_zero (S := S1024x1) hz2, View.ld_unit_zero (S := S1x1024x1024) hz3, View.readCov_unit_zero (S := S1024x1) _ hz2, View.readCov_unit_zero (S := S1024x128) _ hz2]
  rfl

theorem sout3_B_1_eq (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) :
    sout3_B_1 c i arg3 harg3 arg4 harg4 arg5 harg5 arg6 harg6 arg7 harg7 arg8 harg8 arg9 harg9 arg10 harg10 hc0 hc1 x0 x1 x2 x3 xs0 xs1 xs2 = lB x0 x1 x3 xs0 xs1 := by
  unfold sout3_B_1
  rw [View.read_writes_eq_canon _ _ _ (scover3_B_1 c i arg3 harg3 arg4 harg4 arg5 harg5 arg6 harg6 arg7 harg7 arg8 harg8 arg9 harg9 arg10 harg10 hc0 hc1 x0 x1 x2 x3 xs0 xs1 xs2)]
  unfold kernelRun3_B
  dsimp only
  sl_unfold_run_names
  rw [View.canon_cons_unit_zero hz2]
  simp only [View.readAt_eq_ld, harg3.read_unread, harg4.read_unread, harg5.read_unread, harg6.read_unread, harg8.read_unread, harg9.read_unread, harg10.read_unread, View.ld_unit_zero (S := S1024x128) hz2, View.ld_unit_zero (S := S1024x1) hz2, View.ld_unit_zero (S := S1x1024x1024) hz3, View.readCov_unit_zero (S := S1024x1) _ hz2, View.readCov_unit_zero (S := S1024x128) _ hz2]
  rfl

theorem sout3_B_2_eq (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) :
    sout3_B_2 c i arg3 harg3 arg4 harg4 arg5 harg5 arg6 harg6 arg7 harg7 arg8 harg8 arg9 harg9 arg10 harg10 hc0 hc1 x0 x1 x2 x3 xs0 xs1 xs2 = accB x0 x1 x2 x3 xs0 xs2 := by
  unfold sout3_B_2
  rw [View.read_writes_eq_canon _ _ _ (scover3_B_2 c i arg3 harg3 arg4 harg4 arg5 harg5 arg6 harg6 arg7 harg7 arg8 harg8 arg9 harg9 arg10 harg10 hc0 hc1 x0 x1 x2 x3 xs0 xs1 xs2)]
  unfold kernelRun3_B
  dsimp only
  sl_unfold_run_names
  rw [View.canon_cons_unit_zero hz2]
  simp only [View.readAt_eq_ld, harg3.read_unread, harg4.read_unread, harg5.read_unread, harg6.read_unread, harg8.read_unread, harg9.read_unread, harg10.read_unread, View.ld_unit_zero (S := S1024x128) hz2, View.ld_unit_zero (S := S1024x1) hz2, View.ld_unit_zero (S := S1x1024x1024) hz3, View.readCov_unit_zero (S := S1024x1) _ hz2, View.readCov_unit_zero (S := S1024x128) _ hz2]
  rfl

theorem out3_B_4_eq (c : Dev nD) (i : grid3.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬cond3_0 i) (hc1 : cond3_1 i) (x0 : Vec F S1024x128 .f32) (x1 : Vec F S1024x128 .f32) (x2 : Vec F S1024x128 .f32) (x3 : Vec F S1x1024x1024 .f32) (xs0 : Vec F S1024x1 .f32) (xs1 : Vec F S1024x1 .f32) (xs2 : Vec F S1024x128 .f32) :
    out3_B_4 c i arg3 harg3 arg4 harg4 arg5 harg5 arg6 harg6 arg7 harg7 arg8 harg8 arg9 harg9 arg10 harg10 hc0 hc1 x0 x1 x2 x3 xs0 xs1 xs2 = outB x0 x1 x2 x3 xs0 xs1 xs2 := by
  unfold out3_B_4
  rw [View.read_writes_eq_canon _ _ _ (cover3_B_4 c i arg3 harg3 arg4 harg4 arg5 harg5 arg6 harg6 arg7 harg7 arg8 harg8 arg9 harg9 arg10 harg10 hc0 hc1 x0 x1 x2 x3 xs0 xs1 xs2)]
  unfold kernelRun3_B
  dsimp only
  sl_unfold_run_names
  rw [View.canon_cons_unit_zero hz2]
  simp only [View.readAt_eq_ld, harg3.read_unread, harg4.read_unread, harg5.read_unread, harg6.read_unread, harg8.read_unread, harg9.read_unread, harg10.read_unread, View.ld_unit_zero (S := S1024x128) hz2, View.ld_unit_zero (S := S1024x1) hz2, View.ld_unit_zero (S := S1x1024x1024) hz3, View.readCov_unit_zero (S := S1024x1) _ hz2, View.readCov_unit_zero (S := S1024x128) _ hz2]
  rfl

end Cert.KernelIdeal.Hand

end
-- ==== Proof.KIAttnVal1.lean ====
/-
  The output block of the attention call at the second point of a pair, as the body's arithmetic of the blocks of the
  two points: the first point (one position earlier) leaves `mA`, `lA`, `accA` of its blocks in the scratch buffers and
  the second stores `outB` of its own blocks and of those.
-/
import proofs.«172455_j34531537060006_2_alg».proof.Proof.KIAttnPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What an even point leaves in the scratch buffers. -/
theorem scratch_even (c : Dev nD) (t : Fin cfg3.N) (h0 : t.val % 2 = 0) :
    (outsAt3 V c t.val t.isLt).2.1 = mA (iblk3 V c 0 t) (iblk3 V c 1 t) (iblk3 V c 3 t)
    ∧ (outsAt3 V c t.val t.isLt).2.2.1 = lA (iblk3 V c 0 t) (iblk3 V c 1 t) (iblk3 V c 3 t)
    ∧ (outsAt3 V c t.val t.isLt).2.2.2 = accA (iblk3 V c 0 t) (iblk3 V c 1 t) (iblk3 V c 2 t) (iblk3 V c 3 t) := by
  rw [outsAt3_A V c t h0]
  dsimp only
  exact ⟨sout3_A_0_eq .., sout3_A_1_eq .., sout3_A_2_eq ..⟩

/-- What an odd point leaves in the output block. -/
theorem after4_odd (c : Dev nD) (t : Fin cfg3.N) (h0 : ¬t.val % 2 = 0) :
    (dat3 V c).after 4 t
      = outB (iblk3 V c 0 t) (iblk3 V c 1 t) (iblk3 V c 2 t) (iblk3 V c 3 t)
          (mA (iblk3 V c 0 ⟨t.val - 1, Nat.lt_of_le_of_lt (Nat.sub_le _ _) t.isLt⟩) (iblk3 V c 1 ⟨t.val - 1, Nat.lt_of_le_of_lt (Nat.sub_le _ _) t.isLt⟩) (iblk3 V c 3 ⟨t.val - 1, Nat.lt_of_le_of_lt (Nat.sub_le _ _) t.isLt⟩))
          (lA (iblk3 V c 0 ⟨t.val - 1, Nat.lt_of_le_of_lt (Nat.sub_le _ _) t.isLt⟩) (iblk3 V c 1 ⟨t.val - 1, Nat.lt_of_le_of_lt (Nat.sub_le _ _) t.isLt⟩) (iblk3 V c 3 ⟨t.val - 1, Nat.lt_of_le_of_lt (Nat.sub_le _ _) t.isLt⟩))
          (accA (iblk3 V c 0 ⟨t.val - 1, Nat.lt_of_le_of_lt (Nat.sub_le _ _) t.isLt⟩) (iblk3 V c 1 ⟨t.val - 1, Nat.lt_of_le_of_lt (Nat.sub_le _ _) t.isLt⟩) (iblk3 V c 2 ⟨t.val - 1, Nat.lt_of_le_of_lt (Nat.sub_le _ _) t.isLt⟩) (iblk3 V c 3 ⟨t.val - 1, Nat.lt_of_le_of_lt (Nat.sub_le _ _) t.isLt⟩)) := by
  have h1 : (t.val - 1) % 2 = 0 := by omega
  obtain ⟨e0, e1, e2⟩ := scratch_even V c ⟨t.val - 1, Nat.lt_of_le_of_lt (Nat.sub_le _ _) t.isLt⟩ h1
  rw [after3_4, outsAt3_B V c t h0]
  dsimp only
  rw [out3_B_4_eq]
  dsimp only at e0 e1 e2
  rw [e0, e1, e2]

end Cert.KernelIdeal.Hand

end
-- ==== Proof.KIAttnVal2.lean ====
/-
  The attention call's windows read at coordinates. Point t of the 64 stands for head t / 4, query block (t / 2) % 2 and
  key block t % 2. The query and output windows take rows of the query block and the 128 columns of the head; the key
  and value windows rows of the key block and the head's columns; the bias window the head's plane, rows of the query
  block, columns of the key block. The output blocks written back at the odd points tile the output array.
-/
import proofs.«172455_j34531537060006_2_alg».proof.Proof.KIAttnVal1
import proofs.«172455_j34531537060006_2_alg».proof.Proof.Spec
import Idealize.ShloMosaic.Lib.Pipeline.Value
import Idealize.ShloMosaic.Lib.ValueIdx

set_option maxRecDepth 16384

noncomputable section

namespace Cert.KernelIdeal.AttnVal

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The printed index maps in closed form, decided over the 64 points. -/
theorem idx3 : ∀ t : Fin cfg3.N,
    win3_0.index t (0 : Fin 2) = t.val / 2 % 2 ∧ win3_0.index t (1 : Fin 2) = t.val / 4
    ∧ win3_1.index t (0 : Fin 2) = t.val % 2 ∧ win3_1.index t (1 : Fin 2) = t.val / 4
    ∧ win3_2.index t (0 : Fin 2) = t.val % 2 ∧ win3_2.index t (1 : Fin 2) = t.val / 4
    ∧ win3_3.index t (0 : Fin 3) = t.val / 4 ∧ win3_3.index t (1 : Fin 3) = t.val / 2 % 2 ∧ win3_3.index t (2 : Fin 3) = t.val % 2
    ∧ win3_4.index t (0 : Fin 2) = t.val / 2 % 2 ∧ win3_4.index t (1 : Fin 2) = t.val / 4 :=
  (by decide +kernel : ∀ t : Fin grid3.N, _)

theorem tlt (t : Fin cfg3.N) : t.val < 64 := lt_of_lt_of_eq t.isLt N_3

/-- The head of a point. -/
def hOf (t : Fin cfg3.N) : Fin 16 := ⟨t.val / 4, by have := tlt t; omega⟩
/-- Row `r` of the point's query block, as a row of the array. -/
def qRow (t : Fin cfg3.N) (r : Fin 1024) : Fin 2048 := ⟨t.val / 2 % 2 * 1024 + r.val, by omega⟩
/-- Row `j` of key block `b`, as a row of the array. -/
def kRow (b : Nat) (j : Fin 1024) : Fin 2048 := ⟨b % 2 * 1024 + j.val, by omega⟩

/-- The query window's block at a point, read at an entry. -/
theorem read_q (c : Dev nD) (t : Fin cfg3.N) (r : Fin 1024) (d : Fin 128) :
    iblk3 V c 0 t (ix2 r d) = (V c main_v1 : S2048x2048.Idx → EReal) (ix2 (qRow t r) (Cert.Spec.col (hOf t) d)) := by
  obtain ⟨e0, e1, -⟩ := idx3 t
  show (V c main_v1 : S2048x2048.Idx → EReal) (((cfg3.win 0).blk t).view.emb (ix2 r d)) = _
  refine congrArg _ ?_
  funext a; apply Fin.ext
  match a with
  | ⟨0, _⟩ => show win3_0.index t (0 : Fin 2) * 1024 + 1 * r.val = t.val / 2 % 2 * 1024 + r.val; omega
  | ⟨1, _⟩ => show win3_0.index t (1 : Fin 2) * 128 + 1 * d.val = t.val / 4 * 128 + d.val; omega

/-- The key window's block at a point, read at an entry. -/
theorem read_k (c : Dev nD) (t : Fin cfg3.N) (j : Fin 1024) (d : Fin 128) :
    iblk3 V c 1 t (ix2 j d) = (V c main_v3 : S2048x2048.Idx → EReal) (ix2 (kRow t.val j) (Cert.Spec.col (hOf t) d)) := by
  obtain ⟨-, -, e0, e1, -⟩ := idx3 t
  show (V c main_v3 : S2048x2048.Idx → EReal) (((cfg3.win 1).blk t).view.emb (ix2 j d)) = _
  refine congrArg _ ?_
  funext a; apply Fin.ext
  match a with
  | ⟨0, _⟩ => show win3_1.index t (0 : Fin 2) * 1024 + 1 * j.val = t.val % 2 * 1024 + j.val; omega
  | ⟨1, _⟩ => show win3_1.index t (1 : Fin 2) * 128 + 1 * d.val = t.val / 4 * 128 + d.val; omega

/-- The value window's block at a point, read at an entry. -/
theorem read_v (c : Dev nD) (t : Fin cfg3.N) (j : Fin 1024) (d : Fin 128) :
    iblk3 V c 2 t (ix2 j d) = (V c main_v5 : S2048x2048.Idx → EReal) (ix2 (kRow t.val j) (Cert.Spec.col (hOf t) d)) := by
  obtain ⟨-, -, -, -, e0, e1, -⟩ := idx3 t
  show (V c main_v5 : S2048x2048.Idx → EReal) (((cfg3.win 2).blk t).view.emb (ix2 j d)) = _
  refine congrArg _ ?_
  funext a; apply Fin.ext
  match a with
  | ⟨0, _⟩ => show win3_2.index t (0 : Fin 2) * 1024 + 1 * j.val = t.val % 2 * 1024 + j.val; omega
  | ⟨1, _⟩ => show win3_2.index t (1 : Fin 2) * 128 + 1 * d.val = t.val / 4 * 128 + d.val; omega

/-- The bias window's block at a point, read at an entry. -/
theorem read_b (c : Dev nD) (t : Fin cfg3.N) (r j : Fin 1024) :
    iblk3 V c 3 t (ix3 (0 : Fin 1) r j) = (V c main_arg3 : S16x2048x2048.Idx → EReal) (ix3 (hOf t) (qRow t r) (kRow t.val j)) := by
  obtain ⟨-, -, -, -, -, -, e0, e1, e2, -⟩ := idx3 t
  show (V c main_arg3 : S16x2048x2048.Idx → EReal) (((cfg3.win 3).blk t).view.emb (ix3 (0 : Fin 1) r j)) = _
  refine congrArg _ ?_
  funext a; apply Fin.ext
  match a with
  | ⟨0, _⟩ => show win3_3.index t (0 : Fin 3) * 1 + 1 * 0 = t.val / 4; omega
  | ⟨1, _⟩ => show win3_3.index t (1 : Fin 3) * 1024 + 1 * r.val = t.val / 2 % 2 * 1024 + r.val; omega
  | ⟨2, _⟩ => show win3_3.index t (2 : Fin 3) * 1024 + 1 * j.val = t.val % 2 * 1024 + j.val; omega

/-- Where the output window's block at a point sits in the array. -/
theorem emb_out (t : Fin cfg3.N) (r : Fin 1024) (d : Fin 128) :
    ((cfg3.win 4).blk t).view.emb (ix2 r d) = (ix2 (qRow t r) (Cert.Spec.col (hOf t) d) : S2048x2048.Idx) := by
  obtain ⟨-, -, -, -, -, -, -, -, -, e0, e1⟩ := idx3 t
  funext a; apply Fin.ext
  match a with
  | ⟨0, _⟩ => show win3_4.index t (0 : Fin 2) * 1024 + 1 * r.val = t.val / 2 % 2 * 1024 + r.val; omega
  | ⟨1, _⟩ => show win3_4.index t (1 : Fin 2) * 128 + 1 * d.val = t.val / 4 * 128 + d.val; omega

/-- An index of the output array is in a point's block iff each coordinate is in the block's range. -/
theorem mem_blk4 (t : Fin cfg3.N) (i : S2048x2048.Idx) :
    i ∈ ((cfg3.win 4).blk t).view.set ↔ ∀ a : Fin 2, win3_4.index t a * S1024x128.size a ≤ (i a).val ∧ (i a).val < win3_4.index t a * S1024x128.size a + S1024x128.size a := by
  show i ∈ ((View.whole main_v6).slice (win3_4.rect t)).set ↔ _
  rw [View.set_slice_whole, Rect.mem_set_unit]
  exact Iff.rfl

/-- Every entry of the output array is in the block some odd point writes back. -/
theorem cover4 (i : S2048x2048.Idx) :
    ∃ t : Fin cfg3.N, (cfg3.win 4).flush t = true ∧ i ∈ ((cfg3.win 4).blk t).view.set := by
  have hi0 : (i 0).val < 2048 := (i 0).isLt
  have hi1 : (i 1).val < 2048 := (i 1).isLt
  let t : Fin cfg3.N := ⟨(i 1).val / 128 * 4 + (i 0).val / 1024 * 2 + 1, by rw [show cfg3.N = 64 from N_3]; omega⟩
  have htv : t.val = (i 1).val / 128 * 4 + (i 0).val / 1024 * 2 + 1 := rfl
  obtain ⟨-, -, -, -, -, -, -, -, -, e0, e1⟩ := idx3 t
  refine ⟨t, (flush3_4 t).mpr (by omega), ?_⟩
  rw [mem_blk4]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 128 ≤ (i 1).val ∧ (i 1).val < win3_4.index t (1 : Fin 2) * 128 + 128; omega

end Cert.KernelIdeal.AttnVal

end
-- ==== Proof.LibFinite.lean ====
/-
  "Every entry is a real number" is kept by the operations of a dense network, on the extended reals.

  An array over the extended reals is ALL REAL when none of its entries is an infinity.  The property passes
  through: every operation that only re-reads its operand at some index (a broadcast, a reshape, a slice, a
  row gather), the pointwise sum, difference, product and maximum, a matrix product (host or vector unit, zero
  accumulator: a finite sum of products), a host sum along axes, the accumulating scatter (each entry plus a
  finite sum of updates), and a quotient by an all-real array with no zero entry.  Nothing here depends on the
  shapes or on which index an operation reads.
-/
import Idealize.ShloMosaic.PureOps.Ideal.Laws

noncomputable section

namespace Cert.LibFinite

open Idealize.ShloMosaic

/-- Every entry of the array is a real number. -/
def AllReal {ι : Type*} (x : ι → EReal) : Prop := ∀ i, ∃ r : ℝ, x i = (r : EReal)

/-! ## Scalars -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem coe_max (r s : ℝ) : max (r : EReal) (s : EReal) = ((max r s : ℝ) : EReal) := by
  rcases le_total r s with h | h
  · rw [max_eq_right h, max_eq_right (EReal.coe_le_coe_iff.2 h)]
  · rw [max_eq_left h, max_eq_left (EReal.coe_le_coe_iff.2 h)]

theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- The maximum of a real and a positive real is a nonzero real. -/
theorem real_max_pos {a : EReal} (ha : ∃ r : ℝ, a = (r : EReal)) {s : ℝ} (hs : 0 < s) :
    ∃ r : ℝ, max a (s : EReal) = (r : EReal) ∧ r ≠ 0 := by
  obtain ⟨r, rfl⟩ := ha
  exact ⟨max r s, coe_max r s, ne_of_gt (lt_of_lt_of_le hs (le_max_right r s))⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem real_div {a b : EReal} (ha : ∃ r : ℝ, a = (r : EReal)) (hb : ∃ r : ℝ, b = (r : EReal) ∧ r ≠ 0) :
    ∃ r : ℝ, Ideal.div a b = (r : EReal) := by
  obtain ⟨r, rfl⟩ := ha; obtain ⟨s, rfl, hs⟩ := hb
  exact ⟨r * (1 / s), by rw [Ideal.div_coe hs, ← EReal.coe_mul]⟩

/-! ## Arrays -/

variable {ι κ : Type*}

/-- Reading an all-real array at any indices gives an all-real array: broadcasts, reshapes, slices and gathers. -/
theorem AllReal.read {x : ι → EReal} (hx : AllReal x) (f : κ → ι) : AllReal fun j => x (f j) := fun j => hx (f j)

theorem AllReal.const {c : EReal} (hc : ∃ r : ℝ, c = (r : EReal)) : AllReal fun _ : ι => c := fun _ => hc

theorem AllReal.broadcastInDim {s t : Shape} {dims : Fin s.rank → Fin t.rank} (h : s.BroadcastsInDim t dims)
    {x : s.Idx → EReal} (hx : AllReal x) : AllReal (broadcastInDim t dims h x) := fun _ => hx _

theorem AllReal.gather {s si t : Shape} {w : Nat} (d : GatherDims s si t) {x : s.Idx → EReal} (hx : AllReal x)
    (idx : IVec si w) : AllReal (Host.gather d x idx) := fun _ => hx _

theorem AllReal.addf {s : Shape} {φ : FTy} {x y : FVec Ideal s φ} (hx : AllReal x) (hy : AllReal y) :
    AllReal (addf x y) := fun i => real_add (hx i) (hy i)

theorem AllReal.subf {s : Shape} {φ : FTy} {x y : FVec Ideal s φ} (hx : AllReal x) (hy : AllReal y) :
    AllReal (subf x y) := fun i => real_sub (hx i) (hy i)

theorem AllReal.mulf {s : Shape} {φ : FTy} {x y : FVec Ideal s φ} (hx : AllReal x) (hy : AllReal y) :
    AllReal (mulf x y) := fun i => real_mul (hx i) (hy i)

theorem AllReal.maximumf {s : Shape} {φ : FTy} {x y : FVec Ideal s φ} (hx : AllReal x) (hy : AllReal y) :
    AllReal (maximumf x y) := fun i => real_max (hx i) (hy i)

/-- A quotient by an all-real array without zero entries. -/
theorem AllReal.hostDivf {s : Shape} {φ : FTy} {x y : FVec Ideal s φ} (hx : AllReal x)
    (hy : ∀ i, ∃ r : ℝ, y i = (r : EReal) ∧ r ≠ 0) : AllReal (Host.divf x y) := fun i => real_div (hx i) (hy i)

/-- A host matrix product of all-real arrays, whatever its dimension numbers. -/
theorem AllReal.dotGeneral {sl sr so : Shape} {φ₁ φ₂ : FTy} (d : DotDims sl sr so) (prec : Option ContractPrecision)
    (sched : HostSchedule) {l : FVec Ideal sl φ₁} {r : FVec Ideal sr φ₂} (hl : AllReal l) (hr : AllReal r) :
    AllReal (FloatOps.dotGeneral d prec sched l r) := fun j => by
  rw [Ideal.dotGeneral_apply]
  exact real_sum _ _ fun k _ => real_mul (hl _) (hr _)

/-- The vector unit's matrix product into the zero accumulator. -/
theorem AllReal.matmul_zero {sl sr so : Shape} {φ₁ φ₂ : FTy} (d : DotDims sl sr so) (prec : Option ContractPrecision)
    {l : FVec Ideal sl φ₁} {r : FVec Ideal sr φ₂} (hl : AllReal l) (hr : AllReal r) :
    AllReal (FloatOps.matmul d prec l r (constant so .f32 0x00000000#32)) := fun j => by
  rw [Ideal.matmul_constant_zero_apply]
  exact real_sum _ _ fun k _ => real_mul (hl _) (hr _)

/-- The accumulating scatter: each entry plus a finite sum of updates. -/
theorem AllReal.scatterAdd {s si su : Shape} {φ : FTy} {w : Nat} (d : ScatterDims s si su) {x : FVec Ideal s φ}
    (hx : AllReal x) (idx : IVec si w) {upd : FVec Ideal su φ} (hu : AllReal upd) :
    AllReal (Host.scatterAdd (F := Ideal) d x idx upd) := fun i =>
  real_add (hx i) (real_sum _ _ fun j _ => hu j)

end Cert.LibFinite

end
-- ==== Proof.LibFiniteInput.lean ====
/-
  A float array that passes the "all finite" test is all real.

  The finiteness test of an input, as a precondition states it, is the conjunction over all entries of
  |x| < +∞ (the and-reduction of the comparisons into one bit, from the initial bit 1).  On the extended reals
  |x| = max x (-x) is +∞ at both infinities, so the comparison holds exactly at the real entries: if the reduced
  bit is 1, no entry of the array is an infinity.
-/
import Idealize.ShloMosaic.Lib.ReduceAll
import proofs.«172455_j34531537060006_2_alg».proof.Proof.LibFinite

noncomputable section

namespace Cert.LibFiniteInput

open Idealize.ShloMosaic Cert.LibFinite

/-- The f32 word of +∞ denotes the top of the extended reals. -/
theorem ofBits_inf : Ideal.ofBits .f32 0x7F800000#32 = (⊤ : EReal) := by
  simp [Ideal.ofBits, Ideal.ieee]

/-- An extended real whose absolute value compares below +∞ is real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (⊤ : EReal) = 1#1 := by
    have := h
    rwa [Ideal.cmpf_def, Ideal.ofBits_def, ofBits_inf] at this
  induction x using EReal.rec with
  | bot => exact absurd h' (by simp [Ideal.cmp])
  | coe r => exact ⟨r, rfl⟩
  | top => exact absurd h' (by simp [Ideal.cmp])

instance : Subsingleton (⟨0, ![]⟩ : Shape).Idx := ⟨fun a b => funext fun d => d.elim0⟩

/-- If the and-reduction of the tests |x i| < +∞ over the whole array is the bit 1, every entry of x is real. -/
theorem allReal_of_test {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (j : (⟨0, ![]⟩ : Shape).Idx)
    (h : Host.reduce IntOp.andi
        (cmpf .olt (Host.absf x) (broadcastInDim s ![] hb (constant ⟨0, ![]⟩ .f32 0x7F800000#32)))
        (constantI ⟨0, ![]⟩ 1 1#1) hr hu j = 1#1) : AllReal x := fun i =>
  real_of_abs_lt_inf (x i) (Host.reduce_andi_all _ _ hr hu j h i)

end Cert.LibFiniteInput

end
-- ==== Proof.KIFinite.lean ====
/-
  Finiteness: under the precondition every intermediate of the specification is a real number.

  The precondition tests every input array entry by entry (|x| < +∞) and takes the conjunction of all the
  tests; if it holds, no input entry is an infinity.  Sums, differences and products of reals are real, the scale
  literal denotes a real, an exponential of a real is a positive real, a row's softmax denominator is a sum of
  2048 positive reals and so a positive real, and a quotient of a real by a nonzero real is real: hence every
  projection, logit, row maximum, weight and attention output is real.  A sum over the 2048 keys also splits
  into the sums over its two halves of 1024.
-/
import proofs.«172455_j34531537060006_2_alg».proof.Defs
import proofs.«172455_j34531537060006_2_alg».proof.Proof.Spec
import proofs.«172455_j34531537060006_2_alg».proof.Proof.LibFinite
import proofs.«172455_j34531537060006_2_alg».proof.Proof.LibFiniteInput
import proofs.«172455_j34531537060006_2_alg».proof.Proof.LibOnlineSoftmax

noncomputable section

namespace Cert.KernelIdeal.Finite

open Idealize.ShloMosaic Idealize.ShloMosaic.ValueIdx Idealize.SL.Sem Cert.LibFinite Cert.Spec

/-! ## The inputs -/

/-- If the conjunction of the twelve "all entries finite" tests is the bit 1, every entry of every array is real. -/
theorem fn_allReal [hP : Cert.Pre_finite_inputs.Facts] (a0 : FVec Ideal Cert.Pre_finite_inputs.S2048x2048 .f32) (a1 : FVec Ideal Cert.Pre_finite_inputs.S2048x2048 .f32) (a2 : FVec Ideal Cert.Pre_finite_inputs.S2048x2048 .f32) (a3 : FVec Ideal Cert.Pre_finite_inputs.S16x2048x2048 .f32) (a4 : FVec Ideal Cert.Pre_finite_inputs.S2048x2048 .f32) (a5 : FVec Ideal Cert.Pre_finite_inputs.S2048 .f32) (a6 : FVec Ideal Cert.Pre_finite_inputs.S2048x2048 .f32) (a7 : FVec Ideal Cert.Pre_finite_inputs.S2048 .f32) (a8 : FVec Ideal Cert.Pre_finite_inputs.S2048x2048 .f32) (a9 : FVec Ideal Cert.Pre_finite_inputs.S2048 .f32) (a10 : FVec Ideal Cert.Pre_finite_inputs.S2048x2048 .f32) (a11 : FVec Ideal Cert.Pre_finite_inputs.S2048 .f32)
    (h : Cert.Pre_finite_inputs.fn (F := Ideal) a0 a1 a2 a3 a4 a5 a6 a7 a8 a9 a10 a11 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 := by
  have h0 := congrFun h ix0
  dsimp only [Cert.Pre_finite_inputs.fn, Cert.Pre_finite_inputs.fn_part1, Cert.Pre_finite_inputs.fn_part2, Cert.Pre_finite_inputs.fn_part3] at h0
  obtain ⟨h0, r11⟩ := IntOp.andi_eq_one.1 h0
  obtain ⟨h0, r10⟩ := IntOp.andi_eq_one.1 h0
  obtain ⟨h0, r9⟩ := IntOp.andi_eq_one.1 h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  exact ⟨Cert.LibFiniteInput.allReal_of_test _ _ _ _ _ r0, Cert.LibFiniteInput.allReal_of_test _ _ _ _ _ r1,
    Cert.LibFiniteInput.allReal_of_test _ _ _ _ _ r2, Cert.LibFiniteInput.allReal_of_test _ _ _ _ _ r3,
    Cert.LibFiniteInput.allReal_of_test _ _ _ _ _ r4, Cert.LibFiniteInput.allReal_of_test _ _ _ _ _ r5,
    Cert.LibFiniteInput.allReal_of_test _ _ _ _ _ r6, Cert.LibFiniteInput.allReal_of_test _ _ _ _ _ r7,
    Cert.LibFiniteInput.allReal_of_test _ _ _ _ _ r8, Cert.LibFiniteInput.allReal_of_test _ _ _ _ _ r9,
    Cert.LibFiniteInput.allReal_of_test _ _ _ _ _ r10, Cert.LibFiniteInput.allReal_of_test _ _ _ _ _ r11⟩

/-- Under the precondition every argument array of the kernel is all real, on every device. -/
theorem args_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8))
    ∧ AllReal (m ((c.tc : Thread Cert.KernelIdeal.nD Cert.KernelIdeal.τ).loc Cert.KernelIdeal.main_arg9))
    ∧ AllReal (m ((c.tc : Thread Cert.KernelIdeal.nD Cert.KernelIdeal.τ).loc Cert.KernelIdeal.main_arg10))
    ∧ AllReal (m ((c.tc : Thread Cert.KernelIdeal.nD Cert.KernelIdeal.τ).loc Cert.KernelIdeal.main_arg11)) :=
  fn_allReal _ _ _ _ _ _ _ _ _ _ _ _ (h c)

/-! ## The specification's pieces -/

theorem lin_real {X W : Mat} {b : Row} (hX : AllReal X) (hW : AllReal W) (hb : AllReal b) : AllReal (lin X W b) :=
  fun _ => real_add (real_sum _ _ fun _ _ => real_mul (hX _) (hW _)) (hb _)

/-- The scale literal denotes a real number (its exponent field is not all ones). -/
theorem scale_real : ∃ x : ℝ, scale = (x : EReal) := by
  show ∃ x : ℝ, Ideal.ieee 8 23 (0x3DB504F3#32 : BitVec 32) = (x : EReal)
  unfold Ideal.ieee
  simp only []
  rw [if_neg (by decide), if_neg (by decide)]
  exact ⟨_, rfl⟩

theorem logit_real {Qp Kp : Mat} {B : Bias} (hQ : AllReal Qp) (hK : AllReal Kp) (hB : AllReal B) (h : Fin 16)
    (q k : Fin 2048) : ∃ r : ℝ, logit Qp Kp B h q k = (r : EReal) :=
  real_add (real_mul (real_sum _ _ fun _ _ => real_mul (hQ _) (hK _)) scale_real) (hB _)

/-- A shifted exponential of a row of real logits is a positive real. -/
theorem expo_real {Qp Kp : Mat} {B : Bias} {h : Fin 16} {q : Fin 2048}
    (hl : ∀ k, ∃ r : ℝ, logit Qp Kp B h q k = (r : EReal)) (k : Fin 2048) :
    ∃ r : ℝ, Ideal.exp (logit Qp Kp B h q k - rowMax Qp Kp B h q) = (r : EReal) ∧ 0 < r :=
  Cert.LibOnlineSoftmax.exp_real (real_sub (hl k) (rowMax_real Qp Kp B h q hl))

/-- The softmax denominator of a row of real logits is a positive real. -/
theorem denom_real {Qp Kp : Mat} {B : Bias} {h : Fin 16} {q : Fin 2048}
    (hl : ∀ k, ∃ r : ℝ, logit Qp Kp B h q k = (r : EReal)) :
    ∃ r : ℝ, denom Qp Kp B h q = (r : EReal) ∧ 0 < r := by
  choose e he hpos using expo_real hl
  refine ⟨∑ k, e k, ?_, Finset.sum_pos (fun k _ => hpos k) Finset.univ_nonempty⟩
  rw [denom_eq, ← Cert.LibOnlineSoftmax.coe_sum]
  exact Finset.sum_congr rfl fun k _ => he k

/-- A softmax weight of a row of real logits is real. -/
theorem weight_real {Qp Kp : Mat} {B : Bias} {h : Fin 16} {q : Fin 2048}
    (hl : ∀ k, ∃ r : ℝ, logit Qp Kp B h q k = (r : EReal)) (k : Fin 2048) :
    ∃ r : ℝ, Ideal.div (Ideal.exp (logit Qp Kp B h q k - rowMax Qp Kp B h q)) (denom Qp Kp B h q) = (r : EReal) := by
  obtain ⟨e, he, _⟩ := expo_real hl k
  obtain ⟨d, hd, hdpos⟩ := denom_real hl
  exact real_div ⟨e, he⟩ ⟨d, hd, ne_of_gt hdpos⟩

theorem attnAt_real {Qp Kp Vp : Mat} {B : Bias} (hQ : AllReal Qp) (hK : AllReal Kp) (hV : AllReal Vp) (hB : AllReal B)
    (h : Fin 16) (q : Fin 2048) (d : Fin 128) : ∃ r : ℝ, attnAt Qp Kp Vp B h q d = (r : EReal) :=
  real_sum _ _ fun k _ => real_mul (weight_real (fun k => logit_real hQ hK hB h q k) k) (hV _)

theorem attn_real {Qp Kp Vp : Mat} {B : Bias} (hQ : AllReal Qp) (hK : AllReal Kp) (hV : AllReal Vp) (hB : AllReal B) :
    AllReal (attn Qp Kp Vp B) :=
  fun _ => attnAt_real hQ hK hV hB _ _ _

/-- The whole specification of all-real arguments is all real. -/
theorem G_real {Q K V : Mat} {B : Bias} {Wq : Mat} {bq : Row} {Wk : Mat} {bk : Row} {Wv : Mat} {bv : Row} {Wo : Mat}
    {bo : Row} (hQ : AllReal Q) (hK : AllReal K) (hV : AllReal V) (hB : AllReal B) (hWq : AllReal Wq)
    (hbq : AllReal bq) (hWk : AllReal Wk) (hbk : AllReal bk) (hWv : AllReal Wv) (hbv : AllReal bv)
    (hWo : AllReal Wo) (hbo : AllReal bo) : AllReal (G Q K V B Wq bq Wk bk Wv bv Wo bo) :=
  lin_real (attn_real (lin_real hQ hWq hbq) (lin_real hK hWk hbk) (lin_real hV hWv hbv) hB) hWo hbo

/-! ## The two key blocks -/

/-- A sum over the 2048 keys is the sum over the first 1024 plus the sum over the last 1024. -/
theorem sum_two_blocks {M : Type*} [AddCommMonoid M] (f : Fin 2048 → M) :
    (∑ k : Fin 2048, f k)
      = (∑ j : Fin 1024, f ⟨j.val, by omega⟩) + ∑ j : Fin 1024, f ⟨1024 + j.val, by omega⟩ :=
  Fin.sum_univ_add (a := 1024) (b := 1024) f

end Cert.KernelIdeal.Finite

end
-- ==== Proof.KIAttnVal3.lean ====
/-
  The attention call's output array is the specification's attention of the projected arrays.

  The output block written back at the second point of a pair holds, at row r and column d, the two-block online
  softmax of the pair's blocks; by the online-softmax law that is the softmax-weighted sum of the value rows over the
  keys of both blocks, with any real reference point, in particular the row's maximum over all 2048 keys.  Read
  through the windows' index maps the blocks are the head's columns of the projected arrays, the two key blocks are
  the two halves of the 2048 keys, and the sum over the keys splits into the two halves: the block is the block of
  the specification.  The blocks written back tile the output array.
-/
import proofs.«172455_j34531537060006_2_alg».proof.Proof.KIAttnVal2
import proofs.«172455_j34531537060006_2_alg».proof.Proof.Spec
import proofs.«172455_j34531537060006_2_alg».proof.Proof.KIFinite
import proofs.«172455_j34531537060006_2_alg».proof.Proof.LibFinite

set_option maxRecDepth 16384

noncomputable section

namespace Cert.KernelIdeal.AttnVal

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open Cert.LibFinite Cert.Spec

/-! ## The specification's attention over the two key blocks -/

/-- Column `col h d` belongs to head `h`, at its column `d`. -/
theorem attn_at_col (Qp Kp Vp : Mat) (B : Bias) (h : Fin 16) (p : Fin 2048) (d : Fin 128) :
    attn Qp Kp Vp B (ix2 p (col h d)) = attnAt Qp Kp Vp B h p d := by
  have hh := h.isLt
  have hd := d.isLt
  show attnAt Qp Kp Vp B ⟨(col h d).val / 128, _⟩ p ⟨(col h d).val % 128, _⟩ = attnAt Qp Kp Vp B h p d
  have e1 : (⟨(col h d).val / 128, by show (h.val * 128 + d.val) / 128 < 16; omega⟩ : Fin 16) = h :=
    Fin.ext (by show (h.val * 128 + d.val) / 128 = h.val; omega)
  have e2 : (⟨(col h d).val % 128, Nat.mod_lt _ (by norm_num)⟩ : Fin 128) = d :=
    Fin.ext (by show (h.val * 128 + d.val) % 128 = d.val; omega)
  rw [e1, e2]

/-- The first key block's rows are the keys below 1024. -/
theorem kRow_zero (j : Fin 1024) : kRow 0 j = ⟨j.val, by omega⟩ := Fin.ext (by show 0 % 2 * 1024 + j.val = j.val; omega)
/-- The second key block's rows are the keys from 1024 on. -/
theorem kRow_one (j : Fin 1024) : kRow 1 j = ⟨1024 + j.val, by omega⟩ :=
  Fin.ext (by show 1 % 2 * 1024 + j.val = 1024 + j.val; omega)

/-- The specification's attention output with the sums over the 2048 keys split into the two key blocks. -/
theorem attnAt_two_blocks (Qp Kp Vp : Mat) (B : Bias) (h : Fin 16) (p : Fin 2048) (d : Fin 128) :
    attnAt Qp Kp Vp B h p d
      = (∑ j : Fin 1024, Ideal.div (Ideal.exp (logit Qp Kp B h p (kRow 0 j) - rowMax Qp Kp B h p))
            ((∑ i : Fin 1024, Ideal.exp (logit Qp Kp B h p (kRow 0 i) - rowMax Qp Kp B h p))
              + ∑ i : Fin 1024, Ideal.exp (logit Qp Kp B h p (kRow 1 i) - rowMax Qp Kp B h p))
            * Vp (ix2 (kRow 0 j) (col h d)))
        + ∑ j : Fin 1024, Ideal.div (Ideal.exp (logit Qp Kp B h p (kRow 1 j) - rowMax Qp Kp B h p))
            ((∑ i : Fin 1024, Ideal.exp (logit Qp Kp B h p (kRow 0 i) - rowMax Qp Kp B h p))
              + ∑ i : Fin 1024, Ideal.exp (logit Qp Kp B h p (kRow 1 i) - rowMax Qp Kp B h p))
            * Vp (ix2 (kRow 1 j) (col h d)) := by
  unfold attnAt
  rw [denom_eq, Cert.KernelIdeal.Finite.sum_two_blocks
        (fun i : Fin 2048 => Ideal.exp (logit Qp Kp B h p i - rowMax Qp Kp B h p)),
    Cert.KernelIdeal.Finite.sum_two_blocks]
  simp only [kRow_zero, kRow_one]

/-! ## The body's logits of a pair of points, read off the arrays -/

/-- The logits of a query block against a key block with a bias block: scaled inner products plus the bias. -/
def sAt (q k : Vec Ideal S1024x128 .f32) (b : Vec Ideal S1x1024x1024 .f32) (r j : Fin 1024) : EReal :=
  (∑ d : Fin 128, q (ix2 r d) * k (ix2 j d)) * Ideal.ofBits .f32 0x3DB504F3#32 + b (ix3 (0 : Fin 1) r j)

/-- The online-softmax law of the body's arithmetic over one pair of key blocks, as the kernel's mathematics module
    proves it: the stored block is the softmax-weighted sum of the value rows of both blocks, for any real reference
    point. -/
def OutBLaw : Prop :=
  ∀ (q kA kB vA vB : Vec Ideal S1024x128 .f32) (bA bB : Vec Ideal S1x1024x1024 .f32),
    AllReal q → AllReal kA → AllReal kB → AllReal vA → AllReal vB → AllReal bA → AllReal bB →
    ∀ (r : Fin 1024) (d : Fin 128) (M : EReal), (∃ x : ℝ, M = (x : EReal)) →
    Cert.KernelIdeal.Hand.outB (F := Ideal) q kB vB bB (mA q kA bA) (lA q kA bA) (accA q kA vA bA) (ix2 r d)
      = (∑ j : Fin 1024, Ideal.div (Ideal.exp (sAt q kA bA r j - M))
            ((∑ i : Fin 1024, Ideal.exp (sAt q kA bA r i - M)) + ∑ i : Fin 1024, Ideal.exp (sAt q kB bB r i - M))
            * vA (ix2 j d))
        + ∑ j : Fin 1024, Ideal.div (Ideal.exp (sAt q kB bB r j - M))
            ((∑ i : Fin 1024, Ideal.exp (sAt q kA bA r i - M)) + ∑ i : Fin 1024, Ideal.exp (sAt q kB bB r i - M))
            * vB (ix2 j d)

variable (V : (c : Dev nD) → (b : Ref sig .tc) → Buf (Elt Ideal) ((c : Thread nD τ).loc b))

/-- The point before an odd point. -/
abbrev prev (t : Fin cfg3.N) : Fin cfg3.N := ⟨t.val - 1, Nat.lt_of_le_of_lt (Nat.sub_le _ _) t.isLt⟩

theorem hOf_prev (t : Fin cfg3.N) (h1 : t.val % 2 = 1) : hOf (prev t) = hOf t :=
  Fin.ext (by show (t.val - 1) / 4 = t.val / 4; omega)
theorem qRow_prev (t : Fin cfg3.N) (h1 : t.val % 2 = 1) (r : Fin 1024) : qRow (prev t) r = qRow t r :=
  Fin.ext (by show (t.val - 1) / 2 % 2 * 1024 + r.val = t.val / 2 % 2 * 1024 + r.val; omega)
theorem kRow_prev (t : Fin cfg3.N) (h1 : t.val % 2 = 1) (j : Fin 1024) : kRow (prev t).val j = kRow 0 j :=
  Fin.ext (by show (t.val - 1) % 2 * 1024 + j.val = 0 % 2 * 1024 + j.val; omega)
theorem kRow_odd (t : Fin cfg3.N) (h1 : t.val % 2 = 1) (j : Fin 1024) : kRow t.val j = kRow 1 j :=
  Fin.ext (by show t.val % 2 * 1024 + j.val = 1 % 2 * 1024 + j.val; omega)

/-- Both points of a pair load the same query block. -/
theorem q_prev (c : Dev nD) (t : Fin cfg3.N) (h1 : t.val % 2 = 1) : iblk3 V c 0 (prev t) = iblk3 V c 0 t := by
  funext y
  obtain ⟨r, d, rfl⟩ : ∃ (r : Fin 1024) (d : Fin 128), y = ix2 r d := ⟨y 0, y 1, eq_ix2 y⟩
  rw [read_q, read_q, hOf_prev t h1, qRow_prev t h1]

section Real

variable (c : Dev nD) (t : Fin cfg3.N)
variable (hQ : AllReal (V c main_v1 : S2048x2048.Idx → EReal)) (hK : AllReal (V c main_v3 : S2048x2048.Idx → EReal))
  (hV : AllReal (V c main_v5 : S2048x2048.Idx → EReal)) (hB : AllReal (V c main_arg3 : S16x2048x2048.Idx → EReal))

include hQ in
theorem q_real : AllReal (iblk3 V c 0 t : S1024x128.Idx → EReal) := fun y => by
  obtain ⟨r, d, rfl⟩ : ∃ (r : Fin 1024) (d : Fin 128), y = ix2 r d := ⟨y 0, y 1, eq_ix2 y⟩
  rw [read_q]; exact hQ _

include hK in
theorem k_real : AllReal (iblk3 V c 1 t : S1024x128.Idx → EReal) := fun y => by
  obtain ⟨r, d, rfl⟩ : ∃ (r : Fin 1024) (d : Fin 128), y = ix2 r d := ⟨y 0, y 1, eq_ix2 y⟩
  rw [read_k]; exact hK _

include hV in
theorem v_real : AllReal (iblk3 V c 2 t : S1024x128.Idx → EReal) := fun y => by
  obtain ⟨r, d, rfl⟩ : ∃ (r : Fin 1024) (d : Fin 128), y = ix2 r d := ⟨y 0, y 1, eq_ix2 y⟩
  rw [read_v]; exact hV _

include hB in
theorem b_real : AllReal (iblk3 V c 3 t : S1x1024x1024.Idx → EReal) := fun y => by
  obtain ⟨z, r, j, rfl⟩ : ∃ (z : Fin 1) (r j : Fin 1024), y = ix3 z r j := ⟨y 0, y 1, y 2, eq_ix3 y⟩
  obtain rfl : z = 0 := Subsingleton.elim _ _
  rw [read_b]; exact hB _

end Real

/-- The logits of the first point of a pair are the specification's logits against the keys below 1024. -/
theorem sAt_first (c : Dev nD) (t : Fin cfg3.N) (h1 : t.val % 2 = 1) (r j : Fin 1024) :
    sAt (iblk3 V c 0 t) (iblk3 V c 1 (prev t)) (iblk3 V c 3 (prev t)) r j
      = logit (V c main_v1) (V c main_v3) (V c main_arg3) (hOf t) (qRow t r) (kRow 0 j) := by
  unfold sAt logit
  simp only [read_q, read_k, read_b, hOf_prev t h1, qRow_prev t h1, kRow_prev t h1]
  rfl

/-- The logits of the second point of a pair are the specification's logits against the keys from 1024 on. -/
theorem sAt_second (c : Dev nD) (t : Fin cfg3.N) (h1 : t.val % 2 = 1) (r j : Fin 1024) :
    sAt (iblk3 V c 0 t) (iblk3 V c 1 t) (iblk3 V c 3 t) r j
      = logit (V c main_v1) (V c main_v3) (V c main_arg3) (hOf t) (qRow t r) (kRow 1 j) := by
  unfold sAt logit
  simp only [read_q, read_k, read_b, kRow_odd t h1]
  rfl

/-! ## The output block and the output array -/

/-- What an odd point writes back is its block of the specification's attention. -/
theorem flushed4_eq (hLaw : OutBLaw) (c : Dev nD)
    (hQ : AllReal (V c main_v1 : S2048x2048.Idx → EReal)) (hK : AllReal (V c main_v3 : S2048x2048.Idx → EReal))
    (hV : AllReal (V c main_v5 : S2048x2048.Idx → EReal)) (hB : AllReal (V c main_arg3 : S16x2048x2048.Idx → EReal))
    (t : Fin cfg3.N) (h1 : t.val % 2 = 1) :
    (dat3 (F := Ideal) V c).flushed 4 t
      = ((cfg3.win 4).blk t).view.read (Elt Ideal)
          (attn (V c main_v1) (V c main_v3) (V c main_v5) (V c main_arg3) : S2048x2048.Idx → EReal) := by
  show (cfg3.win 4).cut (grid3.coords t) ((dat3 (F := Ideal) V c).after 4 t) = _
  rw [after4_odd V c t (by omega)]
  funext y
  obtain ⟨r, d, rfl⟩ : ∃ (r : Fin 1024) (d : Fin 128), y = ix2 r d := ⟨y 0, y 1, eq_ix2 y⟩
  show outB (iblk3 V c 0 t) (iblk3 V c 1 t) (iblk3 V c 2 t) (iblk3 V c 3 t)
      (mA (iblk3 V c 0 (prev t)) (iblk3 V c 1 (prev t)) (iblk3 V c 3 (prev t)))
      (lA (iblk3 V c 0 (prev t)) (iblk3 V c 1 (prev t)) (iblk3 V c 3 (prev t)))
      (accA (iblk3 V c 0 (prev t)) (iblk3 V c 1 (prev t)) (iblk3 V c 2 (prev t)) (iblk3 V c 3 (prev t))) (ix2 r d)
    = attn (V c main_v1) (V c main_v3) (V c main_v5) (V c main_arg3) (((cfg3.win 4).blk t).view.emb (ix2 r d))
  rw [emb_out, attn_at_col, q_prev V c t h1,
    hLaw _ _ _ _ _ _ _ (q_real V c t hQ) (k_real V c (prev t) hK) (k_real V c t hK) (v_real V c (prev t) hV)
      (v_real V c t hV) (b_real V c (prev t) hB) (b_real V c t hB) r d
      (rowMax (V c main_v1) (V c main_v3) (V c main_arg3) (hOf t) (qRow t r))
      (rowMax_real _ _ _ _ _ fun k => Cert.KernelIdeal.Finite.logit_real hQ hK hB _ _ k),
    attnAt_two_blocks]
  simp only [sAt_first V c t h1, sAt_second V c t h1, read_v, hOf_prev t h1, kRow_prev t h1, kRow_odd t h1]

/-- The attention call's output array, after the run of its 64 points, is the specification's attention. -/
theorem arrAt_attn (hLaw : OutBLaw) (c : Dev nD)
    (hQ : AllReal (V c main_v1 : S2048x2048.Idx → EReal)) (hK : AllReal (V c main_v3 : S2048x2048.Idx → EReal))
    (hV : AllReal (V c main_v5 : S2048x2048.Idx → EReal)) (hB : AllReal (V c main_arg3 : S16x2048x2048.Idx → EReal)) :
    (dat3 (F := Ideal) V c).arrAt 4 cfg3.N
      = (attn (V c main_v1) (V c main_v3) (V c main_v5) (V c main_arg3) : S2048x2048.Idx → EReal) :=
  (dat3 (F := Ideal) V c).arrAt_eq_of_cover 4 _
    (fun t hf => flushed4_eq V hLaw c hQ hK hV hB t ((flush3_4 t).mp hf)) cover4

end Cert.KernelIdeal.AttnVal

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.LibRowOps.lean ====
/-
  Row-wise operations of a matrix read at an entry, generic in the extents a (rows) and b (columns).

  * A vector [a] cast to a column [a, 1] reads, at (p, u), the vector's entry p.
  * A column [a, 1] broadcast to [a, b] reads, at (p, q), the column's entry p.
  * The sum of an [a, b] matrix along its second axis (a lane reduction from the zero accumulator), over the
    extended reals, is at p the sum over k of the entries (p, k).
-/
import Idealize.ShloMosaic.PureOps.Ideal.Laws
import Idealize.ShloMosaic.Lib.Pipeline.Value
import Idealize.ShloMosaic.Lib.ValueIdx

noncomputable section

namespace LibRowOps

open Idealize.ShloMosaic Idealize.ShloMosaic.ValueIdx

variable {α : Type}

/-- An [a] array cast to [a, 1] reads, at (p, u), the operand at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum along the second axis from the zero accumulator, at row p. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext ax
  apply Fin.ext
  match ax with
  | ⟨0, _⟩ => rfl
  | ⟨1, _⟩ => rfl

end LibRowOps

end
-- ==== Proof.LibExtrema.lean ====
/-
  Running extrema over a chain of grid points, and extrema over blocks.

  A fold of min (max) from an initial value is the minimum (maximum) of that value and the infimum (supremum) of
  the folded family. A quantity that a chain of points updates by acc ↦ min acc (its point's term), from
  min Z (the first point's term), is after j further points the minimum of Z and the infimum of the terms of the
  points so far; dually for max. And the infimum over 2 chains × 16 points × 3136 lanes of a family indexed by
  the batch 16·p + s is the infimum over all 32 batches and 3136 lanes.
-/
import Idealize.ShloMosaic.Lib.Pipeline.Value
import Idealize.ShloMosaic.PureOps.Ideal

namespace LibExtrema

open Idealize.ShloMosaic

/-- A fold of min from `b` over a finite family is the minimum of `b` and the family's infimum. -/
theorem fold_min_eq_inf {ι : Type*} [DecidableEq ι] (s : Finset ι) (f : ι → EReal) (b : EReal) :
    s.fold min b f = min b (s.inf f) := by
  induction s using Finset.induction_on with
  | empty => simp
  | insert a s ha ih => rw [Finset.fold_insert ha, Finset.inf_insert, ih]; exact min_left_comm _ _ _

/-- A fold of max from `b` over a finite family is the maximum of `b` and the family's supremum. -/
theorem fold_max_eq_sup {ι : Type*} [DecidableEq ι] (s : Finset ι) (f : ι → EReal) (b : EReal) :
    s.fold max b f = max b (s.sup f) := by
  induction s using Finset.induction_on with
  | empty => simp
  | insert a s ha ih => rw [Finset.fold_insert ha, Finset.sup_insert, ih]; exact max_left_comm _ _ _

variable {N : Nat} {ι : Type*}

/-- The running minimum after `j` further points of a chain that starts at point `b`. -/
theorem accAt_min_apply (a : (n : Nat) → n < N → ι → EReal) (g : (n : Nat) → n < N → (ι → EReal) → ι → EReal)
    (Z : ι → EReal) (M : Nat → ι → EReal) (b e : Nat)
    (ha : ∀ (h : b < N) (i : ι), a b h i = min (Z i) (M b i))
    (hg : ∀ (n : Nat) (h : n < N) (acc : ι → EReal) (i : ι), b < n → n ≤ b + e → g n h acc i = min (acc i) (M n i)) :
    ∀ (j : Nat), j ≤ e → ∀ (h : b + j < N) (i : ι),
      Pipeline.accAt a g b j h i = min (Z i) ((Finset.range (j + 1)).inf fun s => M (b + s) i)
  | 0, _, h, i => by
    rw [Pipeline.accAt_zero, ha]
    simp
  | j + 1, hj, h, i => by
    rw [Pipeline.accAt_succ, hg (b + (j + 1)) h _ i (by omega) (by omega),
      accAt_min_apply a g Z M b e ha hg j (Nat.le_of_succ_le hj) (Nat.lt_of_succ_lt h) i,
      Finset.range_add_one (n := j + 1), Finset.inf_insert, min_assoc]
    exact congrArg (min (Z i)) (min_comm _ _)

/-- The running maximum after `j` further points of a chain that starts at point `b`. -/
theorem accAt_max_apply (a : (n : Nat) → n < N → ι → EReal) (g : (n : Nat) → n < N → (ι → EReal) → ι → EReal)
    (Z : ι → EReal) (M : Nat → ι → EReal) (b e : Nat)
    (ha : ∀ (h : b < N) (i : ι), a b h i = max (Z i) (M b i))
    (hg : ∀ (n : Nat) (h : n < N) (acc : ι → EReal) (i : ι), b < n → n ≤ b + e → g n h acc i = max (acc i) (M n i)) :
    ∀ (j : Nat), j ≤ e → ∀ (h : b + j < N) (i : ι),
      Pipeline.accAt a g b j h i = max (Z i) ((Finset.range (j + 1)).sup fun s => M (b + s) i)
  | 0, _, h, i => by
    rw [Pipeline.accAt_zero, ha]
    simp
  | j + 1, hj, h, i => by
    rw [Pipeline.accAt_succ, hg (b + (j + 1)) h _ i (by omega) (by omega),
      accAt_max_apply a g Z M b e ha hg j (Nat.le_of_succ_le hj) (Nat.lt_of_succ_lt h) i,
      Finset.range_add_one (n := j + 1), Finset.sup_insert, max_assoc]
    exact congrArg (max (Z i)) (max_comm _ _)

/-- The infimum over 2 chains of 16 batches is the infimum over the 32 batches. -/
theorem inf_blocks (f : Fin 32 → Fin 3136 → EReal) (g : Nat → Fin 3136 → EReal) (hg : ∀ b : Fin 32, g b.val = f b) :
    ((Finset.univ : Finset (Fin 2)).inf fun p => (Finset.range 16).inf fun s => Finset.univ.inf fun q => g (16 * p.val + s) q)
      = Finset.univ.inf fun bq : Fin 32 × Fin 3136 => f bq.1 bq.2 := by
  apply le_antisymm
  · refine Finset.le_inf fun bq _ => ?_
    have hb : bq.1.val < 32 := bq.1.isLt
    refine (Finset.inf_le (Finset.mem_univ (⟨bq.1.val / 16, by omega⟩ : Fin 2))).trans ?_
    refine (Finset.inf_le (Finset.mem_range.mpr (Nat.mod_lt bq.1.val (by decide : 0 < 16)))).trans ?_
    refine (Finset.inf_le (Finset.mem_univ bq.2)).trans ?_
    rw [show 16 * (bq.1.val / 16) + bq.1.val % 16 = bq.1.val from Nat.div_add_mod _ _, hg]
  · refine Finset.le_inf fun p _ => Finset.le_inf fun s hs => Finset.le_inf fun q _ => ?_
    have hp : p.val < 2 := p.isLt
    have hs' : s < 16 := Finset.mem_range.mp hs
    have e : g (16 * p.val + s) q = f ⟨16 * p.val + s, by omega⟩ q := congrFun (hg ⟨16 * p.val + s, by omega⟩) q
    rw [e]
    exact Finset.inf_le (f := fun bq : Fin 32 × Fin 3136 => f bq.1 bq.2) (Finset.mem_univ ((⟨16 * p.val + s, by omega⟩ : Fin 32), q))

/-- The supremum over 2 chains of 16 batches is the supremum over the 32 batches. -/
theorem sup_blocks (f : Fin 32 → Fin 3136 → EReal) (g : Nat → Fin 3136 → EReal) (hg : ∀ b : Fin 32, g b.val = f b) :
    ((Finset.univ : Finset (Fin 2)).sup fun p => (Finset.range 16).sup fun s => Finset.univ.sup fun q => g (16 * p.val + s) q)
      = Finset.univ.sup fun bq : Fin 32 × Fin 3136 => f bq.1 bq.2 := by
  apply le_antisymm
  · refine Finset.sup_le fun p _ => Finset.sup_le fun s hs => Finset.sup_le fun q _ => ?_
    have hp : p.val < 2 := p.isLt
    have hs' : s < 16 := Finset.mem_range.mp hs
    have e : g (16 * p.val + s) q = f ⟨16 * p.val + s, by omega⟩ q := congrFun (hg ⟨16 * p.val + s, by omega⟩) q
    rw [e]
    exact Finset.le_sup (f := fun bq : Fin 32 × Fin 3136 => f bq.1 bq.2) (Finset.mem_univ ((⟨16 * p.val + s, by omega⟩ : Fin 32), q))
  · refine Finset.sup_le fun bq _ => ?_
    have hb : bq.1.val < 32 := bq.1.isLt
    refine le_trans ?_ (Finset.le_sup (Finset.mem_univ (⟨bq.1.val / 16, by omega⟩ : Fin 2)))
    refine le_trans ?_ (Finset.le_sup (Finset.mem_range.mpr (Nat.mod_lt bq.1.val (by decide : 0 < 16))))
    refine le_trans ?_ (Finset.le_sup (Finset.mem_univ bq.2))
    rw [show 16 * (bq.1.val / 16) + bq.1.val % 16 = bq.1.val from Nat.div_add_mod _ _, hg]

end LibExtrema
-- ==== Proof.KIAttnMath1.lean ====
/-
  The attention body's arithmetic read at an entry, over the extended reals.

  For a query block q, a key block k, a value block v and a bias block b, the score of query row r against key j is
  sAt q k b r j = (∑ d, q (r, d) * k (j, d)) * scale + b (0, r, j).  Each pure value of the body over one key block,
  read at one entry, is the familiar formula of the online softmax: the scores, the new running maximum (the old one
  against the row's supremum of the scores), the rescaling factor exp (m_old - m_new), the weights exp (s - m_new),
  the new denominator a * l + ∑ p, the new numerator a * acc + ∑ p * v, and the quotient acc / l.
-/
import proofs.«172455_j34531537060006_2_alg».proof.Proof.KIAttnTerms
import proofs.«172455_j34531537060006_2_alg».proof.Proof.LibOnlineSoftmax
import proofs.«172455_j34531537060006_2_alg».proof.Proof.LibFinite
import proofs.«172455_j34531537060006_2_alg».proof.Proof.LibRowsDot
import proofs.«172455_j34531537060006_2_alg».proof.Proof.LibPlainDot
import proofs.«172455_j34531537060006_2_alg».proof.Proof.LibRowOps
import proofs.«172455_j34531537060006_2_alg».proof.Proof.LibExtrema
import Idealize.ShloMosaic.Lib.ValueLayout

noncomputable section

namespace Cert.KernelIdeal.AttnMath

open Cert.KernelIdeal Cert.KernelIdeal.Gen Cert.KernelIdeal.Hand Idealize.ShloMosaic Idealize.ShloMosaic.ValueIdx
open Cert.LibFinite

/-! ## The two literals and the reduction's neutral element -/

/-- A binary32 pattern whose exponent field is not all ones denotes a real number. -/
theorem f32_real (b : BitVec 32) (h : (b.extractLsb' 23 8).toNat ≠ 2 ^ 8 - 1) :
    ∃ x : ℝ, Ideal.ofBits .f32 b = (x : EReal) := by
  show ∃ x : ℝ, Ideal.ieee 8 23 b = (x : EReal)
  unfold Ideal.ieee
  dsimp only
  rw [if_neg h]
  split
  · exact ⟨_, rfl⟩
  · exact ⟨_, rfl⟩

/-- The scale of the scores is a real number. -/
theorem scale_real : ∃ x : ℝ, Ideal.ofBits .f32 0x3DB504F3#32 = (x : EReal) := f32_real _ (by decide)

/-- The stand-in for minus infinity that the running maximum is reset to is a real number. -/
theorem reset_real : ∃ x : ℝ, Ideal.ofBits .f32 0xFF333332#32 = (x : EReal) := f32_real _ (by decide)

/-- The pattern of minus infinity denotes the least extended real. -/
theorem ofBits_ninf : Ideal.ofBits .f32 0xFF800000#32 = ⊥ := by simp [Ideal.ofBits, Ideal.ieee]

/-- The maximum of an [a, b] matrix along its second axis, from minus infinity, is at row p the supremum over k of
    the entries (p, k). -/
theorem rowMax_apply {a b : ℕ} (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = 0xFF800000#32) (p : Fin a) :
    multiReduction .maximumf [(1 : Fin 2)] ⟨1, ![a]⟩ src 0xFF800000#32 h hφ hacc (ix1 p)
      = Finset.univ.sup fun k : Fin b => src (ix2 p k) := by
  refine (Ideal.multiReduction_maximumf_single src 0xFF800000#32 h hφ hacc (ix1 p)).trans ?_
  refine (LibExtrema.fold_max_eq_sup _ _ _).trans ?_
  rw [Ideal.ofBits_def, ofBits_ninf, max_bot_left]
  refine Finset.sup_congr rfl fun k _ => congrArg src ?_
  funext ax
  apply Fin.ext
  match ax with
  | ⟨0, _⟩ => rfl
  | ⟨1, _⟩ => rfl

/-! ## The payloads at an entry -/

/-- The score of query row r against key j: the scaled product of the two rows plus the bias. -/
def sAt (q k : Vec Ideal S1024x128 .f32) (b : Vec Ideal S1x1024x1024 .f32) (r j : Fin 1024) : EReal :=
  (∑ d : Fin 128, q (ix2 r d) * k (ix2 j d)) * Ideal.ofBits .f32 0x3DB504F3#32 + b (ix3 (0 : Fin 1) r j)

/-- The scores. -/
theorem pay7_apply (q k : Vec Ideal S1024x128 .f32) (b : Vec Ideal S1x1024x1024 .f32) (r j : Fin 1024) :
    k3_pay7 (F := Ideal) q k b (ix2 r j) = sAt q k b r j := by
  unfold k3_pay7 sAt
  refine (addf_apply _ _ _).trans ?_
  refine congrArg₂ (· + ·) ?_ (shapeCast_1ab_ab_apply b _ r j)
  refine (mulf_apply _ _ _).trans ?_
  refine congrArg₂ (· * ·) ?_ rfl
  refine (LibRowsDot.matmul_zero_apply (M := 1024) (K := 128) (N := 1024) none _ _ r j).trans ?_
  refine Finset.sum_congr rfl fun d _ => congrArg₂ (· * ·) ?_ ?_
  · exact (truncf_apply (φ := .f32) (ψ := .bf16) _ _ _).trans (congrFun (shapeCast_self q _) _)
  · exact (truncf_apply (φ := .f32) (ψ := .bf16) _ _ _).trans (congrFun (shapeCast_self k _) _)

/-- The exponential of an array at an entry. -/
theorem exp_apply {s : Shape} {φ : FTy} (a : FVec Ideal s φ) (i : s.Idx) :
    Idealize.ShloMosaic.exp a i = Ideal.exp (a i) := rfl

/-- The new running maximum: the old one against the row's supremum of the scores. -/
theorem pay8_apply (q k : Vec Ideal S1024x128 .f32) (b : Vec Ideal S1x1024x1024 .f32) (m : Vec Ideal S1024x1 .f32)
    (r : Fin 1024) :
    k3_pay8 (F := Ideal) q k b m (ix2 r (0 : Fin 1))
      = max (m (ix2 r (0 : Fin 1))) (Finset.univ.sup fun j : Fin 1024 => sAt q k b r j) := by
  unfold k3_pay8
  refine (maximumf_apply (φ := .f32) _ _ _).trans ?_
  refine congrArg (max (m (ix2 r (0 : Fin 1)))) ?_
  refine (LibRowOps.shapeCast_a_a1_apply _ _ r 0).trans ?_
  refine (rowMax_apply (k3_pay7 q k b) _ _ _ r).trans ?_
  exact Finset.sup_congr rfl fun j _ => pay7_apply q k b r j

/-- The rescaling factor of the running sums: the exponential of the old maximum minus the new one. -/
theorem pay9_apply (q k : Vec Ideal S1024x128 .f32) (b : Vec Ideal S1x1024x1024 .f32) (m m' : Vec Ideal S1024x1 .f32)
    (i : S1024x1.Idx) :
    k3_pay9 (F := Ideal) q k b m m' i = Ideal.exp (m' i - k3_pay8 (F := Ideal) q k b m i) := by
  unfold k3_pay9
  exact (exp_apply (φ := .f32) _ _).trans (congrArg Ideal.exp (subf_apply (φ := .f32) _ _ _))

/-- The weights: the exponential of the score minus the new maximum of its row. -/
theorem pay10_apply (q k : Vec Ideal S1024x128 .f32) (b : Vec Ideal S1x1024x1024 .f32) (m : Vec Ideal S1024x1 .f32)
    (r j : Fin 1024) :
    k3_pay10 (F := Ideal) q k b m (ix2 r j)
      = Ideal.exp (sAt q k b r j - k3_pay8 (F := Ideal) q k b m (ix2 r (0 : Fin 1))) := by
  unfold k3_pay10
  refine (exp_apply (φ := .f32) _ _).trans (congrArg Ideal.exp ?_)
  refine (subf_apply (φ := .f32) _ _ _).trans ?_
  exact congrArg₂ (· - ·) (pay7_apply q k b r j) (LibRowOps.broadcastTo_a1_ab_apply _ _ r j)

/-- The new denominator: the old one rescaled plus the row's sum of the weights. -/
theorem pay11_apply (q k : Vec Ideal S1024x128 .f32) (b : Vec Ideal S1x1024x1024 .f32) (m m' l : Vec Ideal S1024x1 .f32)
    (r : Fin 1024) :
    k3_pay11 (F := Ideal) q k b m m' l (ix2 r (0 : Fin 1))
      = k3_pay9 (F := Ideal) q k b m m' (ix2 r (0 : Fin 1)) * l (ix2 r (0 : Fin 1))
        + ∑ j : Fin 1024, k3_pay10 (F := Ideal) q k b m (ix2 r j) := by
  unfold k3_pay11
  refine (congrFun (shapeCast_self _ _) _).trans ?_
  refine (addf_apply (φ := .f32) _ _ _).trans ?_
  refine congrArg₂ (· + ·) (mulf_apply (φ := .f32) _ _ _) ?_
  refine (LibRowOps.shapeCast_a_a1_apply _ _ r 0).trans ?_
  exact LibRowOps.rowSum_apply (k3_pay10 q k b m) _ _ _ r

/-- The new numerator: the old one rescaled plus the weights against the values. -/
theorem pay1_apply (a : FVec Ideal S1024x1 .f32) (p : FVec Ideal S1024x1024 .f32) (v acc : Vec Ideal S1024x128 .f32)
    (r : Fin 1024) (d : Fin 128) :
    k3_pay1 (F := Ideal) a p v acc (ix2 r d)
      = a (ix2 r (0 : Fin 1)) * acc (ix2 r d) + ∑ j : Fin 1024, p (ix2 r j) * v (ix2 j d) := by
  unfold k3_pay1
  refine (congrFun (shapeCast_self _ _) _).trans ?_
  refine (addf_apply (φ := .f32) _ _ _).trans ?_
  refine congrArg₂ (· + ·) ?_ ?_
  · refine (mulf_apply (φ := .f32) _ _ _).trans ?_
    exact congrArg (· * acc (ix2 r d)) (LibRowOps.broadcastTo_a1_ab_apply a _ r d)
  · refine (LibPlainDot.matmul_zero_apply (M := 1024) (K := 1024) (N := 128) none _ _ r d).trans ?_
    refine Finset.sum_congr rfl fun j _ => congrArg₂ (· * ·) (truncf_apply (φ := .f32) (ψ := .bf16) _ _ _) ?_
    exact (truncf_apply (φ := .f32) (ψ := .bf16) _ _ _).trans (congrFun (shapeCast_self v _) _)

/-- The stored running maximum is the new running maximum. -/
theorem pay2_eq (x : FVec Ideal S1024x1 .f32) : k3_pay2 (F := Ideal) x = x := by
  unfold k3_pay2
  exact shapeCast_self _ _

/-- The output: the numerator over its row's denominator. -/
theorem pay3_apply (acc : Vec Ideal S1024x128 .f32) (l : Vec Ideal S1024x1 .f32) (r : Fin 1024) (d : Fin 128) :
    k3_pay3 (F := Ideal) acc l (ix2 r d) = Ideal.div (acc (ix2 r d)) (l (ix2 r (0 : Fin 1))) := by
  unfold k3_pay3
  refine (divf_apply (φ := .f32) _ _ _).trans ?_
  exact congrArg (Ideal.div (acc (ix2 r d))) (LibRowOps.broadcastTo_a1_ab_apply l _ r d)

/-- The running maximum is reset to the stand-in for minus infinity. -/
theorem pay4_apply (i : S1024x1.Idx) : k3_pay4 (F := Ideal) i = Ideal.ofBits .f32 0xFF333332#32 := by
  unfold k3_pay4
  exact congrFun (shapeCast_self _ _) i

/-- The running denominator is reset to zero. -/
theorem pay5_apply (i : S1024x1.Idx) : k3_pay5 (F := Ideal) i = 0 := by
  unfold k3_pay5
  exact (congrFun (shapeCast_self _ _) i).trans Ideal.ofBits_zero_f32

/-- The running numerator is reset to zero. -/
theorem pay6_apply (i : S1024x128.Idx) : k3_pay6 (F := Ideal) i = 0 := by
  unfold k3_pay6
  exact (congrFun (shapeCast_self _ _) i).trans Ideal.ofBits_zero_f32

end Cert.KernelIdeal.AttnMath

end
-- ==== Proof.KIAttnMath.lean ====
/-
  The attention output over one pair of key blocks is the softmax-weighted sum of the values.

  The body visits key block A from the reset scratch and key block B from what A left.  Read at an entry, what it
  stores after B is the quotient of the two-block online-softmax recurrence: running maxima m0 (the reset value),
  m1 = max m0 (sup of A's scores), m2 = max m1 (sup of B's scores); numerator and denominator rescaled by
  exp (m1 - m2) between the blocks.  When the blocks are real-valued every quantity is a real number, and the
  quotient is the one-pass softmax over the union of the two blocks against any reference point M.
-/
import proofs.«172455_j34531537060006_2_alg».proof.Proof.KIAttnMath1

noncomputable section

namespace Cert.KernelIdeal.AttnMath

open Cert.KernelIdeal Cert.KernelIdeal.Gen Cert.KernelIdeal.Hand Idealize.ShloMosaic Idealize.ShloMosaic.ValueIdx
open Cert.LibFinite

/-! ## One key block, from any scratch contents -/

/-- The running maximum of row r after a key block, from the maximum m before it. -/
def mNext (q k : Vec Ideal S1024x128 .f32) (b : Vec Ideal S1x1024x1024 .f32) (m : EReal) (r : Fin 1024) : EReal :=
  max m (Finset.univ.sup fun j : Fin 1024 => sAt q k b r j)

theorem pay8_eq_mNext (q k : Vec Ideal S1024x128 .f32) (b : Vec Ideal S1x1024x1024 .f32) (m : Vec Ideal S1024x1 .f32)
    (r : Fin 1024) :
    k3_pay8 (F := Ideal) q k b m (ix2 r (0 : Fin 1)) = mNext q k b (m (ix2 r (0 : Fin 1))) r :=
  pay8_apply q k b m r

theorem pay9_eq (q k : Vec Ideal S1024x128 .f32) (b : Vec Ideal S1x1024x1024 .f32) (m : Vec Ideal S1024x1 .f32)
    (r : Fin 1024) :
    k3_pay9 (F := Ideal) q k b m m (ix2 r (0 : Fin 1))
      = Ideal.exp (m (ix2 r (0 : Fin 1)) - mNext q k b (m (ix2 r (0 : Fin 1))) r) :=
  (pay9_apply q k b m m _).trans
    (congrArg (fun t => Ideal.exp (m (ix2 r (0 : Fin 1)) - t)) (pay8_eq_mNext q k b m r))

theorem pay10_eq (q k : Vec Ideal S1024x128 .f32) (b : Vec Ideal S1x1024x1024 .f32) (m : Vec Ideal S1024x1 .f32)
    (r j : Fin 1024) :
    k3_pay10 (F := Ideal) q k b m (ix2 r j) = Ideal.exp (sAt q k b r j - mNext q k b (m (ix2 r (0 : Fin 1))) r) :=
  (pay10_apply q k b m r j).trans (congrArg (fun t => Ideal.exp (sAt q k b r j - t)) (pay8_eq_mNext q k b m r))

/-- The running maximum after a key block. -/
theorem mB_apply (q k : Vec Ideal S1024x128 .f32) (b : Vec Ideal S1x1024x1024 .f32) (mS : Vec Ideal S1024x1 .f32)
    (r : Fin 1024) :
    mB (F := Ideal) q k b mS (ix2 r (0 : Fin 1)) = mNext q k b (mS (ix2 r (0 : Fin 1))) r := by
  unfold mB
  exact (congrFun (pay2_eq _) _).trans (pay8_eq_mNext q k b mS r)

/-- The running denominator after a key block. -/
theorem lB_apply (q k : Vec Ideal S1024x128 .f32) (b : Vec Ideal S1x1024x1024 .f32) (mS lS : Vec Ideal S1024x1 .f32)
    (r : Fin 1024) :
    lB (F := Ideal) q k b mS lS (ix2 r (0 : Fin 1))
      = Ideal.exp (mS (ix2 r (0 : Fin 1)) - mNext q k b (mS (ix2 r (0 : Fin 1))) r) * lS (ix2 r (0 : Fin 1))
        + ∑ j : Fin 1024, Ideal.exp (sAt q k b r j - mNext q k b (mS (ix2 r (0 : Fin 1))) r) := by
  unfold lB
  refine (pay11_apply q k b mS mS lS r).trans ?_
  exact congrArg₂ (· + ·) (congrArg (· * lS (ix2 r (0 : Fin 1))) (pay9_eq q k b mS r))
    (Finset.sum_congr rfl fun j _ => pay10_eq q k b mS r j)

/-- The running numerator after a key block. -/
theorem accB_apply (q k v : Vec Ideal S1024x128 .f32) (b : Vec Ideal S1x1024x1024 .f32) (mS : Vec Ideal S1024x1 .f32)
    (accS : Vec Ideal S1024x128 .f32) (r : Fin 1024) (d : Fin 128) :
    accB (F := Ideal) q k v b mS accS (ix2 r d)
      = Ideal.exp (mS (ix2 r (0 : Fin 1)) - mNext q k b (mS (ix2 r (0 : Fin 1))) r) * accS (ix2 r d)
        + ∑ j : Fin 1024, Ideal.exp (sAt q k b r j - mNext q k b (mS (ix2 r (0 : Fin 1))) r) * v (ix2 j d) := by
  unfold accB
  refine (pay1_apply _ _ v accS r d).trans ?_
  exact congrArg₂ (· + ·) (congrArg (· * accS (ix2 r d)) (pay9_eq q k b mS r))
    (Finset.sum_congr rfl fun j _ => congrArg (· * v (ix2 j d)) (pay10_eq q k b mS r j))

/-! ## The first key block, from the reset scratch -/

theorem mA_apply (q k : Vec Ideal S1024x128 .f32) (b : Vec Ideal S1x1024x1024 .f32) (r : Fin 1024) :
    mA (F := Ideal) q k b (ix2 r (0 : Fin 1)) = mNext q k b (Ideal.ofBits .f32 0xFF333332#32) r := by
  show mB (F := Ideal) q k b (k3_pay4 (F := Ideal)) (ix2 r (0 : Fin 1)) = _
  rw [mB_apply, pay4_apply]

theorem lA_apply (q k : Vec Ideal S1024x128 .f32) (b : Vec Ideal S1x1024x1024 .f32) (r : Fin 1024) :
    lA (F := Ideal) q k b (ix2 r (0 : Fin 1))
      = Ideal.exp (Ideal.ofBits .f32 0xFF333332#32 - mNext q k b (Ideal.ofBits .f32 0xFF333332#32) r) * 0
        + ∑ j : Fin 1024, Ideal.exp (sAt q k b r j - mNext q k b (Ideal.ofBits .f32 0xFF333332#32) r) := by
  show lB (F := Ideal) q k b (k3_pay4 (F := Ideal)) (k3_pay5 (F := Ideal)) (ix2 r (0 : Fin 1)) = _
  rw [lB_apply, pay4_apply, pay5_apply]

theorem accA_apply (q k v : Vec Ideal S1024x128 .f32) (b : Vec Ideal S1x1024x1024 .f32) (r : Fin 1024) (d : Fin 128) :
    accA (F := Ideal) q k v b (ix2 r d)
      = Ideal.exp (Ideal.ofBits .f32 0xFF333332#32 - mNext q k b (Ideal.ofBits .f32 0xFF333332#32) r) * 0
        + ∑ j : Fin 1024, Ideal.exp (sAt q k b r j - mNext q k b (Ideal.ofBits .f32 0xFF333332#32) r) * v (ix2 j d) := by
  show accB (F := Ideal) q k v b (k3_pay4 (F := Ideal)) (k3_pay6 (F := Ideal)) (ix2 r d) = _
  rw [accB_apply, pay4_apply, pay6_apply]

/-! ## The stored output as the two-block recurrence -/

theorem outB_formula (q kA kB vA vB : Vec Ideal S1024x128 .f32) (bA bB : Vec Ideal S1x1024x1024 .f32)
    (r : Fin 1024) (d : Fin 128) :
    outB (F := Ideal) q kB vB bB (mA q kA bA) (lA q kA bA) (accA q kA vA bA) (ix2 r d)
      = Ideal.div
          (Ideal.exp (mNext q kA bA (Ideal.ofBits .f32 0xFF333332#32) r
                - mNext q kB bB (mNext q kA bA (Ideal.ofBits .f32 0xFF333332#32) r) r)
              * (Ideal.exp (Ideal.ofBits .f32 0xFF333332#32 - mNext q kA bA (Ideal.ofBits .f32 0xFF333332#32) r) * 0
                + ∑ j : Fin 1024, Ideal.exp (sAt q kA bA r j - mNext q kA bA (Ideal.ofBits .f32 0xFF333332#32) r)
                    * vA (ix2 j d))
            + ∑ j : Fin 1024, Ideal.exp (sAt q kB bB r j
                - mNext q kB bB (mNext q kA bA (Ideal.ofBits .f32 0xFF333332#32) r) r) * vB (ix2 j d))
          (Ideal.exp (mNext q kA bA (Ideal.ofBits .f32 0xFF333332#32) r
                - mNext q kB bB (mNext q kA bA (Ideal.ofBits .f32 0xFF333332#32) r) r)
              * (Ideal.exp (Ideal.ofBits .f32 0xFF333332#32 - mNext q kA bA (Ideal.ofBits .f32 0xFF333332#32) r) * 0
                + ∑ j : Fin 1024, Ideal.exp (sAt q kA bA r j - mNext q kA bA (Ideal.ofBits .f32 0xFF333332#32) r))
            + ∑ j : Fin 1024, Ideal.exp (sAt q kB bB r j
                - mNext q kB bB (mNext q kA bA (Ideal.ofBits .f32 0xFF333332#32) r) r)) := by
  unfold outB
  refine (pay3_apply _ _ r d).trans ?_
  rw [accB_apply, lB_apply, mA_apply, lA_apply, accA_apply]

/-! ## Every quantity is a real number -/

theorem sAt_real {q k : Vec Ideal S1024x128 .f32} {b : Vec Ideal S1x1024x1024 .f32} (hq : AllReal q) (hk : AllReal k)
    (hb : AllReal b) (r j : Fin 1024) : ∃ x : ℝ, sAt q k b r j = (x : EReal) := by
  unfold sAt
  exact real_add (real_mul (real_sum _ _ fun d _ => real_mul (hq _) (hk _)) scale_real) (hb _)

theorem mNext_real {q k : Vec Ideal S1024x128 .f32} {b : Vec Ideal S1x1024x1024 .f32} (hq : AllReal q) (hk : AllReal k)
    (hb : AllReal b) {m : EReal} (hm : ∃ x : ℝ, m = (x : EReal)) (r : Fin 1024) :
    ∃ x : ℝ, mNext q k b m r = (x : EReal) := by
  unfold mNext
  exact real_max hm
    (Cert.LibOnlineSoftmax.finset_sup_real _ _ Finset.univ_nonempty fun j _ => sAt_real hq hk hb r j)

/-! ## The softmax-weighted sum -/

/-- Over real-valued blocks, what the body stores after the second key block of a pair is the softmax over the two
    blocks' scores (against any real reference point M) applied to the two blocks' values. -/
theorem outB_eq {q kA kB vA vB : Vec Ideal S1024x128 .f32} {bA bB : Vec Ideal S1x1024x1024 .f32}
    (hq : AllReal q) (hkA : AllReal kA) (hkB : AllReal kB) (hvA : AllReal vA) (hvB : AllReal vB)
    (hbA : AllReal bA) (hbB : AllReal bB) (r : Fin 1024) (d : Fin 128) (M : EReal) (hM : ∃ x : ℝ, M = (x : EReal)) :
    outB (F := Ideal) q kB vB bB (mA q kA bA) (lA q kA bA) (accA q kA vA bA) (ix2 r d)
      = (∑ j : Fin 1024, Ideal.div (Ideal.exp (sAt q kA bA r j - M))
            ((∑ i : Fin 1024, Ideal.exp (sAt q kA bA r i - M)) + ∑ i : Fin 1024, Ideal.exp (sAt q kB bB r i - M))
            * vA (ix2 j d))
        + ∑ j : Fin 1024, Ideal.div (Ideal.exp (sAt q kB bB r j - M))
            ((∑ i : Fin 1024, Ideal.exp (sAt q kA bA r i - M)) + ∑ i : Fin 1024, Ideal.exp (sAt q kB bB r i - M))
            * vB (ix2 j d) := by
  refine (outB_formula q kA kB vA vB bA bB r d).trans ?_
  obtain ⟨x0, h0⟩ := reset_real
  obtain ⟨x1, h1⟩ := mNext_real hq hkA hbA reset_real r
  obtain ⟨x2, h2⟩ := mNext_real hq hkB hbB (mNext_real hq hkA hbA reset_real r) r
  obtain ⟨xM, rfl⟩ := hM
  choose sA hsA using sAt_real hq hkA hbA r
  choose sB hsB using sAt_real hq hkB hbB r
  choose wA hwA using fun j : Fin 1024 => hvA (ix2 j d)
  choose wB hwB using fun j : Fin 1024 => hvB (ix2 j d)
  have key := Cert.LibOnlineSoftmax.online_softmax_ereal sA wA sB wB x0 x1 x2 xM
  simp only [← hsA, ← hsB, ← hwA, ← hwB] at key
  rw [← h0, ← h1, ← h2] at key
  exact key

end Cert.KernelIdeal.AttnMath

end
-- ==== Proof.KIValue.lean ====
/-
  The idealized kernel's result as one function of its arguments. Walking the run's boundaries: each of the three
  projection calls leaves X·Wᵀ + b of its operands (the bias a vector the host reshaped to a row), the attention call
  leaves the softmax-weighted average of the value rows per head — for real inputs — and the last call projects that.
  A buffer no item writes between two boundaries holds the same contents at both.
-/
import proofs.«172455_j34531537060006_2_alg».proof.Proof.KIRun
import proofs.«172455_j34531537060006_2_alg».proof.Proof.KILinVal0
import proofs.«172455_j34531537060006_2_alg».proof.Proof.KILinVal1
import proofs.«172455_j34531537060006_2_alg».proof.Proof.KILinVal2
import proofs.«172455_j34531537060006_2_alg».proof.Proof.KILinVal4
import proofs.«172455_j34531537060006_2_alg».proof.Proof.KIAttnVal3
import proofs.«172455_j34531537060006_2_alg».proof.Proof.KIAttnMath
import proofs.«172455_j34531537060006_2_alg».proof.Proof.KIFinite
import proofs.«172455_j34531537060006_2_alg».proof.Proof.Spec
import Idealize.ShloMosaic.Lib.StableHlo.Run

set_option maxRecDepth 16384

noncomputable section

namespace Cert.KernelIdeal.Chain

open Cert.KernelIdeal Cert.KernelIdeal.Gen Cert.KernelIdeal.Hand Cert.LibFinite
open Idealize.ShloMosaic Idealize.ShloMosaic.TcCoe Idealize.ShloMosaic.StableHlo Idealize.ShloMosaic.ValueIdx Idealize.SL.Sem
open Idealize.ShloMosaic.Pipeline (Dat)

variable (m : (ℓ : Loc nD τ sig) → Buf (Elt Ideal) ℓ) (ρ : Dev nD → PrngReg)

/-- A one-row matrix read as a vector. -/
def rowOf (v : S1x2048.Idx → EReal) : Cert.Spec.Row := fun j => v (ix2 (0 : Fin 1) (j 0))

/-- The row of a reshaped vector is the vector. -/
theorem rowOf_reshape (a : S2048.Idx → EReal) : rowOf (shapeCast S1x2048 a shapeCasts_S2048_S1x2048) = a := by
  funext j
  show shapeCast S1x2048 a shapeCasts_S2048_S1x2048 (ix2 (0 : Fin 1) (j 0)) = a j
  refine ((shapeCast_addUnit_apply ![2048] a shapeCasts_S2048_S1x2048 (ix2 (0 : Fin 1) (j 0))).trans (congrArg a (funext fun ax => ?_)))
  match ax with
  | ⟨0, _⟩ => rfl

theorem lin_congr {X X' W W' : Cert.Spec.Mat} {b b' : Cert.Spec.Row} (hX : X = X') (hW : W = W') (hb : b = b') :
    Cert.Spec.lin X W b = Cert.Spec.lin X' W' b' := by subst hX hW hb; rfl

theorem attn_congr {Q Q' K K' V V' : Cert.Spec.Mat} {B B' : Cert.Spec.Bias} (hQ : Q = Q') (hK : K = K') (hV : V = V') (hB : B = B') :
    Cert.Spec.attn Q K V B = Cert.Spec.attn Q' K' V' B' := by subst hQ hK hV hB; rfl

/-! Arguments at the boundaries where a call reads them. -/
theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_writes_sub hostOps0 _ hostOps0_writes (by decide : main_arg0 ∉ hostOps0_W)
    _ = m ((c : Thread nD τ).loc main_arg0) := rfl

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_writes_sub hostOps0 _ hostOps0_writes (by decide : main_arg4 ∉ hostOps0_W)
    _ = m ((c : Thread nD τ).loc main_arg4) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := StableHlo.after_of_writes_sub hostOps4 _ hostOps4_writes (by decide : main_arg10 ∉ hostOps4_W)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide : main_arg10 ∉ hostOps2_W)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide : main_arg11 ∉ hostOps2_W)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

/-- The bias row the host reshape before the call leaves, read back as the vector. -/
theorem W1_main_v0_row (c : Dev nD) : rowOf (W1 m ρ c (Proc.devRef .tc main_v0)) = m ((c : Thread nD τ).loc main_arg5) := by
  have e : W1 m ρ c (Proc.devRef .tc main_v0) = shapeCast S1x2048 (W0 m ρ c (Proc.devRef .tc main_arg5)) shapeCasts_S2048_S1x2048 := by
    show StableHlo.after hostOps0 _ (Proc.devRef .tc main_v0) = _
    first | (after_results; done) | (after_results; rfl)
  rw [e, rowOf_reshape]

/-- The bias row the host reshape before the call leaves, read back as the vector. -/
theorem W3_main_v2_row (c : Dev nD) : rowOf (W3 m ρ c (Proc.devRef .tc main_v2)) = m ((c : Thread nD τ).loc main_arg7) := by
  have e : W3 m ρ c (Proc.devRef .tc main_v2) = shapeCast S1x2048 (W2 m ρ c (Proc.devRef .tc main_arg7)) shapeCasts_S2048_S1x2048 := by
    show StableHlo.after hostOps1 _ (Proc.devRef .tc main_v2) = _
    first | (after_results; done) | (after_results; rfl)
  rw [e, rowOf_reshape]
  exact W2_main_arg7 m ρ c

/-- The bias row the host reshape before the call leaves, read back as the vector. -/
theorem W5_main_v4_row (c : Dev nD) : rowOf (W5 m ρ c (Proc.devRef .tc main_v4)) = m ((c : Thread nD τ).loc main_arg9) := by
  have e : W5 m ρ c (Proc.devRef .tc main_v4) = shapeCast S1x2048 (W4 m ρ c (Proc.devRef .tc main_arg9)) shapeCasts_S2048_S1x2048 := by
    show StableHlo.after hostOps2 _ (Proc.devRef .tc main_v4) = _
    first | (after_results; done) | (after_results; rfl)
  rw [e, rowOf_reshape]
  exact W4_main_arg9 m ρ c

/-- The bias row the host reshape before the call leaves, read back as the vector. -/
theorem W8_main_v7_row (c : Dev nD) : rowOf (W8 m ρ c (Proc.devRef .tc main_v7)) = m ((c : Thread nD τ).loc main_arg11) := by
  have e : W8 m ρ c (Proc.devRef .tc main_v7) = shapeCast S1x2048 (W7 m ρ c (Proc.devRef .tc main_arg11)) shapeCasts_S2048_S1x2048 := by
    show StableHlo.after hostOps4 _ (Proc.devRef .tc main_v7) = _
    first | (after_results; done) | (after_results; rfl)
  rw [e, rowOf_reshape]
  exact W7_main_arg11 m ρ c

/-! The projections' results reach the attention call unchanged. -/
theorem W6_main_v1 (c : Dev nD) : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_writes_sub hostOps2 _ hostOps2_writes (by decide : main_v1 ∉ hostOps2_W)
    _ = W3 m ρ c (Proc.devRef .tc main_v1) := W4_of_ne m ρ c main_v1 (by decide)
    _ = W2 m ρ c (Proc.devRef .tc main_v1) := StableHlo.after_of_writes_sub hostOps1 _ hostOps1_writes (by decide : main_v1 ∉ hostOps1_W)

theorem W6_main_v3 (c : Dev nD) : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_writes_sub hostOps2 _ hostOps2_writes (by decide : main_v3 ∉ hostOps2_W)

theorem W8_main_v6 (c : Dev nD) : W8 m ρ c (Proc.devRef .tc main_v6) = W7 m ρ c (Proc.devRef .tc main_v6) :=
  calc W8 m ρ c (Proc.devRef .tc main_v6)
    _ = W7 m ρ c (Proc.devRef .tc main_v6) := StableHlo.after_of_writes_sub hostOps4 _ hostOps4_writes (by decide : main_v6 ∉ hostOps4_W)

/-- The query projection. -/
theorem val_v1 (c : Dev nD) : W2 m ρ c (Proc.devRef .tc main_v1) = Cert.Spec.lin (m ((c : Thread nD τ).loc main_arg0)) (m ((c : Thread nD τ).loc main_arg4)) (m ((c : Thread nD τ).loc main_arg5)) :=
  (W2_arr m ρ c 3).trans ((Cert.KernelIdeal.LinVal.arrAt_lin0 (V1 m ρ) c).trans
    (lin_congr (W1_main_arg0 m ρ c) (W1_main_arg4 m ρ c) (W1_main_v0_row m ρ c)))
/-- The key projection. -/
theorem val_v3 (c : Dev nD) : W4 m ρ c (Proc.devRef .tc main_v3) = Cert.Spec.lin (m ((c : Thread nD τ).loc main_arg1)) (m ((c : Thread nD τ).loc main_arg6)) (m ((c : Thread nD τ).loc main_arg7)) :=
  (W4_arr m ρ c 3).trans ((Cert.KernelIdeal.LinVal.arrAt_lin1 (V3 m ρ) c).trans
    (lin_congr (W3_main_arg1 m ρ c) (W3_main_arg6 m ρ c) (W3_main_v2_row m ρ c)))
/-- The value projection. -/
theorem val_v5 (c : Dev nD) : W6 m ρ c (Proc.devRef .tc main_v5) = Cert.Spec.lin (m ((c : Thread nD τ).loc main_arg2)) (m ((c : Thread nD τ).loc main_arg8)) (m ((c : Thread nD τ).loc main_arg9)) :=
  (W6_arr m ρ c 3).trans ((Cert.KernelIdeal.LinVal.arrAt_lin2 (V5 m ρ) c).trans
    (lin_congr (W5_main_arg2 m ρ c) (W5_main_arg8 m ρ c) (W5_main_v4_row m ρ c)))

/-- The two-key-block recurrence of the attention body agrees with the one-pass weighted average on real blocks. -/
theorem law : Cert.KernelIdeal.AttnVal.OutBLaw :=
  fun q kA kB vA vB bA bB hq hkA hkB hvA hvB hbA hbB r d M hM =>
    Cert.KernelIdeal.AttnMath.outB_eq hq hkA hkB hvA hvB hbA hbB r d M hM

/-- The attention call's result, for real arguments. -/
theorem val_v6 (c : Dev nD)
    (h0 : AllReal (m ((c : Thread nD τ).loc main_arg0))) (h1 : AllReal (m ((c : Thread nD τ).loc main_arg1))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5)))
    (h6 : AllReal (m ((c : Thread nD τ).loc main_arg6))) (h7 : AllReal (m ((c : Thread nD τ).loc main_arg7))) (h8 : AllReal (m ((c : Thread nD τ).loc main_arg8))) (h9 : AllReal (m ((c : Thread nD τ).loc main_arg9))) :
    W7 m ρ c (Proc.devRef .tc main_v6)
      = Cert.Spec.attn (Cert.Spec.lin (m ((c : Thread nD τ).loc main_arg0)) (m ((c : Thread nD τ).loc main_arg4)) (m ((c : Thread nD τ).loc main_arg5))) (Cert.Spec.lin (m ((c : Thread nD τ).loc main_arg1)) (m ((c : Thread nD τ).loc main_arg6)) (m ((c : Thread nD τ).loc main_arg7))) (Cert.Spec.lin (m ((c : Thread nD τ).loc main_arg2)) (m ((c : Thread nD τ).loc main_arg8)) (m ((c : Thread nD τ).loc main_arg9))) (m ((c : Thread nD τ).loc main_arg3)) := by
  have eQ : V6 m ρ c main_v1 = Cert.Spec.lin (m ((c : Thread nD τ).loc main_arg0)) (m ((c : Thread nD τ).loc main_arg4)) (m ((c : Thread nD τ).loc main_arg5)) := (W6_main_v1 m ρ c).trans (val_v1 m ρ c)
  have eK : V6 m ρ c main_v3 = Cert.Spec.lin (m ((c : Thread nD τ).loc main_arg1)) (m ((c : Thread nD τ).loc main_arg6)) (m ((c : Thread nD τ).loc main_arg7)) := (W6_main_v3 m ρ c).trans (val_v3 m ρ c)
  have eV : V6 m ρ c main_v5 = Cert.Spec.lin (m ((c : Thread nD τ).loc main_arg2)) (m ((c : Thread nD τ).loc main_arg8)) (m ((c : Thread nD τ).loc main_arg9)) := val_v5 m ρ c
  have eB : V6 m ρ c main_arg3 = m ((c : Thread nD τ).loc main_arg3) := W6_main_arg3 m ρ c
  refine (W7_arr m ρ c 4).trans ((Cert.KernelIdeal.AttnVal.arrAt_attn (V6 m ρ) law c ?_ ?_ ?_ ?_).trans (attn_congr eQ eK eV eB))
  · rw [eQ]; exact Cert.KernelIdeal.Finite.lin_real h0 h4 h5
  · rw [eK]; exact Cert.KernelIdeal.Finite.lin_real h1 h6 h7
  · rw [eV]; exact Cert.KernelIdeal.Finite.lin_real h2 h8 h9
  · rw [eB]; exact h3

/-- The result array is `G` of the arguments, for real arguments. -/
theorem val_v8 (c : Dev nD)
    (h0 : AllReal (m ((c : Thread nD τ).loc main_arg0))) (h1 : AllReal (m ((c : Thread nD τ).loc main_arg1))) (h2 : AllReal (m ((c : Thread nD τ).loc main_arg2))) (h3 : AllReal (m ((c : Thread nD τ).loc main_arg3))) (h4 : AllReal (m ((c : Thread nD τ).loc main_arg4))) (h5 : AllReal (m ((c : Thread nD τ).loc main_arg5)))
    (h6 : AllReal (m ((c : Thread nD τ).loc main_arg6))) (h7 : AllReal (m ((c : Thread nD τ).loc main_arg7))) (h8 : AllReal (m ((c : Thread nD τ).loc main_arg8))) (h9 : AllReal (m ((c : Thread nD τ).loc main_arg9))) :
    W9 m ρ c (Proc.devRef .tc main_v8)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W9_arr m ρ c 3).trans ((Cert.KernelIdeal.LinVal.arrAt_lin4 (V8 m ρ) c).trans
    (lin_congr ((W8_main_v6 m ρ c).trans (val_v6 m ρ c h0 h1 h2 h3 h4 h5 h6 h7 h8 h9)) (W8_main_arg10 m ρ c) (W8_main_v7_row m ρ c)))

end Cert.KernelIdeal.Chain

end
-- ==== Proof.RefIsG.lean ====
/-
  The reference computes the specification.

  Each stage of the reference program, read at an index, is the corresponding piece of the specification: the
  three projections and the final one are `lin`, the scaled head-wise inner products plus the bias are `logit`,
  the row maximum is `rowMax`, the shifted exponentials summed along a row are `denom`, the weighted value rows
  are `attnAt`, the heads laid side by side are `attn`.  Only index arithmetic is involved (which entry of which
  operand a stage reads); no algebraic law is used.
-/
import proofs.«172455_j34531537060006_2_alg».proof.Proof.Spec
import proofs.«172455_j34531537060006_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-! ## The projections -/

/-- A projection as the reference computes it (transpose, matrix product, broadcast bias, sum) is `lin`. -/
theorem projQ_eq (x0 x4 : Mat) (x5 : Row) :
    val_main_v4 (F := Ideal) x0 x4 x5 = lin x0 x4 x5 := by
  funext i
  rw [val_main_v4_apply, val_main_v1_apply, val_main_v3_apply, val_main_v2_apply]
  have e1 : ∀ k, lidx_main_v1 i k = ix2 (i 0) k := fun k =>
    funext fun a => match a with | ⟨0, _⟩ => rfl | ⟨1, _⟩ => rfl
  have e2 : ∀ k, idx_main_v0 (ridx_main_v1 i k) = ix2 (i 1) k := fun k =>
    funext fun a => match a with | ⟨0, _⟩ => rfl | ⟨1, _⟩ => rfl
  have e3 : idx_main_v2 (idx_main_v3 i) = ix1 (i 1) :=
    funext fun a => match a with | ⟨0, _⟩ => rfl
  simp only [val_main_v0_apply, e1, e2, e3]
  rfl

/-- A projection as the reference computes it (transpose, matrix product, broadcast bias, sum) is `lin`. -/
theorem projK_eq (x1 x6 : Mat) (x7 : Row) :
    val_main_v11 (F := Ideal) x1 x6 x7 = lin x1 x6 x7 := by
  funext i
  rw [val_main_v11_apply, val_main_v8_apply, val_main_v10_apply, val_main_v9_apply]
  have e1 : ∀ k, lidx_main_v8 i k = ix2 (i 0) k := fun k =>
    funext fun a => match a with | ⟨0, _⟩ => rfl | ⟨1, _⟩ => rfl
  have e2 : ∀ k, idx_main_v7 (ridx_main_v8 i k) = ix2 (i 1) k := fun k =>
    funext fun a => match a with | ⟨0, _⟩ => rfl | ⟨1, _⟩ => rfl
  have e3 : idx_main_v9 (idx_main_v10 i) = ix1 (i 1) :=
    funext fun a => match a with | ⟨0, _⟩ => rfl
  simp only [val_main_v7_apply, e1, e2, e3]
  rfl

/-- A projection as the reference computes it (transpose, matrix product, broadcast bias, sum) is `lin`. -/
theorem projV_eq (x2 x8 : Mat) (x9 : Row) :
    val_main_v18 (F := Ideal) x2 x8 x9 = lin x2 x8 x9 := by
  funext i
  rw [val_main_v18_apply, val_main_v15_apply, val_main_v17_apply, val_main_v16_apply]
  have e1 : ∀ k, lidx_main_v15 i k = ix2 (i 0) k := fun k =>
    funext fun a => match a with | ⟨0, _⟩ => rfl | ⟨1, _⟩ => rfl
  have e2 : ∀ k, idx_main_v14 (ridx_main_v15 i k) = ix2 (i 1) k := fun k =>
    funext fun a => match a with | ⟨0, _⟩ => rfl | ⟨1, _⟩ => rfl
  have e3 : idx_main_v16 (idx_main_v17 i) = ix1 (i 1) :=
    funext fun a => match a with | ⟨0, _⟩ => rfl
  simp only [val_main_v14_apply, e1, e2, e3]
  rfl

/-! ## The logits -/

/-- Column `d` of head `h` of a projection, read through the reshape into heads and the transpose. -/
theorem logit_eq (x0 x1 : Mat) (x3 : Bias) (x4 : Mat) (x5 : Row) (x6 : Mat) (x7 : Row) (h : Fin 16) (q k : Fin 2048) :
    val_main_v24 (F := Ideal) x0 x1 x3 x4 x5 x6 x7 (ix3 h q k) = logit (lin x0 x4 x5) (lin x1 x6 x7) x3 h q k := by
  rw [val_main_v24_apply, val_main_v23_apply, val_main_v21_apply, val_main_v22_apply, val_main_cst_apply]
  have e1 : ∀ d : Fin 128, idx_main_v5 (idx_main_v6 (lidx_main_v21 (ix3 h q k) d)) = ix2 q (col h d) := fun d =>
    funext fun a => Fin.ext (by
      have := h.isLt; have := d.isLt
      match a with
      | ⟨0, _⟩ => show ((q.val * 16 + h.val) * 128 + d.val) / 2048 = q.val; omega
      | ⟨1, _⟩ => show ((q.val * 16 + h.val) * 128 + d.val) % 2048 = h.val * 128 + d.val; omega)
  have e2 : ∀ d : Fin 128, idx_main_v12 (idx_main_v13 (ridx_main_v21 (ix3 h q k) d)) = ix2 k (col h d) := fun d =>
    funext fun a => Fin.ext (by
      have := h.isLt; have := d.isLt
      match a with
      | ⟨0, _⟩ => show ((k.val * 16 + h.val) * 128 + d.val) / 2048 = k.val; omega
      | ⟨1, _⟩ => show ((k.val * 16 + h.val) * 128 + d.val) % 2048 = h.val * 128 + d.val; omega)
  simp only [val_main_v6_apply, val_main_v5_apply, val_main_v13_apply, val_main_v12_apply, projQ_eq, projK_eq, e1, e2]
  rfl

/-! ## The row maximum -/

/-- The host's maximum-reduce over the last axis, at row (h, q): the fold of the maximum over the row's entries. -/
theorem reduce_max_row (y : S16x2048x2048.Idx → EReal) (init : S_.Idx → EReal) (h : Fin 16) (q : Fin 2048) :
    Host.reduce (FloatOps.maximumf (F := Ideal) (φ := .f32)) y init reducesTo_S16x2048x2048_S16x2048_d2 h_S_ (ix2 h q)
      = (Finset.univ : Finset (Fin 2048)).fold max (init ix0) fun k => y (ix3 h q k) := by
  have hr : S16x2048x2048.Reduces [2] S16x2048 := by decide
  rw [Host.reduce_eq_fold_single _ y init reducesTo_S16x2048x2048_S16x2048_d2 hr h_S_ (ix2 h q)]
  have e : (y ∘ hr.lift (ix2 h q)) = fun k : Fin 2048 => y (ix3 h q k) := funext fun k =>
    congrArg y (funext fun c => Fin.ext (match c with | ⟨0, _⟩ => rfl | ⟨1, _⟩ => rfl | ⟨2, _⟩ => rfl))
  rw [e, eq_ix0 (Shape.Idx.first h_S_)]
  rfl

theorem rowMax_eq' (x0 x1 : Mat) (x3 : Bias) (x4 : Mat) (x5 : Row) (x6 : Mat) (x7 : Row) (h : Fin 16) (q : Fin 2048) :
    val_main_v27 (F := Ideal) x0 x1 x3 x4 x5 x6 x7 (ix2 h q) = rowMax (lin x0 x4 x5) (lin x1 x6 x7) x3 h q := by
  rw [val_main_v27_apply, val_main_v26_apply, val_main_cst_1_apply]
  unfold val_main_v25
  rw [reduce_max_row]
  simp only [logit_eq, val_main_cst_0_apply]
  rfl

/-! ## The softmax weights -/

theorem expo_eq (x0 x1 : Mat) (x3 : Bias) (x4 : Mat) (x5 : Row) (x6 : Mat) (x7 : Row) (h : Fin 16) (q k : Fin 2048) :
    val_main_v31 (F := Ideal) x0 x1 x3 x4 x5 x6 x7 (ix3 h q k) = Ideal.exp (logit (lin x0 x4 x5) (lin x1 x6 x7) x3 h q k - rowMax (lin x0 x4 x5) (lin x1 x6 x7) x3 h q) := by
  rw [val_main_v31_apply, val_main_v30_apply, val_main_v29_apply, val_main_v28_apply]
  have e : idx_main_v28 (idx_main_v29 (ix3 h q k)) = ix2 h q :=
    funext fun a => match a with | ⟨0, _⟩ => rfl | ⟨1, _⟩ => rfl
  rw [e, logit_eq, rowMax_eq']
  rfl

theorem denom_eq' (x0 x1 : Mat) (x3 : Bias) (x4 : Mat) (x5 : Row) (x6 : Mat) (x7 : Row) (h : Fin 16) (q : Fin 2048) :
    val_main_v32 (F := Ideal) x0 x1 x3 x4 x5 x6 x7 (ix2 h q) = denom (lin x0 x4 x5) (lin x1 x6 x7) x3 h q := by
  rw [val_main_v32_apply, val_main_cst_2_apply]
  have e : ∀ k, idx_main_v32 (ix2 h q) k = ix3 h q k := fun k =>
    funext fun a => match a with | ⟨0, _⟩ => rfl | ⟨1, _⟩ => rfl | ⟨2, _⟩ => rfl
  simp only [e, expo_eq]
  rfl

theorem weight_eq (x0 x1 : Mat) (x3 : Bias) (x4 : Mat) (x5 : Row) (x6 : Mat) (x7 : Row) (h : Fin 16) (q k : Fin 2048) :
    val_main_v35 (F := Ideal) x0 x1 x3 x4 x5 x6 x7 (ix3 h q k)
      = Ideal.div (Ideal.exp (logit (lin x0 x4 x5) (lin x1 x6 x7) x3 h q k - rowMax (lin x0 x4 x5) (lin x1 x6 x7) x3 h q)) (denom (lin x0 x4 x5) (lin x1 x6 x7) x3 h q) := by
  rw [val_main_v35_apply, val_main_v34_apply, val_main_v33_apply]
  have e : idx_main_v33 (idx_main_v34 (ix3 h q k)) = ix2 h q :=
    funext fun a => match a with | ⟨0, _⟩ => rfl | ⟨1, _⟩ => rfl
  rw [e, expo_eq, denom_eq']
  rfl

/-! ## The weighted values and the merge of the heads -/

theorem attnAt_eq (x0 x1 x2 : Mat) (x3 : Bias) (x4 : Mat) (x5 : Row) (x6 : Mat) (x7 : Row) (x8 : Mat) (x9 : Row) (h : Fin 16) (q : Fin 2048) (d : Fin 128) :
    val_main_v36 (F := Ideal) x0 x1 x2 x3 x4 x5 x6 x7 x8 x9 (ix3 h q d) = attnAt (lin x0 x4 x5) (lin x1 x6 x7) (lin x2 x8 x9) x3 h q d := by
  rw [val_main_v36_apply]
  have e1 : ∀ k, lidx_main_v36 (ix3 h q d) k = ix3 h q k := fun k =>
    funext fun a => match a with | ⟨0, _⟩ => rfl | ⟨1, _⟩ => rfl | ⟨2, _⟩ => rfl
  have e2 : ∀ k : Fin 2048, idx_main_v19 (idx_main_v20 (ridx_main_v36 (ix3 h q d) k)) = ix2 k (col h d) := fun k =>
    funext fun a => Fin.ext (by
      have := h.isLt; have := d.isLt
      match a with
      | ⟨0, _⟩ => show ((k.val * 16 + h.val) * 128 + d.val) / 2048 = k.val; omega
      | ⟨1, _⟩ => show ((k.val * 16 + h.val) * 128 + d.val) % 2048 = h.val * 128 + d.val; omega)
  simp only [e1, weight_eq, val_main_v20_apply, val_main_v19_apply, e2, projV_eq]
  rfl

theorem attn_eq (x0 x1 x2 : Mat) (x3 : Bias) (x4 : Mat) (x5 : Row) (x6 : Mat) (x7 : Row) (x8 : Mat) (x9 : Row) :
    val_main_v38 (F := Ideal) x0 x1 x2 x3 x4 x5 x6 x7 x8 x9 = attn (lin x0 x4 x5) (lin x1 x6 x7) (lin x2 x8 x9) x3 := by
  funext i
  obtain ⟨p, q, rfl⟩ : ∃ (p q : Fin 2048), i = ix2 p q := ⟨i 0, i 1, eq_ix2 i⟩
  rw [val_main_v38_apply, val_main_v37_apply]
  have hp := p.isLt
  have hq := q.isLt
  have e : idx_main_v37 (idx_main_v38 (ix2 p q))
      = ix3 (⟨q.val / 128, by omega⟩ : Fin 16) p (⟨q.val % 128, Nat.mod_lt _ (by norm_num)⟩ : Fin 128) :=
    funext fun a => Fin.ext (by
      match a with
      | ⟨0, _⟩ => show (p.val * 2048 + q.val) / 128 % 16 = q.val / 128; omega
      | ⟨1, _⟩ => show (p.val * 2048 + q.val) / 2048 = p.val; omega
      | ⟨2, _⟩ => show (p.val * 2048 + q.val) % 128 = q.val % 128; omega)
  rw [e, attnAt_eq]
  rfl

/-! ## The output projection and the whole reference -/

theorem out_eq (x0 x1 x2 : Mat) (x3 : Bias) (x4 : Mat) (x5 : Row) (x6 : Mat) (x7 : Row) (x8 : Mat) (x9 : Row) (x10 : Mat) (x11 : Row) :
    val_main_v43 (F := Ideal) x0 x1 x2 x3 x4 x5 x6 x7 x8 x9 x10 x11
      = G x0 x1 x2 x3 x4 x5 x6 x7 x8 x9 x10 x11 := by
  funext i
  rw [val_main_v43_apply, val_main_v40_apply, val_main_v42_apply, val_main_v41_apply]
  have e1 : ∀ k, lidx_main_v40 i k = ix2 (i 0) k := fun k =>
    funext fun a => match a with | ⟨0, _⟩ => rfl | ⟨1, _⟩ => rfl
  have e2 : ∀ k, idx_main_v39 (ridx_main_v40 i k) = ix2 (i 1) k := fun k =>
    funext fun a => match a with | ⟨0, _⟩ => rfl | ⟨1, _⟩ => rfl
  have e3 : idx_main_v41 (idx_main_v42 i) = ix1 (i 1) :=
    funext fun a => match a with | ⟨0, _⟩ => rfl
  simp only [val_main_v39_apply, attn_eq, e1, e2, e3]
  rfl

/-- The reference's result is the specification of its arguments. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v43 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) :=
  (val_main_v43_eq (F := Ideal) m c).trans (out_eq _ _ _ _ _ _ _ _ _ _ _ _)

end Cert.ReferenceIdeal.RefValue

end
-- ==== Proof.Claims.lean ====
/-
  The five claims. Both printed kernels run to the end with their argument arrays unchanged: the run of @main as a
  line of host reshapes and pipelined calls. The reference is a host program whose run is read back operation by
  operation. The idealized kernel and the idealized reference end with the same array: multi-head attention with an
  additive bias, out = (softmax over keys of (Q Wqᵀ + bq)(K Wkᵀ + bk)ᵀ · scale + bias, per head) (V Wvᵀ + bv) Woᵀ + bo.
  The kernel computes the softmax-weighted average by the online recurrence over two key blocks — running maximum,
  denominator and numerator rescaled by the exponential of the old maximum minus the new —, the reference in one pass;
  on real numbers the common factor cancels in the quotient, and the finiteness of the inputs makes every intermediate real.
-/
import proofs.«172455_j34531537060006_2_alg».proof.Defs
import proofs.«172455_j34531537060006_2_alg».proof.Proof.Gen.Kernel
import proofs.«172455_j34531537060006_2_alg».proof.Proof.Gen.KernelIdeal
import proofs.«172455_j34531537060006_2_alg».proof.Proof.Gen.ReferenceIdeal
import proofs.«172455_j34531537060006_2_alg».proof.Proof.Gen.Pre_finite_inputs
import proofs.«172455_j34531537060006_2_alg».proof.Proof.Gen.ReferenceIdeal.Run
import proofs.«172455_j34531537060006_2_alg».proof.Proof.KRun
import proofs.«172455_j34531537060006_2_alg».proof.Proof.KIRun
import proofs.«172455_j34531537060006_2_alg».proof.Proof.KIValue
import proofs.«172455_j34531537060006_2_alg».proof.Proof.RefIsG
import proofs.«172455_j34531537060006_2_alg».proof.Proof.KIFinite

set_option maxRecDepth 16384

noncomputable section

namespace Cert.Proof.Claims

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand in
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Hand.run_full (F := Ideal) m ρ)
    obtain ⟨h0, h1, h2, h3, h4, h5, h6, h7, h8, h9, h10, h11⟩ := Cert.KernelIdeal.Finite.args_real m hpre c
    exact ⟨(h c _ (mem_uc main_v8 (by decide))).trans (Cert.KernelIdeal.Chain.val_v8 m ρ c h0 h1 h2 h3 h4 h5 h6 h7 h8 h9),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c)⟩
  · refine (θ_run Cert.ReferenceIdeal.defs _ _).mono (fun _ h c => ⟨?_, (h c).2⟩) (Cert.ReferenceIdeal.Value.run (F := Ideal) m' ρ')
    obtain ⟨a0, a1, a2, a3, a4, a5, a6, a7, a8, a9, a10, a11⟩ := hagree c
    rw [(h c).1, Cert.ReferenceIdeal.RefValue.ref_eq, a0, a1, a2, a3, a4, a5, a6, a7, a8, a9, a10, a11]

end Cert.Proof.Claims

end
-- ==== Proof.lean ====
/-
  Multi-head attention with an additive bias, computed by five pipelined calls (three projections, a two-key-block
  online-softmax attention, an output projection), against its one-pass reference: the kernel's word-level and idealized
  programs run to the end leaving their arguments unchanged, the reference likewise, the idealization rewrote nothing,
  and on finite inputs the idealized kernel and the idealized reference end with the same array (Proof/Claims.lean).
-/
import proofs.«172455_j34531537060006_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
